-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S170000x64 : Shape := ⟨2, ![170000, 64]⟩
abbrev S2720000 : Shape := ⟨1, ![2720000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S170000x64 : S_.BroadcastsInDim S170000x64 (![] : Fin 0 → Fin S170000x64.rank)
  reducesTo_S170000x64_S_d0_1 : S170000x64.ReducesTo [0, 1] S_
  h_S_ : 0 < S_.numel
  bcast_S_S2720000 : S_.BroadcastsInDim S2720000 (![] : Fin 0 → Fin S2720000.rank)
  reducesTo_S2720000_S_d0 : S2720000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16 .f32) (main_arg12 : FVec F S32x16 .f32) (main_arg13 : FVec F S16 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S32x16 .f32 := Host.absf main_arg12
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg10
  let main_cst_18 : FVec F S_ .f32 := constant S_ .f32 0x7F800000#32
  let main_v50 : FVec F S32x16 .f32 := broadcastInDim S32x16 ![] bcast_S_S32x16 main_cst_18
  fn_part3 (F := F) main_arg11 main_arg12 main_arg13 main_v48 main_v49 main_v50

def fn_part1 {F : FTy → Type} [FloatOps F] (main_arg4 : FVec F S64x64 .f32) (main_arg5 : FVec F S64 .f32) (main_arg6 : FVec F S64x32 .f32) (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S170000x64 .f32) (main_arg1 : FVec F S2720000 .f32) (main_arg2 : FVec F S64x64 .f32) (main_arg3 : FVec F S64 .f32) (main_arg4 : FVec F S64x64 .f32) (main_arg5 : FVec F S64 .f32) (main_arg6 : FVec F S64x32 .f32) (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_arg14 : IVec S2720000 32) (main_arg15 : IVec S2720000 32) : IVec S_ 1 :=
  let main_v0 : FVec F S170000x64 .f32 := Host.absf main_arg0
  let main_cst : FVec F S_ .f32 := constant S_ .f32 0x7F800000#32
  let main_v1 : FVec F S170000x64 .f32 := broadcastInDim S170000x64 ![] bcast_S_S170000x64 main_cst
  let main_v2 : IVec S170000x64 1 := cmpf .olt main_v0 main_v1
  let main_c : IVec S_ 1 := constantI S_ 1 1#1
  let main_v3 : IVec S_ 1 := (fun x v => Host.reduce IntOp.andi x v reducesTo_S170000x64_S_d0_1 h_S_) main_v2 main_c
  let main_v4 : FVec F S2720000 .f32 := Host.absf main_arg1
  let main_cst_0 : FVec F S_ .f32 := constant S_ .f32 0x7F800000#32
  let main_v5 : FVec F S2720000 .f32 := broadcastInDim S2720000 ![] bcast_S_S2720000 main_cst_0
  let main_v6 : IVec S2720000 1 := cmpf .olt main_v4 main_v5
  let main_c_1 : IVec S_ 1 := constantI S_ 1 1#1
  let main_v7 : IVec S_ 1 := (fun x v => Host.reduce IntOp.andi x v reducesTo_S2720000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S170000x64 : Shape := ⟨2, ![170000, 64]⟩
abbrev S2720000 : Shape := ⟨1, ![2720000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S2720000x1 : Shape := ⟨2, ![2720000, 1]⟩
abbrev S2720000x64 : Shape := ⟨2, ![2720000, 64]⟩
abbrev S64x128 : Shape := ⟨2, ![64, 128]⟩
abbrev S128x128 : Shape := ⟨2, ![128, 128]⟩
abbrev S128 : Shape := ⟨1, ![128]⟩
abbrev S5000x64 : Shape := ⟨2, ![5000, 64]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S128x64 : Shape := ⟨2, ![128, 64]⟩
abbrev S170000x32 : Shape := ⟨2, ![170000, 32]⟩
abbrev S5000x32 : Shape := ⟨2, ![5000, 32]⟩
abbrev S1x64 : Shape := ⟨2, ![1, 64]⟩
abbrev S2720000x32 : Shape := ⟨2, ![2720000, 32]⟩
abbrev S32x32 : Shape := ⟨2, ![32, 32]⟩
abbrev S170000x16 : Shape := ⟨2, ![170000, 16]⟩
abbrev S5000x16 : Shape := ⟨2, ![5000, 16]⟩
abbrev S1x32 : Shape := ⟨2, ![1, 32]⟩
abbrev S170000x176 : Shape := ⟨2, ![170000, 176]⟩

abbrev nBuf : Space → Nat
  | .hbm => 100
  | .vmem => 28
  | .smem => 0
  | _ => 0

abbrev bufTy : (tb : Table) → Fin (tcTables nBuf tb) → BufTy
  | .hbm, ⟨0, _⟩ => ⟨S170000x64, .f32⟩
  | .hbm, ⟨1, _⟩ => ⟨S2720000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S32x16, .f32⟩
  | .hbm, ⟨13, _⟩ => ⟨S16, .f32⟩
  | .hbm, ⟨14, _⟩ => ⟨S2720000, .i32⟩
  | .hbm, ⟨15, _⟩ => ⟨S2720000, .i32⟩
  | .hbm, ⟨16, _⟩ => ⟨S170000x64, .bf16⟩
  | .hbm, ⟨17, _⟩ => ⟨S_, .i32⟩
  | .hbm, ⟨18, _⟩ => ⟨S2720000, .i32⟩
  | .hbm, ⟨19, _⟩ => ⟨S2720000, .i1⟩
  | .hbm, ⟨20, _⟩ => ⟨S_, .i32⟩
  | .hbm, ⟨21, _⟩ => ⟨S2720000, .i32⟩
  | .hbm, ⟨22, _⟩ => ⟨S2720000, .i32⟩
  | .hbm, ⟨23, _⟩ => ⟨S2720000, .i32⟩
  | .hbm, ⟨24, _⟩ => ⟨S2720000x1, .i32⟩
  | .hbm, ⟨25, _⟩ => ⟨S2720000x64, .bf16⟩
  | .hbm, ⟨26, _⟩ => ⟨S2720000x64, .f32⟩
  | .hbm, ⟨27, _⟩ => ⟨S2720000x1, .f32⟩
  | .hbm, ⟨28, _⟩ => ⟨S2720000x64, .f32⟩
  | .hbm, ⟨29, _⟩ => ⟨S2720000x64, .f32⟩
  | .hbm, ⟨30, _⟩ => ⟨S_, .f32⟩
  | .hbm, ⟨31, _⟩ => ⟨S170000x64, .f32⟩
  | .hbm, ⟨32, _⟩ => ⟨S2720000x1, .i32⟩
  | .hbm, ⟨33, _⟩ => ⟨S170000x64, .f32⟩
  | .hbm, ⟨34, _⟩ => ⟨S_, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x128, .f32⟩
  | .hbm, ⟨39, _⟩ => ⟨S64x128, .f32⟩
  | .hbm, ⟨40, _⟩ => ⟨S128x128, .f32⟩
  | .hbm, ⟨41, _⟩ => ⟨S128, .f32⟩
  | .hbm, ⟨42, _⟩ => ⟨S170000x64, .f32⟩
  | .hbm, ⟨43, _⟩ => ⟨S170000x64, .f32⟩
  | .hbm, ⟨44, _⟩ => ⟨S170000x64, .bf16⟩
  | .hbm, ⟨45, _⟩ => ⟨S_, .i32⟩
  | .hbm, ⟨46, _⟩ => ⟨S2720000, .i32⟩
  | .hbm, ⟨47, _⟩ => ⟨S2720000, .i1⟩
  | .hbm, ⟨48, _⟩ => ⟨S_, .i32⟩
  | .hbm, ⟨49, _⟩ => ⟨S2720000, .i32⟩
  | .hbm, ⟨50, _⟩ => ⟨S2720000, .i32⟩
  | .hbm, ⟨51, _⟩ => ⟨S2720000, .i32⟩
  | .hbm, ⟨52, _⟩ => ⟨S2720000x1, .i32⟩
  | .hbm, ⟨53, _⟩ => ⟨S2720000x64, .bf16⟩
  | .hbm, ⟨54, _⟩ => ⟨S2720000x64, .f32⟩
  | .hbm, ⟨55, _⟩ => ⟨S2720000x1, .f32⟩
  | .hbm, ⟨56, _⟩ => ⟨S2720000x64, .f32⟩
  | .hbm, ⟨57, _⟩ => ⟨S2720000x64, .f32⟩
  | .hbm, ⟨58, _⟩ => ⟨S_, .f32⟩
  | .hbm, ⟨59, _⟩ => ⟨S170000x64, .f32⟩
  | .hbm, ⟨60, _⟩ => ⟨S2720000x1, .i32⟩
  | .hbm, ⟨61, _⟩ => ⟨S170000x64, .f32⟩
  | .hbm, ⟨62, _⟩ => ⟨S_, .f32⟩
  | .hbm, ⟨63, _⟩ => ⟨S64x32, .f32⟩
  | .hbm, ⟨64, _⟩ => ⟨S_, .f32⟩
  | .hbm, ⟨65, _⟩ => ⟨S64x32, .f32⟩
  | .hbm, ⟨66, _⟩ => ⟨S64x64, .f32⟩
  | .hbm, ⟨67, _⟩ => ⟨S64x64, .f32⟩
  | .hbm, ⟨68, _⟩ => ⟨S128x64, .f32⟩
  | .hbm, ⟨69, _⟩ => ⟨S64, .f32⟩
  | .hbm, ⟨70, _⟩ => ⟨S170000x32, .f32⟩
  | .hbm, ⟨71, _⟩ => ⟨S170000x32, .f32⟩
  | .hbm, ⟨72, _⟩ => ⟨S170000x32, .bf16⟩
  | .hbm, ⟨73, _⟩ => ⟨S_, .i32⟩
  | .hbm, ⟨74, _⟩ => ⟨S2720000, .i32⟩
  | .hbm, ⟨75, _⟩ => ⟨S2720000, .i1⟩
  | .hbm, ⟨76, _⟩ => ⟨S_, .i32⟩
  | .hbm, ⟨77, _⟩ => ⟨S2720000, .i32⟩
  | .hbm, ⟨78, _⟩ => ⟨S2720000, .i32⟩
  | .hbm, ⟨79, _⟩ => ⟨S2720000, .i32⟩
  | .hbm, ⟨80, _⟩ => ⟨S2720000x1, .i32⟩
  | .hbm, ⟨81, _⟩ => ⟨S2720000x32, .bf16⟩
  | .hbm, ⟨82, _⟩ => ⟨S2720000x32, .f32⟩
  | .hbm, ⟨83, _⟩ => ⟨S2720000x1, .f32⟩
  | .hbm, ⟨84, _⟩ => ⟨S2720000x32, .f32⟩
  | .hbm, ⟨85, _⟩ => ⟨S2720000x32, .f32⟩
  | .hbm, ⟨86, _⟩ => ⟨S_, .f32⟩
  | .hbm, ⟨87, _⟩ => ⟨S170000x32, .f32⟩
  | .hbm, ⟨88, _⟩ => ⟨S2720000x1, .i32⟩
  | .hbm, ⟨89, _⟩ => ⟨S170000x32, .f32⟩
  | .hbm, ⟨90, _⟩ => ⟨S_, .f32⟩
  | .hbm, ⟨91, _⟩ => ⟨S32x16, .f32⟩
  | .hbm, ⟨92, _⟩ => ⟨S_, .f32⟩
  | .hbm, ⟨93, _⟩ => ⟨S32x16, .f32⟩
  | .hbm, ⟨94, _⟩ => ⟨S32x32, .f32⟩
  | .hbm, ⟨95, _⟩ => ⟨S32x32, .f32⟩
  | .hbm, ⟨96, _⟩ => ⟨S64x32, .f32⟩
  | .hbm, ⟨97, _⟩ => ⟨S32, .f32⟩
  | .hbm, ⟨98, _⟩ => ⟨S170000x16, .f32⟩
  | .hbm, ⟨99, _⟩ => ⟨S170000x176, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x64, .f32⟩
  | .local _ .vmem, ⟨15, _⟩ => ⟨S64, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S64x32, .f32⟩
  | .local _ .vmem, ⟨25, _⟩ => ⟨S32, .f32⟩
  | .local _ .vmem, ⟨26, _⟩ => ⟨S5000x16, .f32⟩
  | .local _ .vmem, ⟨27, _⟩ => ⟨S5000x16, .f32⟩
  | _, _ => ⟨S170000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![34], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  bcast_S_S2720000 : S_.BroadcastsInDim S2720000 (![] : Fin 0 → Fin S2720000.rank)
  bcast_S2720000_S2720000x1_0 : S2720000.BroadcastsInDim S2720000x1 (![0] : Fin 1 → Fin S2720000x1.rank)
  bcast_S2720000x1_S2720000x64_0_1 : S2720000x1.BroadcastsInDim S2720000x64 (![0, 1] : Fin 2 → Fin S2720000x64.rank)
  bcast_S_S170000x64 : S_.BroadcastsInDim S170000x64 (![] : Fin 0 → Fin S170000x64.rank)
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  reduces_S5000x64_S5000 : S5000x64.Reduces [1] S5000
  shapeCasts_S5000_S5000x1 : S5000.ShapeCasts S5000x1
  broadcasts_S5000x1_S5000x64 : S5000x1.Broadcasts S5000x64
  bcast_S_S64x32 : S_.BroadcastsInDim S64x32 (![] : Fin 0 → Fin S64x32.rank)
  concatenates_S64x32_S64x32_S64x64_d1 : Shape.Concatenates [S64x32, S64x32] S64x64 1
  concatenates_S64x64_S64x64_S128x64_d0 : Shape.Concatenates [S64x64, S64x64] S128x64 0
  concatenates_S32_S32_S64_d0 : Shape.Concatenates [S32, S32] S64 0
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S5000x64_o0_0_S5000x32 : S5000x64.Slices ![0, 0] S5000x32
  slices_S5000x64_o0_32_S5000x32 : S5000x64.Slices ![0, 32] S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S2720000x1_S2720000x32_0_1 : S2720000x1.BroadcastsInDim S2720000x32 (![0, 1] : Fin 2 → Fin S2720000x32.rank)
  bcast_S_S170000x32 : S_.BroadcastsInDim S170000x32 (![] : Fin 0 → Fin S170000x32.rank)
  bcast_S_S32x16 : S_.BroadcastsInDim S32x16 (![] : Fin 0 → Fin S32x16.rank)
  concatenates_S32x16_S32x16_S32x32_d1 : Shape.Concatenates [S32x16, S32x16] S32x32 1
  concatenates_S32x32_S32x32_S64x32_d0 : Shape.Concatenates [S32x32, S32x32] S64x32 0
  concatenates_S16_S16_S32_d0 : Shape.Concatenates [S16, S16] S32 0
  shapeCasts_S5000x32_S5000x32 : S5000x32.ShapeCasts S5000x32
  concatenates_S5000x32_S5000x32_S5000x64_d1 : Shape.Concatenates [S5000x32, S5000x32] S5000x64 1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S5000x32 : S1x32.Broadcasts S5000x32
  slices_S5000x32_o0_0_S5000x16 : S5000x32.Slices ![0, 0] S5000x16
  slices_S5000x32_o0_16_S5000x16 : S5000x32.Slices ![0, 16] S5000x16
  reduces_S5000x16_S5000 : S5000x16.Reduces [1] S5000
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  concatenates_S170000x64_S170000x64_S170000x32_S170000x16_S170000x176_d1 : Shape.Concatenates [S170000x64, S170000x64, S170000x32, S170000x16] S170000x176 1
  gather_S170000x64_S2720000x1_S2720000x64_1_0_n_n_0_1_164_wf : GatherDims.WF S170000x64 S2720000x1 S2720000x64 [1] [0] [] [0] [] 1 ![1, 64]
  scatter_S170000x64_S2720000x1_S2720000x64_1_0_0_1_wf : ScatterDims.WF S170000x64 S2720000x1 S2720000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S170000x32_S2720000x1_S2720000x32_1_0_n_n_0_1_132_wf : GatherDims.WF S170000x32 S2720000x1 S2720000x32 [1] [0] [] [0] [] 1 ![1, 32]
  scatter_S170000x32_S2720000x1_S2720000x32_1_0_0_1_wf : ScatterDims.WF S170000x32 S2720000x1 S2720000x32 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S170000x64.size a
  hwx0_0 : ∀ i : grid0.Coords, EltTy.bits .f32 = 32 ∨ (Rect.block (s := S170000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S170000x64.size a
  hwx0_1 : ∀ i : grid0.Coords, EltTy.bits .f32 = 32 ∨ (Rect.block (s := S170000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S170000x64.size a
  hwx0_4 : ∀ i : grid0.Coords, EltTy.bits .f32 = 32 ∨ (Rect.block (s := S170000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S170000x64.size a
  hwx0_5 : ∀ i : grid0.Coords, EltTy.bits .f32 = 32 ∨ (Rect.block (s := S170000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S170000x64.size a
  hwx1_0 : ∀ i : grid1.Coords, EltTy.bits .f32 = 32 ∨ (Rect.block (s := S170000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S170000x64.size a
  hwx1_1 : ∀ i : grid1.Coords, EltTy.bits .f32 = 32 ∨ (Rect.block (s := S170000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S170000x32.size a
  hwx1_4 : ∀ i : grid1.Coords, EltTy.bits .f32 = 32 ∨ (Rect.block (s := S170000x32) S5000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S170000x32.size a
  hwx1_5 : ∀ i : grid1.Coords, EltTy.bits .f32 = 32 ∨ (Rect.block (s := S170000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S170000x32.size a
  hwx2_0 : ∀ i : grid2.Coords, EltTy.bits .f32 = 32 ∨ (Rect.block (s := S170000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S170000x32.size a
  hwx2_1 : ∀ i : grid2.Coords, EltTy.bits .f32 = 32 ∨ (Rect.block (s := S170000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S170000x16.size a
  hwx2_4 : ∀ i : grid2.Coords, EltTy.bits .f32 = 32 ∨ (Rect.block (s := S170000x16) S5000x16.size (cc2_transform_4 i) (hinb2_4 i)).WholeWords (EltTy.packing .f32)

variable [Facts₀]

def gather_S170000x64_S2720000x1_S2720000x64_1_0_n_n_0_1_164 : GatherDims S170000x64 S2720000x1 S2720000x64 where
  offsetDims := [1]
  collapsedSliceDims := [0]
  operandBatchingDims := []
  startIndicesBatchingDims := []
  startIndexMap := [0]
  indexVectorDim := 1
  sliceSizes := ![1, 64]
  wf := gather_S170000x64_S2720000x1_S2720000x64_1_0_n_n_0_1_164_wf
def scatter_S170000x64_S2720000x1_S2720000x64_1_0_0_1 : ScatterDims S170000x64 S2720000x1 S2720000x64 where
  updateWindowDims := [1]
  insertedWindowDims := [0]
  scatterDimsToOperandDims := [0]
  indexVectorDim := 1
  wf := scatter_S170000x64_S2720000x1_S2720000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S170000x32_S2720000x1_S2720000x32_1_0_n_n_0_1_132 : GatherDims S170000x32 S2720000x1 S2720000x32 where
  offsetDims := [1]
  collapsedSliceDims := [0]
  operandBatchingDims := []
  startIndicesBatchingDims := []
  startIndexMap := [0]
  indexVectorDim := 1
  sliceSizes := ![1, 32]
  wf := gather_S170000x32_S2720000x1_S2720000x32_1_0_n_n_0_1_132_wf
def scatter_S170000x32_S2720000x1_S2720000x32_1_0_0_1 : ScatterDims S170000x32 S2720000x1 S2720000x32 where
  updateWindowDims := [1]
  insertedWindowDims := [0]
  scatterDimsToOperandDims := [0]
  indexVectorDim := 1
  wf := scatter_S170000x32_S2720000x1_S2720000x32_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S170000x64 : Shape := ⟨2, ![170000, 64]⟩
abbrev S2720000 : Shape := ⟨1, ![2720000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2720000x1 : Shape := ⟨2, ![2720000, 1]⟩
abbrev S_ : Shape := ⟨0, ![]⟩
abbrev S2720000x64 : Shape := ⟨2, ![2720000, 64]⟩
abbrev S1x64 : Shape := ⟨2, ![1, 64]⟩
abbrev S170000 : Shape := ⟨1, ![170000]⟩
abbrev S170000x1 : Shape := ⟨2, ![170000, 1]⟩
abbrev S170000x32 : Shape := ⟨2, ![170000, 32]⟩
abbrev S1x32 : Shape := ⟨2, ![1, 32]⟩
abbrev S2720000x32 : Shape := ⟨2, ![2720000, 32]⟩
abbrev S170000x16 : Shape := ⟨2, ![170000, 16]⟩
abbrev S1x16 : Shape := ⟨2, ![1, 16]⟩
abbrev S170000x176 : Shape := ⟨2, ![170000, 176]⟩

abbrev nBuf : Space → Nat
  | .hbm => 170
  | .vmem => 0
  | .smem => 0
  | _ => 0

abbrev hbmTy0_0 (i : Nat) : BufTy := match i % 128 with
  | 0 => ⟨S170000x64, .f32⟩
  | 1 => ⟨S2720000, .f32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x32, .f32⟩
  | 9 => ⟨S32, .f32⟩
  | 10 => ⟨S32x16, .f32⟩
  | 11 => ⟨S16, .f32⟩
  | 12 => ⟨S32x16, .f32⟩
  | 13 => ⟨S16, .f32⟩
  | 14 => ⟨S2720000, .i32⟩
  | 15 => ⟨S2720000, .i32⟩
  | 16 => ⟨S2720000x1, .f32⟩
  | 17 => ⟨S_, .i32⟩
  | 18 => ⟨S2720000, .i32⟩
  | 19 => ⟨S2720000, .i1⟩
  | 20 => ⟨S_, .i32⟩
  | 21 => ⟨S2720000, .i32⟩
  | 22 => ⟨S2720000, .i32⟩
  | 23 => ⟨S2720000, .i32⟩
  | 24 => ⟨S2720000x1, .i32⟩
  | 25 => ⟨S2720000x64, .f32⟩
  | 26 => ⟨S2720000x64, .f32⟩
  | 27 => ⟨S2720000x64, .f32⟩
  | 28 => ⟨S_, .f32⟩
  | 29 => ⟨S170000x64, .f32⟩
  | 30 => ⟨S2720000x1, .i32⟩
  | 31 => ⟨S170000x64, .f32⟩
  | 32 => ⟨S170000x64, .f32⟩
  | 33 => ⟨S170000x64, .f32⟩
  | 34 => ⟨S1x64, .f32⟩
  | 35 => ⟨S170000x64, .f32⟩
  | 36 => ⟨S170000x64, .f32⟩
  | 37 => ⟨S_, .f32⟩
  | 38 => ⟨S170000x64, .f32⟩
  | 39 => ⟨S170000x64, .i1⟩
  | 40 => ⟨S_, .f32⟩
  | 41 => ⟨S170000x64, .f32⟩
  | 42 => ⟨S170000x64, .f32⟩
  | 43 => ⟨S170000x64, .f32⟩
  | 44 => ⟨S170000x64, .f32⟩
  | 45 => ⟨S170000x64, .f32⟩
  | 46 => ⟨S1x64, .f32⟩
  | 47 => ⟨S170000x64, .f32⟩
  | 48 => ⟨S170000x64, .f32⟩
  | 49 => ⟨S_, .f32⟩
  | 50 => ⟨S170000x64, .f32⟩
  | 51 => ⟨S170000x64, .i1⟩
  | 52 => ⟨S_, .f32⟩
  | 53 => ⟨S170000x64, .f32⟩
  | 54 => ⟨S170000x64, .f32⟩
  | 55 => ⟨S170000x64, .f32⟩
  | 56 => ⟨S170000x64, .f32⟩
  | 57 => ⟨S170000x64, .f32⟩
  | 58 => ⟨S_, .f32⟩
  | 59 => ⟨S170000, .f32⟩
  | 60 => ⟨S170000x1, .f32⟩
  | 61 => ⟨S170000x1, .f32⟩
  | 62 => ⟨S_, .f32⟩
  | 63 => ⟨S170000x1, .f32⟩
  | 64 => ⟨S170000x1, .f32⟩
  | 65 => ⟨S170000x64, .f32⟩
  | 66 => ⟨S170000x64, .f32⟩
  | 67 => ⟨S2720000x1, .f32⟩
  | 68 => ⟨S_, .i32⟩
  | 69 => ⟨S2720000, .i32⟩
  | 70 => ⟨S2720000, .i1⟩
  | 71 => ⟨S_, .i32⟩
  | 72 => ⟨S2720000, .i32⟩
  | 73 => ⟨S2720000, .i32⟩
  | 74 => ⟨S2720000, .i32⟩
  | 75 => ⟨S2720000x1, .i32⟩
  | 76 => ⟨S2720000x64, .f32⟩
  | 77 => ⟨S2720000x64, .f32⟩
  | 78 => ⟨S2720000x64, .f32⟩
  | 79 => ⟨S_, .f32⟩
  | 80 => ⟨S170000x64, .f32⟩
  | 81 => ⟨S2720000x1, .i32⟩
  | 82 => ⟨S170000x64, .f32⟩
  | 83 => ⟨S170000x64, .f32⟩
  | 84 => ⟨S170000x32, .f32⟩
  | 85 => ⟨S1x32, .f32⟩
  | 86 => ⟨S170000x32, .f32⟩
  | 87 => ⟨S170000x32, .f32⟩
  | 88 => ⟨S_, .f32⟩
  | 89 => ⟨S170000x32, .f32⟩
  | 90 => ⟨S170000x32, .i1⟩
  | 91 => ⟨S_, .f32⟩
  | 92 => ⟨S170000x32, .f32⟩
  | 93 => ⟨S170000x32, .f32⟩
  | 94 => ⟨S170000x32, .f32⟩
  | 95 => ⟨S170000x64, .f32⟩
  | 96 => ⟨S170000x32, .f32⟩
  | 97 => ⟨S1x32, .f32⟩
  | 98 => ⟨S170000x32, .f32⟩
  | 99 => ⟨S170000x32, .f32⟩
  | 100 => ⟨S_, .f32⟩
  | 101 => ⟨S170000x32, .f32⟩
  | 102 => ⟨S170000x32, .i1⟩
  | 103 => ⟨S_, .f32⟩
  | 104 => ⟨S170000x32, .f32⟩
  | 105 => ⟨S170000x32, .f32⟩
  | 106 => ⟨S170000x32, .f32⟩
  | 107 => ⟨S170000x32, .f32⟩
  | 108 => ⟨S170000x32, .f32⟩
  | 109 => ⟨S_, .f32⟩
  | 110 => ⟨S170000, .f32⟩
  | 111 => ⟨S170000x1, .f32⟩
  | 112 => ⟨S170000x1, .f32⟩
  | 113 => ⟨S_, .f32⟩
  | 114 => ⟨S170000x1, .f32⟩
  | 115 => ⟨S170000x1, .f32⟩
  | 116 => ⟨S170000x32, .f32⟩
  | 117 => ⟨S170000x32, .f32⟩
  | 118 => ⟨S2720000x1, .f32⟩
  | 119 => ⟨S_, .i32⟩
  | 120 => ⟨S2720000, .i32⟩
  | 121 => ⟨S2720000, .i1⟩
  | 122 => ⟨S_, .i32⟩
  | 123 => ⟨S2720000, .i32⟩
  | 124 => ⟨S2720000, .i32⟩
  | 125 => ⟨S2720000, .i32⟩
  | 126 => ⟨S2720000x1, .i32⟩
  | 127 => ⟨S2720000x32, .f32⟩
  | _ => ⟨S170000x64, .f32⟩

abbrev hbmTy0_1 (i : Nat) : BufTy := match i % 128 with
  | 0 => ⟨S2720000x32, .f32⟩
  | 1 => ⟨S2720000x32, .f32⟩
  | 2 => ⟨S_, .f32⟩
  | 3 => ⟨S170000x32, .f32⟩
  | 4 => ⟨S2720000x1, .i32⟩
  | 5 => ⟨S170000x32, .f32⟩
  | 6 => ⟨S170000x32, .f32⟩
  | 7 => ⟨S170000x16, .f32⟩
  | 8 => ⟨S1x16, .f32⟩
  | 9 => ⟨S170000x16, .f32⟩
  | 10 => ⟨S170000x16, .f32⟩
  | 11 => ⟨S_, .f32⟩
  | 12 => ⟨S170000x16, .f32⟩
  | 13 => ⟨S170000x16, .i1⟩
  | 14 => ⟨S_, .f32⟩
  | 15 => ⟨S170000x16, .f32⟩
  | 16 => ⟨S170000x16, .f32⟩
  | 17 => ⟨S170000x16, .f32⟩
  | 18 => ⟨S170000x32, .f32⟩
  | 19 => ⟨S170000x16, .f32⟩
  | 20 => ⟨S1x16, .f32⟩
  | 21 => ⟨S170000x16, .f32⟩
  | 22 => ⟨S170000x16, .f32⟩
  | 23 => ⟨S_, .f32⟩
  | 24 => ⟨S170000x16, .f32⟩
  | 25 => ⟨S170000x16, .i1⟩
  | 26 => ⟨S_, .f32⟩
  | 27 => ⟨S170000x16, .f32⟩
  | 28 => ⟨S170000x16, .f32⟩
  | 29 => ⟨S170000x16, .f32⟩
  | 30 => ⟨S170000x16, .f32⟩
  | 31 => ⟨S170000x16, .f32⟩
  | 32 => ⟨S_, .f32⟩
  | 33 => ⟨S170000, .f32⟩
  | 34 => ⟨S170000x1, .f32⟩
  | 35 => ⟨S170000x1, .f32⟩
  | 36 => ⟨S_, .f32⟩
  | 37 => ⟨S170000x1, .f32⟩
  | 38 => ⟨S170000x1, .f32⟩
  | 39 => ⟨S170000x16, .f32⟩
  | 40 => ⟨S170000x16, .f32⟩
  | 41 => ⟨S170000x176, .f32⟩
  | _ => ⟨S170000x64, .f32⟩

abbrev hbmTy (i : Nat) : BufTy := match i / 128 with
  | 0 => hbmTy0_0 i
  | 1 => hbmTy0_1 i
  | _ => ⟨S170000x64, .f32⟩

abbrev bufTy : (tb : Table) → Fin (tcTables nBuf tb) → BufTy
  | .hbm, ⟨i, _⟩ => hbmTy i
  | _, _ => ⟨S170000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_21 : Ref sig .tc := ⟨.hbm, 151, rfl⟩
abbrev main_v112 : Ref sig .tc := ⟨.hbm, 152, rfl⟩
abbrev main_v113 : Ref sig .tc := ⟨.hbm, 153, rfl⟩
abbrev main_cst_22 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_23 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_24 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩

abbrev nD : Nat := 1
abbrev τ : Topo := Topo.v7x

variable {F : FTy → Type} [FloatOps F]

class Facts₀ : Prop where
  bcast_S2720000_S2720000x1_0 : S2720000.BroadcastsInDim S2720000x1 (![0] : Fin 1 → Fin S2720000x1.rank)
  bcast_S_S2720000 : S_.BroadcastsInDim S2720000 (![] : Fin 0 → Fin S2720000.rank)
  bcast_S2720000x1_S2720000x64_0_1 : S2720000x1.BroadcastsInDim S2720000x64 (![0, 1] : Fin 2 → Fin S2720000x64.rank)
  bcast_S_S170000x64 : S_.BroadcastsInDim S170000x64 (![] : Fin 0 → Fin S170000x64.rank)
  bcast_S64_S1x64_1 : S64.BroadcastsInDim S1x64 (![1] : Fin 1 → Fin S1x64.rank)
  bcast_S1x64_S170000x64_0_1 : S1x64.BroadcastsInDim S170000x64 (![0, 1] : Fin 2 → Fin S170000x64.rank)
  reducesTo_S170000x64_S170000_d1 : S170000x64.ReducesTo [1] S170000
  h_S_ : 0 < S_.numel
  bcast_S170000_S170000x1_0 : S170000.BroadcastsInDim S170000x1 (![0] : Fin 1 → Fin S170000x1.rank)
  bcast_S_S170000x1 : S_.BroadcastsInDim S170000x1 (![] : Fin 0 → Fin S170000x1.rank)
  bcast_S170000x1_S170000x64_0_1 : S170000x1.BroadcastsInDim S170000x64 (![0, 1] : Fin 2 → Fin S170000x64.rank)
  bcast_S32_S1x32_1 : S32.BroadcastsInDim S1x32 (![1] : Fin 1 → Fin S1x32.rank)
  bcast_S1x32_S170000x32_0_1 : S1x32.BroadcastsInDim S170000x32 (![0, 1] : Fin 2 → Fin S170000x32.rank)
  bcast_S_S170000x32 : S_.BroadcastsInDim S170000x32 (![] : Fin 0 → Fin S170000x32.rank)
  reducesTo_S170000x32_S170000_d1 : S170000x32.ReducesTo [1] S170000
  bcast_S170000x1_S170000x32_0_1 : S170000x1.BroadcastsInDim S170000x32 (![0, 1] : Fin 2 → Fin S170000x32.rank)
  bcast_S2720000x1_S2720000x32_0_1 : S2720000x1.BroadcastsInDim S2720000x32 (![0, 1] : Fin 2 → Fin S2720000x32.rank)
  bcast_S16_S1x16_1 : S16.BroadcastsInDim S1x16 (![1] : Fin 1 → Fin S1x16.rank)
  bcast_S1x16_S170000x16_0_1 : S1x16.BroadcastsInDim S170000x16 (![0, 1] : Fin 2 → Fin S170000x16.rank)
  bcast_S_S170000x16 : S_.BroadcastsInDim S170000x16 (![] : Fin 0 → Fin S170000x16.rank)
  reducesTo_S170000x16_S170000_d1 : S170000x16.ReducesTo [1] S170000
  bcast_S170000x1_S170000x16_0_1 : S170000x1.BroadcastsInDim S170000x16 (![0, 1] : Fin 2 → Fin S170000x16.rank)
  concatenates_S170000x64_S170000x64_S170000x32_S170000x16_S170000x176_d1 : Shape.Concatenates [S170000x64, S170000x64, S170000x32, S170000x16] S170000x176 1
  gather_S170000x64_S2720000x1_S2720000x64_1_0_n_n_0_1_164_wf : GatherDims.WF S170000x64 S2720000x1 S2720000x64 [1] [0] [] [0] [] 1 ![1, 64]
  scatter_S170000x64_S2720000x1_S2720000x64_1_0_0_1_wf : ScatterDims.WF S170000x64 S2720000x1 S2720000x64 [1] [0] [0] 1
  dot_S170000x64_S64x64_S170000x64_1_0_0_1_n_n_wf : DotDims.WF S170000x64 S64x64 S170000x64 [1] [0] [0] [1] [] []
  dot_S170000x64_S64x32_S170000x32_1_0_0_1_n_n_wf : DotDims.WF S170000x64 S64x32 S170000x32 [1] [0] [0] [1] [] []
  gather_S170000x32_S2720000x1_S2720000x32_1_0_n_n_0_1_132_wf : GatherDims.WF S170000x32 S2720000x1 S2720000x32 [1] [0] [] [0] [] 1 ![1, 32]
  scatter_S170000x32_S2720000x1_S2720000x32_1_0_0_1_wf : ScatterDims.WF S170000x32 S2720000x1 S2720000x32 [1] [0] [0] 1
  dot_S170000x32_S32x16_S170000x16_1_0_0_1_n_n_wf : DotDims.WF S170000x32 S32x16 S170000x16 [1] [0] [0] [1] [] []

variable [Facts₀]

def gather_S170000x64_S2720000x1_S2720000x64_1_0_n_n_0_1_164 : GatherDims S170000x64 S2720000x1 S2720000x64 where
  offsetDims := [1]
  collapsedSliceDims := [0]
  operandBatchingDims := []
  startIndicesBatchingDims := []
  startIndexMap := [0]
  indexVectorDim := 1
  sliceSizes := ![1, 64]
  wf := gather_S170000x64_S2720000x1_S2720000x64_1_0_n_n_0_1_164_wf
def scatter_S170000x64_S2720000x1_S2720000x64_1_0_0_1 : ScatterDims S170000x64 S2720000x1 S2720000x64 where
  updateWindowDims := [1]
  insertedWindowDims := [0]
  scatterDimsToOperandDims := [0]
  indexVectorDim := 1
  wf := scatter_S170000x64_S2720000x1_S2720000x64_1_0_0_1_wf
def dot_S170000x64_S64x64_S170000x64_1_0_0_1_n_n : DotDims S170000x64 S64x64 S170000x64 where
  lhsContracting := [1]
  rhsContracting := [0]
  lhsNonContracting := [0]
  rhsNonContracting := [1]
  lhsBatch := []
  rhsBatch := []
  wf := dot_S170000x64_S64x64_S170000x64_1_0_0_1_n_n_wf
def dot_S170000x64_S64x32_S170000x32_1_0_0_1_n_n : DotDims S170000x64 S64x32 S170000x32 where
  lhsContracting := [1]
  rhsContracting := [0]
  lhsNonContracting := [0]
  rhsNonContracting := [1]
  lhsBatch := []
  rhsBatch := []
  wf := dot_S170000x64_S64x32_S170000x32_1_0_0_1_n_n_wf
def gather_S170000x32_S2720000x1_S2720000x32_1_0_n_n_0_1_132 : GatherDims S170000x32 S2720000x1 S2720000x32 where
  offsetDims := [1]
  collapsedSliceDims := [0]
  operandBatchingDims := []
  startIndicesBatchingDims := []
  startIndexMap := [0]
  indexVectorDim := 1
  sliceSizes := ![1, 32]
  wf := gather_S170000x32_S2720000x1_S2720000x32_1_0_n_n_0_1_132_wf
def scatter_S170000x32_S2720000x1_S2720000x32_1_0_0_1 : ScatterDims S170000x32 S2720000x1 S2720000x32 where
  updateWindowDims := [1]
  insertedWindowDims := [0]
  scatterDimsToOperandDims := [0]
  indexVectorDim := 1
  wf := scatter_S170000x32_S2720000x1_S2720000x32_1_0_0_1_wf
def dot_S170000x32_S32x16_S170000x16_1_0_0_1_n_n : DotDims S170000x32 S32x16 S170000x16 where
  lhsContracting := [1]
  rhsContracting := [0]
  lhsNonContracting := [0]
  rhsNonContracting := [1]
  lhsBatch := []
  rhsBatch := []
  wf := dot_S170000x32_S32x16_S170000x16_1_0_0_1_n_n_wf

class Facts : Prop extends Facts₀ where

variable [Facts]
-- ==== Proof.KernelBodies.lean ====
/-
  Each of the three launches of the layer kernel, at a parameter `V` (the buffers' contents when the region is entered):
  a window's block at a grid point; what the body leaves in each output's staging buffer — its one whole-block store of
  the payload of the four whole-block loads —; the body's triple by symbolic execution; the pipeline's proof data (every
  input's buffer keeps its block, every output's holds that payload of the input blocks; nothing is owed); and the
  library's body obligation at every grid point. Stated for any float instance.
-/
import proofs.«115229_j70806830842640_2_alg».proof.Proof.Gen.Kernel.Launch
import proofs.«115229_j70806830842640_2_alg».proof.Proof.Gen.Kernel.Skeleton
import proofs.«115229_j70806830842640_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 of @main: custom_call 0, `cc0__layer_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The rectangles the body loads and stores through: each the whole block. -/
abbrev r0_0 : Rect S5000x64 := Rect.unit (s := S5000x64) ![0, 0] S5000x64.size inb_S5000x64_S5000x64_0_0
abbrev r0_1 : Rect S5000x64 := Rect.unit (s := S5000x64) ![0, 0] S5000x64.size inb_S5000x64_S5000x64_0_0
abbrev r0_2 : Rect S128x128 := Rect.unit (s := S128x128) ![0, 0] S128x128.size inb_S128x128_S128x128_0_0
abbrev r0_3 : Rect S128 := Rect.unit (s := S128) ![0] S128.size inb_S128_S128_0
abbrev r0_4 : Rect S5000x64 := Rect.unit (s := S5000x64) ![0, 0] S5000x64.size inb_S5000x64_S5000x64_0_0
abbrev r0_5 : Rect S5000x64 := Rect.unit (s := S5000x64) ![0, 0] S5000x64.size inb_S5000x64_S5000x64_0_0

/-- Output window 4's staging buffer after the body, from the input windows' blocks: its one store, of the payload of the loads. -/
def out0_4 (x0 : Vec F S5000x64 .f32) (x1 : Vec F S5000x64 .f32) (x2 : Vec F S128x128 .f32) (x3 : Vec F S128 .f32) : Vec F S5000x64 .f32 :=
  View.canon [⟨r0_4, k0_pay1 (View.ld x0 r0_0) (View.ld x1 r0_1) (View.ld x2 r0_2) (View.ld x3 r0_3)⟩]

/-- The store tiles the buffer, so it covers it. -/
theorem cover0_4 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-- Output window 5's staging buffer after the body, from the input windows' blocks: its one store, of the payload of the loads. -/
def out0_5 (x0 : Vec F S5000x64 .f32) (x1 : Vec F S5000x64 .f32) (x2 : Vec F S128x128 .f32) (x3 : Vec F S128 .f32) : Vec F S5000x64 .f32 :=
  View.canon [⟨r0_5, k0_pay2 (View.ld x0 r0_0) (View.ld x1 r0_1) (View.ld x2 r0_2) (View.ld x3 r0_3)⟩]

/-- The store tiles the buffer, so it covers it. -/
theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 2000000 in
/-- The kernel body on whole staging memrefs, the inputs' at read contents and the outputs' at anything, runs to the
    continuation holding the inputs' as they were and each output's at its one store's payload of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The proof data of pipeline 0 on core `c`: the arrays as the region finds them; after the body at point `t` each
    input's buffer at its block and each output's at its payload of the input blocks; the class invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__layer_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The rectangles the body loads and stores through: each the whole block. -/
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S128x64 := Rect.unit (s := S128x64) ![0, 0] S128x64.size inb_S128x64_S128x64_0_0
abbrev r1_3 : Rect S64 := Rect.unit (s := S64) ![0] S64.size inb_S64_S64_0
abbrev r1_4 : Rect S5000x32 := Rect.unit (s := S5000x32) ![0, 0] S5000x32.size inb_S5000x32_S5000x32_0_0
abbrev r1_5 : Rect S5000x32 := Rect.unit (s := S5000x32) ![0, 0] S5000x32.size inb_S5000x32_S5000x32_0_0

/-- Output window 4's staging buffer after the body, from the input windows' blocks: its one store, of the payload of the loads. -/
def out1_4 (x0 : Vec F S5000x64 .f32) (x1 : Vec F S5000x64 .f32) (x2 : Vec F S128x64 .f32) (x3 : Vec F S64 .f32) : Vec F S5000x32 .f32 :=
  View.canon [⟨r1_4, k1_pay1 (View.ld x0 r1_0) (View.ld x1 r1_1) (View.ld x2 r1_2) (View.ld x3 r1_3)⟩]

/-- The store tiles the buffer, so it covers it. -/
theorem cover1_4 (p0 : Vec F S5000x32 .f32) (y : S5000x32.Idx) :
    ∃ pc ∈ ([⟨r1_4, p0⟩] : List (View.Piece (Elt F) S5000x32 .f32)), y ∈ pc.1.set :=
  View.cover_of_tiled [⟨r1_4, p0⟩] S5000x32.size (by rfl) y

/-- Output window 5's staging buffer after the body, from the input windows' blocks: its one store, of the payload of the loads. -/
def out1_5 (x0 : Vec F S5000x64 .f32) (x1 : Vec F S5000x64 .f32) (x2 : Vec F S128x64 .f32) (x3 : Vec F S64 .f32) : Vec F S5000x32 .f32 :=
  View.canon [⟨r1_5, k1_pay2 (View.ld x0 r1_0) (View.ld x1 r1_1) (View.ld x2 r1_2) (View.ld x3 r1_3)⟩]

/-- The store tiles the buffer, so it covers it. -/
theorem cover1_5 (p0 : Vec F S5000x32 .f32) (y : S5000x32.Idx) :
    ∃ pc ∈ ([⟨r1_5, p0⟩] : List (View.Piece (Elt F) S5000x32 .f32)), y ∈ pc.1.set :=
  View.cover_of_tiled [⟨r1_5, p0⟩] S5000x32.size (by rfl) y

set_option maxHeartbeats 2000000 in
/-- The kernel body on whole staging memrefs, the inputs' at read contents and the outputs' at anything, runs to the
    continuation holding the inputs' as they were and each output's at its one store's payload of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S5000x32 .f32) (harg5 : arg5.IsWhole) (arg6 : Memref sig .tc .vmem S5000x32 .f32) (harg6 : arg6.IsWhole)
    (x0 : Vec F S5000x64 .f32) (x1 : Vec F S5000x64 .f32) (x2 : Vec F S128x64 .f32) (x3 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The proof data of pipeline 1 on core `c`: the arrays as the region finds them; after the body at point `t` each
    input's buffer at its block and each output's at its payload of the input blocks; the class invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: custom_call 2, `cc2__layer_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The rectangles the body loads and stores through: each the whole block. -/
abbrev r2_0 : Rect S5000x32 := Rect.unit (s := S5000x32) ![0, 0] S5000x32.size inb_S5000x32_S5000x32_0_0
abbrev r2_1 : Rect S5000x32 := Rect.unit (s := S5000x32) ![0, 0] S5000x32.size inb_S5000x32_S5000x32_0_0
abbrev r2_2 : Rect S64x32 := Rect.unit (s := S64x32) ![0, 0] S64x32.size inb_S64x32_S64x32_0_0
abbrev r2_3 : Rect S32 := Rect.unit (s := S32) ![0] S32.size inb_S32_S32_0
abbrev r2_4 : Rect S5000x16 := Rect.unit (s := S5000x16) ![0, 0] S5000x16.size inb_S5000x16_S5000x16_0_0

/-- Output window 4's staging buffer after the body, from the input windows' blocks: its one store, of the payload of the loads. -/
def out2_4 (x0 : Vec F S5000x32 .f32) (x1 : Vec F S5000x32 .f32) (x2 : Vec F S64x32 .f32) (x3 : Vec F S32 .f32) : Vec F S5000x16 .f32 :=
  View.canon [⟨r2_4, k2_pay1 (View.ld x0 r2_0) (View.ld x1 r2_1) (View.ld x2 r2_2) (View.ld x3 r2_3)⟩]

/-- The store tiles the buffer, so it covers it. -/
theorem cover2_4 (p0 : Vec F S5000x16 .f32) (y : S5000x16.Idx) :
    ∃ pc ∈ ([⟨r2_4, p0⟩] : List (View.Piece (Elt F) S5000x16 .f32)), y ∈ pc.1.set :=
  View.cover_of_tiled [⟨r2_4, p0⟩] S5000x16.size (by rfl) y

set_option maxHeartbeats 2000000 in
/-- The kernel body on whole staging memrefs, the inputs' at read contents and the outputs' at anything, runs to the
    continuation holding the inputs' as they were and each output's at its one store's payload of the inputs'. -/
theorem sound_kernel2 (c : Dev nD) (E : Set ℕ) (i : grid2.Coords) (arg1 : Memref sig .tc .vmem S5000x32 .f32) (harg1 : arg1.IsWhole) (arg2 : Memref sig .tc .vmem S5000x32 .f32) (harg2 : arg2.IsWhole) (arg3 : Memref sig .tc .vmem S64x32 .f32) (harg3 : arg3.IsWhole) (arg4 : Memref sig .tc .vmem S32 .f32) (harg4 : arg4.IsWhole) (arg5 : Memref sig .tc .vmem S5000x16 .f32) (harg5 : arg5.IsWhole)
    (x0 : Vec F S5000x32 .f32) (x1 : Vec F S5000x32 .f32) (x2 : Vec F S64x32 .f32) (x3 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and each output's at its payload of the input blocks; the class invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Frame

end
-- ==== Proof.KernelRun.lean ====
/-
  The run of @main as seven items — a stretch of host operations, a launch, a stretch, a launch, a stretch, a launch and
  the last stretch — over the contents of every unscoped buffer at each boundary (a fold from the launch memory: a
  stretch applies its operations, a launch leaves its arrays at what its pipeline's write-backs fold to and every other
  buffer alone). One theorem: every weakly fair execution terminates, nothing faulting, with EVERY unscoped buffer at
  the last boundary's contents; the arguments' buffers there are the launch memory's. Stated for any float instance.
-/
import proofs.«115229_j70806830842640_2_alg».proof.Proof.Gen.Kernel.Launch
import proofs.«115229_j70806830842640_2_alg».proof.Proof.Gen.Kernel.Skeleton
import proofs.«115229_j70806830842640_2_alg».proof.Proof.Gen.Kernel.Points
import proofs.«115229_j70806830842640_2_alg».proof.Proof.Gen.Kernel.Regions
import proofs.«115229_j70806830842640_2_alg».proof.Proof.KernelBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between @main's seven items: a fold from the launch memory -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same, read at the TensorCore's references (what region 0's proof data take). -/
abbrev X1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)
/-- After the host stretch `hostOps1` (region 1's entry). -/
abbrev W3 : Dev nD → Valuation τ sig (Elt F) := fun c => StableHlo.after hostOps1 (W2 m ρ c)
/-- The same, read at the TensorCore's references (what region 1's proof data take). -/
abbrev X3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (X3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = X3 m ρ c b :=
  fun b hb => W4_of_ne m ρ c b fun w e => hb (Finset.mem_image.mpr ⟨w, Finset.mem_univ _, e⟩)
/-- After the host stretch `hostOps2` (region 2's entry). -/
abbrev W5 : Dev nD → Valuation τ sig (Elt F) := fun c => StableHlo.after hostOps2 (W4 m ρ c)
/-- The same, read at the TensorCore's references (what region 2's proof data take). -/
abbrev X5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (X5 m ρ) c).arrAt w cfg2.N
theorem W6_arr (c : Dev nD) (w : Fin cfg2.W) :
    W6 m ρ c (Proc.devRef .tc (Pipeline.arrRef spec2 w)) = (dat2 (X5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (X5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = X5 m ρ c b :=
  fun b hb => W6_of_ne m ρ c b fun w e => hb (Finset.mem_image.mpr ⟨w, Finset.mem_univ _, e⟩)
/-- After the last host stretch `hostOps3` (the result's join): what the launch reads at the end. -/
abbrev W7 : Dev nD → Valuation τ sig (Elt F) := fun c => StableHlo.after hostOps3 (W6 m ρ c)

/-! ## The arguments end as launched: no host operation writes one, and the one region that has an argument among its
    arrays (region 0 reads the input embeddings through window 0) only reads it -/

/-- A buffer no host operation writes and no region has among its arrays holds its launch contents at the end. -/
theorem W7_untouched (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b n2
    _ = W4 m ρ c (Proc.devRef .tc b) := StableHlo.after_of_writes_sub hostOps2 _ hostOps2_writes h2
    _ = W3 m ρ c (Proc.devRef .tc b) := W4_of_ne m ρ c b n1
    _ = W2 m ρ c (Proc.devRef .tc b) := StableHlo.after_of_writes_sub hostOps1 _ hostOps1_writes h1
    _ = W1 m ρ c (Proc.devRef .tc b) := W2_of_ne m ρ c b n0
    _ = W0 m ρ c (Proc.devRef .tc b) := StableHlo.after_of_writes_sub hostOps0 _ hostOps0_writes h0
    _ = m ((c : Thread nD τ).loc b) := rfl

/-- The input embeddings: region 0's window 0 is an input, so its array ends as entered. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (X1 m ρ) c).arrAt_in 0 rfl _).trans (A_eq0 (X1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_untouched m ρ c main_arg12 (by decide) (by decide) (by decide) (by decide) (by decide) (by decide) (by decide)
theorem W7_main_arg13 (c : Dev nD) : W7 m ρ c (Proc.devRef .tc main_arg13) = m ((c : Thread nD τ).loc main_arg13) :=
  W7_untouched m ρ c main_arg13 (by decide) (by decide) (by decide) (by decide) (by decide) (by decide) (by decide)
theorem W7_main_arg14 (c : Dev nD) : W7 m ρ c (Proc.devRef .tc main_arg14) = m ((c : Thread nD τ).loc main_arg14) :=
  W7_untouched m ρ c main_arg14 (by decide) (by decide) (by decide) (by decide) (by decide) (by decide) (by decide)
theorem W7_main_arg15 (c : Dev nD) : W7 m ρ c (Proc.devRef .tc main_arg15) = m ((c : Thread nD τ).loc main_arg15) :=
  W7_untouched m ρ c main_arg15 (by decide) (by decide) (by decide) (by decide) (by decide) (by decide) (by decide)

/-! ## The proof data family and the thread state -/

/-- The prefetched tables' admissible contents: no pipeline has a table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (X1 m ρ) c
  | ⟨1, _⟩ => fun c => dat1 (X3 m ρ) c
  | ⟨2, _⟩ => fun c => dat2 (X5 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through the first six items: the core's generator register at some state and its dues,
    at nothing. -/
abbrev Rst (c : Dev nD) : sProp 𝕄 := iprop((∃ r, prngReg c r) ∗ ∃ W, owes (c : Thread nD τ) (0 : CellTallies nD τ sig Unit) W)
/-- What rides through the last item: the dues only. -/
abbrev Rlast (c : Dev nD) : sProp 𝕄 := iprop(∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) padm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ Ln lvn 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) padm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ Ln lvn 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (X3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) padm (pdats m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ Ln lvn 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rlast c)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (X5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's seven segments in order. -/
abbrev rsegs : List (Pipeline.Seg (pcfgs (F := F)) padm (pdats m ρ) () defs₀ 𝒱n Ln lvn) :=
  [ .host (hseg hostOps0 hostOps0_sub hostOps0_fresh (W0 m ρ) Rst),
    .region (reg0 m ρ),
    .host (hseg hostOps1 hostOps1_sub hostOps1_fresh (W2 m ρ) Rst),
    .region (reg1 m ρ),
    .host (hseg hostOps2 hostOps2_sub hostOps2_fresh (W4 m ρ) Rst),
    .region (reg2 m ρ),
    .host (hseg hostOps3 hostOps3_sub hostOps3_fresh (W6 m ρ) Rlast) ]

/-- @main IS the run of the segments. -/
theorem main_run (c : Dev nD) : main (F := F) c = Pipeline.Seg.run (rsegs m ρ) := (main_chain c).trans (by chain_rfl)

set_option backward.isDefEq.respectTransparency.types false in
/-- THE RUN: at the compiled mesh, from any memory with zero counters, every weakly fair execution of @main on the
    TensorCores terminates, nothing faulting, and every final state holds EVERY unscoped buffer at the last boundary's
    contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱n Ln lvn m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (run m ρ)

end Cert.Kernel.Frame

end
-- ==== Proof.KernelIdealBodies.lean ====
/-
  Each of the three launches of the layer kernel, at a parameter `V` (the buffers' contents when the region is entered):
  a window's block at a grid point; what the body leaves in each output's staging buffer — its one whole-block store of
  the payload of the four whole-block loads —; the body's triple by symbolic execution; the pipeline's proof data (every
  input's buffer keeps its block, every output's holds that payload of the input blocks; nothing is owed); and the
  library's body obligation at every grid point. Stated for any float instance.
-/
import proofs.«115229_j70806830842640_2_alg».proof.Proof.Gen.KernelIdeal.Launch
import proofs.«115229_j70806830842640_2_alg».proof.Proof.Gen.KernelIdeal.Skeleton
import proofs.«115229_j70806830842640_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 of @main: custom_call 0, `cc0__layer_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The rectangles the body loads and stores through: each the whole block. -/
abbrev r0_0 : Rect S5000x64 := Rect.unit (s := S5000x64) ![0, 0] S5000x64.size inb_S5000x64_S5000x64_0_0
abbrev r0_1 : Rect S5000x64 := Rect.unit (s := S5000x64) ![0, 0] S5000x64.size inb_S5000x64_S5000x64_0_0
abbrev r0_2 : Rect S128x128 := Rect.unit (s := S128x128) ![0, 0] S128x128.size inb_S128x128_S128x128_0_0
abbrev r0_3 : Rect S128 := Rect.unit (s := S128) ![0] S128.size inb_S128_S128_0
abbrev r0_4 : Rect S5000x64 := Rect.unit (s := S5000x64) ![0, 0] S5000x64.size inb_S5000x64_S5000x64_0_0
abbrev r0_5 : Rect S5000x64 := Rect.unit (s := S5000x64) ![0, 0] S5000x64.size inb_S5000x64_S5000x64_0_0

/-- Output window 4's staging buffer after the body, from the input windows' blocks: its one store, of the payload of the loads. -/
def out0_4 (x0 : Vec F S5000x64 .f32) (x1 : Vec F S5000x64 .f32) (x2 : Vec F S128x128 .f32) (x3 : Vec F S128 .f32) : Vec F S5000x64 .f32 :=
  View.canon [⟨r0_4, k0_pay1 (View.ld x0 r0_0) (View.ld x1 r0_1) (View.ld x2 r0_2) (View.ld x3 r0_3)⟩]

/-- The store tiles the buffer, so it covers it. -/
theorem cover0_4 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-- Output window 5's staging buffer after the body, from the input windows' blocks: its one store, of the payload of the loads. -/
def out0_5 (x0 : Vec F S5000x64 .f32) (x1 : Vec F S5000x64 .f32) (x2 : Vec F S128x128 .f32) (x3 : Vec F S128 .f32) : Vec F S5000x64 .f32 :=
  View.canon [⟨r0_5, k0_pay2 (View.ld x0 r0_0) (View.ld x1 r0_1) (View.ld x2 r0_2) (View.ld x3 r0_3)⟩]

/-- The store tiles the buffer, so it covers it. -/
theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 2000000 in
/-- The kernel body on whole staging memrefs, the inputs' at read contents and the outputs' at anything, runs to the
    continuation holding the inputs' as they were and each output's at its one store's payload of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The proof data of pipeline 0 on core `c`: the arrays as the region finds them; after the body at point `t` each
    input's buffer at its block and each output's at its payload of the input blocks; the class invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__layer_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The rectangles the body loads and stores through: each the whole block. -/
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S128x64 := Rect.unit (s := S128x64) ![0, 0] S128x64.size inb_S128x64_S128x64_0_0
abbrev r1_3 : Rect S64 := Rect.unit (s := S64) ![0] S64.size inb_S64_S64_0
abbrev r1_4 : Rect S5000x32 := Rect.unit (s := S5000x32) ![0, 0] S5000x32.size inb_S5000x32_S5000x32_0_0
abbrev r1_5 : Rect S5000x32 := Rect.unit (s := S5000x32) ![0, 0] S5000x32.size inb_S5000x32_S5000x32_0_0

/-- Output window 4's staging buffer after the body, from the input windows' blocks: its one store, of the payload of the loads. -/
def out1_4 (x0 : Vec F S5000x64 .f32) (x1 : Vec F S5000x64 .f32) (x2 : Vec F S128x64 .f32) (x3 : Vec F S64 .f32) : Vec F S5000x32 .f32 :=
  View.canon [⟨r1_4, k1_pay1 (View.ld x0 r1_0) (View.ld x1 r1_1) (View.ld x2 r1_2) (View.ld x3 r1_3)⟩]

/-- The store tiles the buffer, so it covers it. -/
theorem cover1_4 (p0 : Vec F S5000x32 .f32) (y : S5000x32.Idx) :
    ∃ pc ∈ ([⟨r1_4, p0⟩] : List (View.Piece (Elt F) S5000x32 .f32)), y ∈ pc.1.set :=
  View.cover_of_tiled [⟨r1_4, p0⟩] S5000x32.size (by rfl) y

/-- Output window 5's staging buffer after the body, from the input windows' blocks: its one store, of the payload of the loads. -/
def out1_5 (x0 : Vec F S5000x64 .f32) (x1 : Vec F S5000x64 .f32) (x2 : Vec F S128x64 .f32) (x3 : Vec F S64 .f32) : Vec F S5000x32 .f32 :=
  View.canon [⟨r1_5, k1_pay2 (View.ld x0 r1_0) (View.ld x1 r1_1) (View.ld x2 r1_2) (View.ld x3 r1_3)⟩]

/-- The store tiles the buffer, so it covers it. -/
theorem cover1_5 (p0 : Vec F S5000x32 .f32) (y : S5000x32.Idx) :
    ∃ pc ∈ ([⟨r1_5, p0⟩] : List (View.Piece (Elt F) S5000x32 .f32)), y ∈ pc.1.set :=
  View.cover_of_tiled [⟨r1_5, p0⟩] S5000x32.size (by rfl) y

set_option maxHeartbeats 2000000 in
/-- The kernel body on whole staging memrefs, the inputs' at read contents and the outputs' at anything, runs to the
    continuation holding the inputs' as they were and each output's at its one store's payload of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S5000x32 .f32) (harg5 : arg5.IsWhole) (arg6 : Memref sig .tc .vmem S5000x32 .f32) (harg6 : arg6.IsWhole)
    (x0 : Vec F S5000x64 .f32) (x1 : Vec F S5000x64 .f32) (x2 : Vec F S128x64 .f32) (x3 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The proof data of pipeline 1 on core `c`: the arrays as the region finds them; after the body at point `t` each
    input's buffer at its block and each output's at its payload of the input blocks; the class invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: custom_call 2, `cc2__layer_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The rectangles the body loads and stores through: each the whole block. -/
abbrev r2_0 : Rect S5000x32 := Rect.unit (s := S5000x32) ![0, 0] S5000x32.size inb_S5000x32_S5000x32_0_0
abbrev r2_1 : Rect S5000x32 := Rect.unit (s := S5000x32) ![0, 0] S5000x32.size inb_S5000x32_S5000x32_0_0
abbrev r2_2 : Rect S64x32 := Rect.unit (s := S64x32) ![0, 0] S64x32.size inb_S64x32_S64x32_0_0
abbrev r2_3 : Rect S32 := Rect.unit (s := S32) ![0] S32.size inb_S32_S32_0
abbrev r2_4 : Rect S5000x16 := Rect.unit (s := S5000x16) ![0, 0] S5000x16.size inb_S5000x16_S5000x16_0_0

/-- Output window 4's staging buffer after the body, from the input windows' blocks: its one store, of the payload of the loads. -/
def out2_4 (x0 : Vec F S5000x32 .f32) (x1 : Vec F S5000x32 .f32) (x2 : Vec F S64x32 .f32) (x3 : Vec F S32 .f32) : Vec F S5000x16 .f32 :=
  View.canon [⟨r2_4, k2_pay1 (View.ld x0 r2_0) (View.ld x1 r2_1) (View.ld x2 r2_2) (View.ld x3 r2_3)⟩]

/-- The store tiles the buffer, so it covers it. -/
theorem cover2_4 (p0 : Vec F S5000x16 .f32) (y : S5000x16.Idx) :
    ∃ pc ∈ ([⟨r2_4, p0⟩] : List (View.Piece (Elt F) S5000x16 .f32)), y ∈ pc.1.set :=
  View.cover_of_tiled [⟨r2_4, p0⟩] S5000x16.size (by rfl) y

set_option maxHeartbeats 2000000 in
/-- The kernel body on whole staging memrefs, the inputs' at read contents and the outputs' at anything, runs to the
    continuation holding the inputs' as they were and each output's at its one store's payload of the inputs'. -/
theorem sound_kernel2 (c : Dev nD) (E : Set ℕ) (i : grid2.Coords) (arg1 : Memref sig .tc .vmem S5000x32 .f32) (harg1 : arg1.IsWhole) (arg2 : Memref sig .tc .vmem S5000x32 .f32) (harg2 : arg2.IsWhole) (arg3 : Memref sig .tc .vmem S64x32 .f32) (harg3 : arg3.IsWhole) (arg4 : Memref sig .tc .vmem S32 .f32) (harg4 : arg4.IsWhole) (arg5 : Memref sig .tc .vmem S5000x16 .f32) (harg5 : arg5.IsWhole)
    (x0 : Vec F S5000x32 .f32) (x1 : Vec F S5000x32 .f32) (x2 : Vec F S64x32 .f32) (x3 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and each output's at its payload of the input blocks; the class invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Frame

end
-- ==== Proof.KernelIdealRun.lean ====
/-
  The run of @main as seven items — a stretch of host operations, a launch, a stretch, a launch, a stretch, a launch and
  the last stretch — over the contents of every unscoped buffer at each boundary (a fold from the launch memory: a
  stretch applies its operations, a launch leaves its arrays at what its pipeline's write-backs fold to and every other
  buffer alone). One theorem: every weakly fair execution terminates, nothing faulting, with EVERY unscoped buffer at
  the last boundary's contents; the arguments' buffers there are the launch memory's. Stated for any float instance.
-/
import proofs.«115229_j70806830842640_2_alg».proof.Proof.Gen.KernelIdeal.Launch
import proofs.«115229_j70806830842640_2_alg».proof.Proof.Gen.KernelIdeal.Skeleton
import proofs.«115229_j70806830842640_2_alg».proof.Proof.Gen.KernelIdeal.Points
import proofs.«115229_j70806830842640_2_alg».proof.Proof.Gen.KernelIdeal.Regions
import proofs.«115229_j70806830842640_2_alg».proof.Proof.KernelIdealBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between @main's seven items: a fold from the launch memory -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same, read at the TensorCore's references (what region 0's proof data take). -/
abbrev X1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)
/-- After the host stretch `hostOps1` (region 1's entry). -/
abbrev W3 : Dev nD → Valuation τ sig (Elt F) := fun c => StableHlo.after hostOps1 (W2 m ρ c)
/-- The same, read at the TensorCore's references (what region 1's proof data take). -/
abbrev X3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (X3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = X3 m ρ c b :=
  fun b hb => W4_of_ne m ρ c b fun w e => hb (Finset.mem_image.mpr ⟨w, Finset.mem_univ _, e⟩)
/-- After the host stretch `hostOps2` (region 2's entry). -/
abbrev W5 : Dev nD → Valuation τ sig (Elt F) := fun c => StableHlo.after hostOps2 (W4 m ρ c)
/-- The same, read at the TensorCore's references (what region 2's proof data take). -/
abbrev X5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (X5 m ρ) c).arrAt w cfg2.N
theorem W6_arr (c : Dev nD) (w : Fin cfg2.W) :
    W6 m ρ c (Proc.devRef .tc (Pipeline.arrRef spec2 w)) = (dat2 (X5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (X5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = X5 m ρ c b :=
  fun b hb => W6_of_ne m ρ c b fun w e => hb (Finset.mem_image.mpr ⟨w, Finset.mem_univ _, e⟩)
/-- After the last host stretch `hostOps3` (the result's join): what the launch reads at the end. -/
abbrev W7 : Dev nD → Valuation τ sig (Elt F) := fun c => StableHlo.after hostOps3 (W6 m ρ c)

/-! ## The arguments end as launched: no host operation writes one, and the one region that has an argument among its
    arrays (region 0 reads the input embeddings through window 0) only reads it -/

/-- A buffer no host operation writes and no region has among its arrays holds its launch contents at the end. -/
theorem W7_untouched (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b n2
    _ = W4 m ρ c (Proc.devRef .tc b) := StableHlo.after_of_writes_sub hostOps2 _ hostOps2_writes h2
    _ = W3 m ρ c (Proc.devRef .tc b) := W4_of_ne m ρ c b n1
    _ = W2 m ρ c (Proc.devRef .tc b) := StableHlo.after_of_writes_sub hostOps1 _ hostOps1_writes h1
    _ = W1 m ρ c (Proc.devRef .tc b) := W2_of_ne m ρ c b n0
    _ = W0 m ρ c (Proc.devRef .tc b) := StableHlo.after_of_writes_sub hostOps0 _ hostOps0_writes h0
    _ = m ((c : Thread nD τ).loc b) := rfl

/-- The input embeddings: region 0's window 0 is an input, so its array ends as entered. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (X1 m ρ) c).arrAt_in 0 rfl _).trans (A_eq0 (X1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_untouched m ρ c main_arg12 (by decide) (by decide) (by decide) (by decide) (by decide) (by decide) (by decide)
theorem W7_main_arg13 (c : Dev nD) : W7 m ρ c (Proc.devRef .tc main_arg13) = m ((c : Thread nD τ).loc main_arg13) :=
  W7_untouched m ρ c main_arg13 (by decide) (by decide) (by decide) (by decide) (by decide) (by decide) (by decide)
theorem W7_main_arg14 (c : Dev nD) : W7 m ρ c (Proc.devRef .tc main_arg14) = m ((c : Thread nD τ).loc main_arg14) :=
  W7_untouched m ρ c main_arg14 (by decide) (by decide) (by decide) (by decide) (by decide) (by decide) (by decide)
theorem W7_main_arg15 (c : Dev nD) : W7 m ρ c (Proc.devRef .tc main_arg15) = m ((c : Thread nD τ).loc main_arg15) :=
  W7_untouched m ρ c main_arg15 (by decide) (by decide) (by decide) (by decide) (by decide) (by decide) (by decide)

/-! ## The proof data family and the thread state -/

/-- The prefetched tables' admissible contents: no pipeline has a table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (X1 m ρ) c
  | ⟨1, _⟩ => fun c => dat1 (X3 m ρ) c
  | ⟨2, _⟩ => fun c => dat2 (X5 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through the first six items: the core's generator register at some state and its dues,
    at nothing. -/
abbrev Rst (c : Dev nD) : sProp 𝕄 := iprop((∃ r, prngReg c r) ∗ ∃ W, owes (c : Thread nD τ) (0 : CellTallies nD τ sig Unit) W)
/-- What rides through the last item: the dues only. -/
abbrev Rlast (c : Dev nD) : sProp 𝕄 := iprop(∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) padm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ Ln lvn 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) padm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ Ln lvn 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (X3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) padm (pdats m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ Ln lvn 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rlast c)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (X5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's seven segments in order. -/
abbrev rsegs : List (Pipeline.Seg (pcfgs (F := F)) padm (pdats m ρ) () defs₀ 𝒱n Ln lvn) :=
  [ .host (hseg hostOps0 hostOps0_sub hostOps0_fresh (W0 m ρ) Rst),
    .region (reg0 m ρ),
    .host (hseg hostOps1 hostOps1_sub hostOps1_fresh (W2 m ρ) Rst),
    .region (reg1 m ρ),
    .host (hseg hostOps2 hostOps2_sub hostOps2_fresh (W4 m ρ) Rst),
    .region (reg2 m ρ),
    .host (hseg hostOps3 hostOps3_sub hostOps3_fresh (W6 m ρ) Rlast) ]

/-- @main IS the run of the segments. -/
theorem main_run (c : Dev nD) : main (F := F) c = Pipeline.Seg.run (rsegs m ρ) := (main_chain c).trans (by chain_rfl)

set_option backward.isDefEq.respectTransparency.types false in
/-- THE RUN: at the compiled mesh, from any memory with zero counters, every weakly fair execution of @main on the
    TensorCores terminates, nothing faulting, and every final state holds EVERY unscoped buffer at the last boundary's
    contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱n Ln lvn m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (run m ρ)

end Cert.KernelIdeal.Frame

end
-- ==== Proof.HostTerms.lean ====
/-
  What the kernel program's host operations build before each launch, as named functions of their operands:
  the block-diagonal weight [[w1, 0], [0, w2]] (two joins along the columns, one along the rows, against all-zero
  blocks), the joined bias [b1 | b2], and the aggregation A · ego whose gathered rows pass through bf16 and back
  (at the ideal instance a change of format is the identity, so it is the aggregation itself).
-/
import proofs.«115229_j70806830842640_2_alg».proof.KernelIdeal

noncomputable section

namespace Cert.KernelIdeal.HostTerms

open Idealize.ShloMosaic Cert.KernelIdeal Cert.KernelIdeal.Facts₀ Cert.KernelIdeal.Facts

variable {F : FTy → Type} [FloatOps F] [Cert.KernelIdeal.Facts]

abbrev FArr (s : Shape) : Type := (⟨s, .f32⟩ : BufTy).Contents (Elt F)
abbrev WArr (s : Shape) : Type := (⟨s, .i32⟩ : BufTy).Contents (Elt F)

/-- [[w1, 0], [0, w2]] for the first layer (64 → 64). -/
def wcat0 (w1 w2 : FArr (F := F) S64x64) : FArr (F := F) S128x128 :=
  concatenate S128x128 0
    [⟨S64x128, concatenate S64x128 1 [⟨S64x64, w1⟩, ⟨S64x64, broadcastInDim S64x64 ![] bcast_S_S64x64 (constant (F := F) S_ .f32 0x00000000#32)⟩] concatenates_S64x64_S64x64_S64x128_d1⟩,
     ⟨S64x128, concatenate S64x128 1 [⟨S64x64, broadcastInDim S64x64 ![] bcast_S_S64x64 (constant (F := F) S_ .f32 0x00000000#32)⟩, ⟨S64x64, w2⟩] concatenates_S64x64_S64x64_S64x128_d1⟩]
    concatenates_S64x128_S64x128_S128x128_d0
/-- [b1 | b2] for the first layer. -/
def bcat0 (b1 b2 : FArr (F := F) S64) : FArr (F := F) S128 :=
  concatenate S128 0 [⟨S64, b1⟩, ⟨S64, b2⟩] concatenates_S64_S64_S128_d0

/-- [[w1, 0], [0, w2]] for the second layer (64 → 32). -/
def wcat1 (w1 w2 : FArr (F := F) S64x32) : FArr (F := F) S128x64 :=
  concatenate S128x64 0
    [⟨S64x64, concatenate S64x64 1 [⟨S64x32, w1⟩, ⟨S64x32, broadcastInDim S64x32 ![] bcast_S_S64x32 (constant (F := F) S_ .f32 0x00000000#32)⟩] concatenates_S64x32_S64x32_S64x64_d1⟩,
     ⟨S64x64, concatenate S64x64 1 [⟨S64x32, broadcastInDim S64x32 ![] bcast_S_S64x32 (constant (F := F) S_ .f32 0x00000000#32)⟩, ⟨S64x32, w2⟩] concatenates_S64x32_S64x32_S64x64_d1⟩]
    concatenates_S64x64_S64x64_S128x64_d0
/-- [b1 | b2] for the second layer. -/
def bcat1 (b1 b2 : FArr (F := F) S32) : FArr (F := F) S64 :=
  concatenate S64 0 [⟨S32, b1⟩, ⟨S32, b2⟩] concatenates_S32_S32_S64_d0

/-- [[w1, 0], [0, w2]] for the third layer (32 → 16). -/
def wcat2 (w1 w2 : FArr (F := F) S32x16) : FArr (F := F) S64x32 :=
  concatenate S64x32 0
    [⟨S32x32, concatenate S32x32 1 [⟨S32x16, w1⟩, ⟨S32x16, broadcastInDim S32x16 ![] bcast_S_S32x16 (constant (F := F) S_ .f32 0x00000000#32)⟩] concatenates_S32x16_S32x16_S32x32_d1⟩,
     ⟨S32x32, concatenate S32x32 1 [⟨S32x16, broadcastInDim S32x16 ![] bcast_S_S32x16 (constant (F := F) S_ .f32 0x00000000#32)⟩, ⟨S32x16, w2⟩] concatenates_S32x16_S32x16_S32x32_d1⟩]
    concatenates_S32x32_S32x32_S64x32_d0
/-- [b1 | b2] for the third layer. -/
def bcat2 (b1 b2 : FArr (F := F) S16) : FArr (F := F) S32 :=
  concatenate S32 0 [⟨S16, b1⟩, ⟨S16, b2⟩] concatenates_S16_S16_S32_d0

/-- The column words as a column of start indices, a negative word wrapped by the row count. -/
def wrapped (cols : WArr (F := F) S2720000) : WArr (F := F) S2720000x1 :=
  broadcastInDim S2720000x1 ![0] bcast_S2720000_S2720000x1_0
    (select (cmpi .slt cols (broadcastInDim S2720000 ![] bcast_S_S2720000 (constantI S_ 32 0#32)))
      (addi cols (broadcastInDim S2720000 ![] bcast_S_S2720000 (constantI S_ 32 170000#32))) cols)

/-- A · ego for 64 feature columns, the gathered rows through bf16 and back. -/
def agg64 (ego : FArr (F := F) S170000x64) (vals : FArr (F := F) S2720000) (rows cols : WArr (F := F) S2720000) : FArr (F := F) S170000x64 :=
  Host.scatterAdd scatter_S170000x64_S2720000x1_S2720000x64_1_0_0_1
    (broadcastInDim S170000x64 ![] bcast_S_S170000x64 (constant (F := F) S_ .f32 0x00000000#32))
    (broadcastInDim S2720000x1 ![0] bcast_S2720000_S2720000x1_0 rows)
    (mulf (broadcastInDim S2720000x64 ![0, 1] bcast_S2720000x1_S2720000x64_0_1
        (broadcastInDim S2720000x1 ![0] bcast_S2720000_S2720000x1_0 vals))
      (extf .f32 (Host.gather gather_S170000x64_S2720000x1_S2720000x64_1_0_n_n_0_1_164 (truncf .bf16 ego bitsLt_bf16_f32) (wrapped cols)) bitsLt_bf16_f32))

/-- A · ego for 32 feature columns, the gathered rows through bf16 and back. -/
def agg32 (ego : FArr (F := F) S170000x32) (vals : FArr (F := F) S2720000) (rows cols : WArr (F := F) S2720000) : FArr (F := F) S170000x32 :=
  Host.scatterAdd scatter_S170000x32_S2720000x1_S2720000x32_1_0_0_1
    (broadcastInDim S170000x32 ![] bcast_S_S170000x32 (constant (F := F) S_ .f32 0x00000000#32))
    (broadcastInDim S2720000x1 ![0] bcast_S2720000_S2720000x1_0 rows)
    (mulf (broadcastInDim S2720000x32 ![0, 1] bcast_S2720000x1_S2720000x32_0_1
        (broadcastInDim S2720000x1 ![0] bcast_S2720000_S2720000x1_0 vals))
      (extf .f32 (Host.gather gather_S170000x32_S2720000x1_S2720000x32_1_0_n_n_0_1_132 (truncf .bf16 ego bitsLt_bf16_f32) (wrapped cols)) bitsLt_bf16_f32))

end Cert.KernelIdeal.HostTerms

end
-- ==== Proof.KernelIdealHostRead.lean ====
/-
  What each stretch of host operations leaves, read back over an ARBITRARY valuation X of the buffers it starts from:
  before each launch the aggregation A · ego, the block-diagonal weight and the joined bias (HostTerms.lean's
  functions of the stretch's operands); after the last launch the result, the four arrays joined along the
  feature axis. Stated for any float instance: the read-back only composes the operations.
-/
import proofs.«115229_j70806830842640_2_alg».proof.Proof.Gen.KernelIdeal.Launch
import proofs.«115229_j70806830842640_2_alg».proof.Proof.HostTerms
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.HostTerms

variable {F : FTy → Type} [FloatOps F] (X : Valuation τ sig (Elt F))

/-! ## Before the first launch -/
set_option maxHeartbeats 4000000 in
theorem s0_agg : (StableHlo.after hostOps0 X (Proc.devRef .tc main_v14) : FArr (F := F) S170000x64)
    = agg64 (X (Proc.devRef .tc main_arg0)) (X (Proc.devRef .tc main_arg1)) (X (Proc.devRef .tc main_arg14)) (X (Proc.devRef .tc main_arg15)) := by
  after_results_simp; rfl
set_option maxHeartbeats 4000000 in
theorem s0_w : (StableHlo.after hostOps0 X (Proc.devRef .tc main_v19) : FArr (F := F) S128x128)
    = wcat0 (X (Proc.devRef .tc main_arg2)) (X (Proc.devRef .tc main_arg4)) := by
  after_results_simp; rfl
set_option maxHeartbeats 4000000 in
theorem s0_b : (StableHlo.after hostOps0 X (Proc.devRef .tc main_v20) : FArr (F := F) S128)
    = bcat0 (X (Proc.devRef .tc main_arg3)) (X (Proc.devRef .tc main_arg5)) := by
  after_results_simp; rfl

/-! ## Before the second launch -/
set_option maxHeartbeats 4000000 in
theorem s1_agg : (StableHlo.after hostOps1 X (Proc.devRef .tc main_v36) : FArr (F := F) S170000x64)
    = agg64 (X (Proc.devRef .tc main_v21_0)) (X (Proc.devRef .tc main_arg1)) (X (Proc.devRef .tc main_arg14)) (X (Proc.devRef .tc main_arg15)) := by
  after_results_simp; rfl
set_option maxHeartbeats 4000000 in
theorem s1_w : (StableHlo.after hostOps1 X (Proc.devRef .tc main_v41) : FArr (F := F) S128x64)
    = wcat1 (X (Proc.devRef .tc main_arg6)) (X (Proc.devRef .tc main_arg8)) := by
  after_results_simp; rfl
set_option maxHeartbeats 4000000 in
theorem s1_b : (StableHlo.after hostOps1 X (Proc.devRef .tc main_v42) : FArr (F := F) S64)
    = bcat1 (X (Proc.devRef .tc main_arg7)) (X (Proc.devRef .tc main_arg9)) := by
  after_results_simp; rfl

/-! ## Before the third launch -/
set_option maxHeartbeats 4000000 in
theorem s2_agg : (StableHlo.after hostOps2 X (Proc.devRef .tc main_v58) : FArr (F := F) S170000x32)
    = agg32 (X (Proc.devRef .tc main_v43_0)) (X (Proc.devRef .tc main_arg1)) (X (Proc.devRef .tc main_arg14)) (X (Proc.devRef .tc main_arg15)) := by
  after_results_simp; rfl
set_option maxHeartbeats 4000000 in
theorem s2_w : (StableHlo.after hostOps2 X (Proc.devRef .tc main_v63) : FArr (F := F) S64x32)
    = wcat2 (X (Proc.devRef .tc main_arg10)) (X (Proc.devRef .tc main_arg12)) := by
  after_results_simp; rfl
set_option maxHeartbeats 4000000 in
theorem s2_b : (StableHlo.after hostOps2 X (Proc.devRef .tc main_v64) : FArr (F := F) S32)
    = bcat2 (X (Proc.devRef .tc main_arg11)) (X (Proc.devRef .tc main_arg13)) := by
  after_results_simp; rfl

/-! ## After the third launch: the result -/
theorem s3_out : (StableHlo.after hostOps3 X (Proc.devRef .tc main_v66) : FArr (F := F) S170000x176)
    = concatenate S170000x176 1 [⟨S170000x64, X (Proc.devRef .tc main_arg0)⟩, ⟨S170000x64, X (Proc.devRef .tc main_v21_1)⟩,
        ⟨S170000x32, X (Proc.devRef .tc main_v43_1)⟩, ⟨S170000x16, X (Proc.devRef .tc main_v65)⟩]
        concatenates_S170000x64_S170000x64_S170000x32_S170000x16_S170000x176_d1 := by
  after_results_simp; rfl

end Cert.KernelIdeal.HostRead

end
-- ==== Proof.Spec.lean ====
/-
  The mathematics of one bi-interaction layer, stated once over the extended reals and for any extents:
  for a node r with embedding row e(r,·) and aggregated neighbour row s(r,·),

      new(r,j) = leaky( Σ_k (e(r,k) + s(r,k)) · w1(k,j) + b1(j) ) + leaky( Σ_k (e(r,k) · s(r,k)) · w2(k,j) + b2(j) )
      normed(r,j) = new(r,j) / max( sqrt( Σ_j' new(r,j')² ), floor )

  with leaky(x) = x for x ≥ 0 and slope · x otherwise, slope the f32 word of 0.01 and floor the f32 word of 1e-12,
  each read as the extended real it denotes. Every operation is the extended reals' own (a product with 0 is 0 also
  at an infinity), so nothing here asks for finiteness.
-/
import Idealize.ShloMosaic.PureOps.Ideal
import Idealize.ShloMosaic.Lib.ValueIdx

noncomputable section

open scoped BigOperators

namespace Cert.BiInteraction

open Idealize.ShloMosaic Idealize.ShloMosaic.ValueIdx

/-- An [a, b] array of extended reals. -/
abbrev Mat (a b : ℕ) : Type := (⟨2, ![a, b]⟩ : Shape).Idx → EReal
/-- An [a] array of extended reals. -/
abbrev Row (a : ℕ) : Type := (⟨1, ![a]⟩ : Shape).Idx → EReal

/-- x for x ≥ 0, slope · x otherwise: the comparison against the zero word and the choice between the two values. -/
def leaky (x : EReal) : EReal :=
  Scalar.select (FloatOps.cmpf (F := Ideal) (φ := .f32) .oge x (Ideal.ofBits .f32 0x00000000#32)) x
    (Ideal.ofBits .f32 0x3C23D70A#32 * x)

/-- Σ_k x(k) · w(k,j) + b(j). -/
def affine {D D' : ℕ} (x : Fin D → EReal) (w : Mat D D') (b : Row D') (j : Fin D') : EReal :=
  (∑ k : Fin D, x k * w (ix2 k j)) + b (ix1 j)

/-- The layer's new embedding: the sum of the two leaky affine images of e + s and of e ∗ s. -/
def egoNew {N D D' : ℕ} (e s : Mat N D) (w1 : Mat D D') (b1 : Row D') (w2 : Mat D D') (b2 : Row D') : Mat N D' :=
  fun i =>
    leaky (affine (fun k => e (ix2 (n0 := N) (i 0) k) + s (ix2 (n0 := N) (i 0) k)) w1 b1 (i 1))
    + leaky (affine (fun k => e (ix2 (n0 := N) (i 0) k) * s (ix2 (n0 := N) (i 0) k)) w2 b2 (i 1))

/-- Each row divided by the larger of its Euclidean length and the floor word. -/
def normed {N D : ℕ} (x : Mat N D) : Mat N D :=
  fun i =>
    Ideal.div (x i)
      (max (Ideal.sqrt (∑ j : Fin D, x (ix2 (n0 := N) (i 0) j) * x (ix2 (n0 := N) (i 0) j)))
        (Ideal.ofBits .f32 0x2B8CBCCC#32))

/-! ## Row locality: a layer's value at a node reads that node's rows only -/

/-- `egoNew` at row r of (e, s) is `egoNew` at row p of any (e', s') whose row p is row r of (e, s): what lets a block
    of rows stand for the whole array. -/
theorem egoNew_row {N M D D' : ℕ} (e s : Mat N D) (e' s' : Mat M D) (w1 : Mat D D') (b1 : Row D') (w2 : Mat D D') (b2 : Row D')
    (r : Fin N) (p : Fin M) (he : ∀ k : Fin D, e' (ix2 p k) = e (ix2 r k)) (hs : ∀ k : Fin D, s' (ix2 p k) = s (ix2 r k))
    (j : Fin D') : egoNew e' s' w1 b1 w2 b2 (ix2 p j) = egoNew e s w1 b1 w2 b2 (ix2 r j) := by
  show leaky (affine (fun k => e' (ix2 p k) + s' (ix2 p k)) w1 b1 j) + leaky (affine (fun k => e' (ix2 p k) * s' (ix2 p k)) w2 b2 j)
    = leaky (affine (fun k => e (ix2 r k) + s (ix2 r k)) w1 b1 j) + leaky (affine (fun k => e (ix2 r k) * s (ix2 r k)) w2 b2 j)
  simp only [he, hs]

/-- `normed` at row r of x is `normed` at row p of any x' whose row p is row r of x. -/
theorem normed_row {N M D : ℕ} (x : Mat N D) (x' : Mat M D) (r : Fin N) (p : Fin M)
    (h : ∀ j : Fin D, x' (ix2 p j) = x (ix2 r j)) (j : Fin D) : normed x' (ix2 p j) = normed x (ix2 r j) := by
  show Ideal.div (x' (ix2 p j)) (max (Ideal.sqrt (∑ j' : Fin D, x' (ix2 p j') * x' (ix2 p j'))) (Ideal.ofBits .f32 0x2B8CBCCC#32))
    = Ideal.div (x (ix2 r j)) (max (Ideal.sqrt (∑ j' : Fin D, x (ix2 r j') * x (ix2 r j'))) (Ideal.ofBits .f32 0x2B8CBCCC#32))
  simp only [h]

end Cert.BiInteraction

end
-- ==== Proof.KernelIdealLayer0.lean ====
/-
  Region 0's output arrays, at the ideal instance: each output window's blocks tile its array (34 blocks of 5000
  rows), and what grid point t writes back is block t of ONE function of the whole operand arrays — the layer of
  Spec.lean — because a row of the layer reads that row of the embeddings and of the aggregated neighbours only, and
  the weight's and the bias's block is the whole array at every point. The body's value on a block enters as a
  hypothesis (it is proved over the payloads elsewhere).
-/
import proofs.«115229_j70806830842640_2_alg».proof.Proof.KernelIdealBodies
import proofs.«115229_j70806830842640_2_alg».proof.Proof.HostTerms
import proofs.«115229_j70806830842640_2_alg».proof.Proof.Spec
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.KernelIdeal.HostTerms Cert.BiInteraction

theorem hz2_0 : (![0, 0] : Fin 2 → Nat) = fun _ => 0 := funext fun a => by fin_cases a <;> rfl
theorem hz1_0 : (![0] : Fin 1 → Nat) = fun _ => 0 := funext fun a => by fin_cases a <;> rfl

/-! # Region 0: what its output arrays end holding -/

section Region0
variable (V : (c : Dev nD) → (b : Ref sig .tc) → Buf (Elt Ideal) ((c : Thread nD τ).loc b))

/-- The region's operand arrays as it finds them, each read at its literal shape: the embeddings, the aggregated
    neighbour rows, the block-diagonal weight and the joined bias. -/
abbrev rdE0 (c : Dev nD) : FArr (F := Ideal) S170000x64 := V c main_arg0
abbrev rdS0 (c : Dev nD) : FArr (F := Ideal) S170000x64 := V c main_v14
abbrev rdW0 (c : Dev nD) : FArr (F := Ideal) S128x128 := V c main_v19
abbrev rdB0 (c : Dev nD) : FArr (F := Ideal) S128 := V c main_v20

/-- The printed index maps, decided over the grid: the row-blocked windows move with the grid point along the rows, the
    weight's and the bias's stay at block 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = t.val
    ∧ win0_4.index t (1 : Fin 2) = 0
    ∧ win0_5.index t (0 : Fin 2) = t.val
    ∧ win0_5.index t (1 : Fin 2) = 0 :=
  (by decide +kernel : ∀ t : Fin grid0.N, _)

/-- Row `p` of the embeddings' block at point `t` is row `5000 t + p` of the array. -/
theorem blk0_0 (c : Dev nD) (t : Fin cfg0.N) (p : Fin 5000) (k : Fin 64) (h : t.val * 5000 + p.val < 170000) :
    (iblk0 V c 0 t : Vec Ideal S5000x64 .f32) (ix2 p k) = rdE0 V c (ix2 ⟨t.val * 5000 + p.val, h⟩ k) := by
  show rdE0 V c (((cfg0.win 0).blk t).view.emb (ix2 p k)) = _
  refine congrArg (rdE0 V c) ?_
  obtain ⟨e0, e1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The same for the aggregated rows' block. -/
theorem blk0_1 (c : Dev nD) (t : Fin cfg0.N) (p : Fin 5000) (k : Fin 64) (h : t.val * 5000 + p.val < 170000) :
    (iblk0 V c 1 t : Vec Ideal S5000x64 .f32) (ix2 p k) = rdS0 V c (ix2 ⟨t.val * 5000 + p.val, h⟩ k) := by
  show rdS0 V c (((cfg0.win 1).blk t).view.emb (ix2 p k)) = _
  refine congrArg (rdS0 V c) ?_
  obtain ⟨-, -, e2, e3, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- The weight's block is the whole weight at every point. -/
theorem blk0_2 (c : Dev nD) (t : Fin cfg0.N) : (iblk0 V c 2 t : Vec Ideal S128x128 .f32) = rdW0 V c := by
  funext y
  show rdW0 V c (((cfg0.win 2).blk t).view.emb y) = rdW0 V c y
  refine congrArg (rdW0 V c) ?_
  obtain ⟨-, -, -, -, e4, e5, -⟩ := idx0 t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block is the whole bias at every point. -/
theorem blk0_3 (c : Dev nD) (t : Fin cfg0.N) : (iblk0 V c 3 t : Vec Ideal S128 .f32) = rdB0 V c := by
  funext y
  show rdB0 V c (((cfg0.win 3).blk t).view.emb y) = rdB0 V c y
  refine congrArg (rdB0 V c) ?_
  obtain ⟨-, -, -, -, -, -, e6, -⟩ := idx0 t
  funext a; apply Fin.ext
  match a with
  | ⟨0, _⟩ => show win0_3.index t (0 : Fin 1) * 128 + 1 * (y 0).val = (y 0).val; omega

/-- Output window 4's block at point `t` sits at rows `5000 t …` of its array. -/
theorem emb0_4 (t : Fin cfg0.N) (p : Fin 5000) (q : Fin 64) (h : t.val * 5000 + p.val < 170000) :
    (((cfg0.win 4).blk t).view.emb (ix2 p q) : S170000x64.Idx) = ix2 ⟨t.val * 5000 + p.val, h⟩ q := by
  obtain ⟨-, -, -, -, -, -, -, e0, e1, -⟩ := idx0 t
  funext a; apply Fin.ext
  match a with
  | ⟨0, _⟩ => show win0_4.index t (0 : Fin 2) * 5000 + 1 * p.val = t.val * 5000 + p.val; omega
  | ⟨1, _⟩ => show win0_4.index t (1 : Fin 2) * 64 + 1 * q.val = q.val; omega

/-- An index of the array is in point `t`'s block iff each coordinate is in the block's range on its axis. -/
theorem mem_blk0_4 (t : Fin cfg0.N) (i : S170000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v21_0).slice (win0_4.rect t)).set ↔ _
  rw [View.set_slice_whole, Rect.mem_set_unit]
  exact Iff.rfl

/-- The blocks tile the array: row `r` is in the block of point `r / 5000`. -/
theorem tiles0_4 (i : S170000x64.Idx) : ∃ t : Fin cfg0.N, (cfg0.win 4).flush t = true ∧ i ∈ ((cfg0.win 4).blk t).view.set := by
  have hi0 : (i 0).val < 170000 := (i 0).isLt
  have hi1 : (i 1).val < 64 := (i 1).isLt
  have hN : grid0.N = 34 := N_0
  refine ⟨⟨(i 0).val / 5000, by show (i 0).val / 5000 < grid0.N; omega⟩, flush0_4 _, ?_⟩
  rw [mem_blk0_4]
  obtain ⟨-, -, -, -, -, -, -, e0, e1, -⟩ := idx0 (⟨(i 0).val / 5000, by show (i 0).val / 5000 < grid0.N; omega⟩ : Fin cfg0.N)
  have e0' : win0_4.index (⟨(i 0).val / 5000, by show (i 0).val / 5000 < grid0.N; omega⟩ : Fin cfg0.N) (0 : Fin 2) = (i 0).val / 5000 := e0
  intro a
  match a with
  | ⟨0, _⟩ => show win0_4.index _ (0 : Fin 2) * 5000 ≤ (i 0).val ∧ (i 0).val < win0_4.index _ (0 : Fin 2) * 5000 + 5000; omega
  | ⟨1, _⟩ => show win0_4.index _ (1 : Fin 2) * 64 ≤ (i 1).val ∧ (i 1).val < win0_4.index _ (1 : Fin 2) * 64 + 64; omega

/-- Output window 5's block at point `t` sits at rows `5000 t …` of its array. -/
theorem emb0_5 (t : Fin cfg0.N) (p : Fin 5000) (q : Fin 64) (h : t.val * 5000 + p.val < 170000) :
    (((cfg0.win 5).blk t).view.emb (ix2 p q) : S170000x64.Idx) = ix2 ⟨t.val * 5000 + p.val, h⟩ q := by
  obtain ⟨-, -, -, -, -, -, -, -, -, e0, e1⟩ := idx0 t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- An index of the array is in point `t`'s block iff each coordinate is in the block's range on its axis. -/
theorem mem_blk0_5 (t : Fin cfg0.N) (i : S170000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v21_1).slice (win0_5.rect t)).set ↔ _
  rw [View.set_slice_whole, Rect.mem_set_unit]
  exact Iff.rfl

/-- The blocks tile the array: row `r` is in the block of point `r / 5000`. -/
theorem tiles0_5 (i : S170000x64.Idx) : ∃ t : Fin cfg0.N, (cfg0.win 5).flush t = true ∧ i ∈ ((cfg0.win 5).blk t).view.set := by
  have hi0 : (i 0).val < 170000 := (i 0).isLt
  have hi1 : (i 1).val < 64 := (i 1).isLt
  have hN : grid0.N = 34 := N_0
  refine ⟨⟨(i 0).val / 5000, by show (i 0).val / 5000 < grid0.N; omega⟩, flush0_5 _, ?_⟩
  rw [mem_blk0_5]
  obtain ⟨-, -, -, -, -, -, -, -, -, e0, e1⟩ := idx0 (⟨(i 0).val / 5000, by show (i 0).val / 5000 < grid0.N; omega⟩ : Fin cfg0.N)
  have e0' : win0_5.index (⟨(i 0).val / 5000, by show (i 0).val / 5000 < grid0.N; omega⟩ : Fin cfg0.N) (0 : Fin 2) = (i 0).val / 5000 := e0
  intro a
  match a with
  | ⟨0, _⟩ => show win0_5.index _ (0 : Fin 2) * 5000 ≤ (i 0).val ∧ (i 0).val < win0_5.index _ (0 : Fin 2) * 5000 + 5000; omega
  | ⟨1, _⟩ => show win0_5.index _ (1 : Fin 2) * 64 ≤ (i 1).val ∧ (i 1).val < win0_5.index _ (1 : Fin 2) * 64 + 64; omega

/-- What point `t` writes back through window 4 is block `t` of the layer's new embeddings of the whole arrays. -/
theorem flushed0_4 (c : Dev nD) (w1 w2 : FArr (F := Ideal) S64x64) (b1 b2 : FArr (F := Ideal) S64)
    (hw : rdW0 V c = wcat0 w1 w2) (hb : rdB0 V c = bcat0 b1 b2)
    (hpay1 : ∀ x0 x1 : Vec Ideal S5000x64 .f32, k0_pay1 (F := Ideal) x0 x1 (wcat0 w1 w2) (bcat0 b1 b2) = (egoNew (N := 5000) (D := 64) (D' := 64) x0 x1 w1 b1 w2 b2)) (t : Fin cfg0.N) :
    (dat0 (F := Ideal) V c).flushed 4 t = ((cfg0.win 4).blk t).view.read (Elt Ideal) (egoNew (N := 170000) (D := 64) (D' := 64) (rdE0 V c) (rdS0 V c) w1 b1 w2 b2) := by
  show (cfg0.win 4).cut (grid0.coords t) ((dat0 V c).after 4 t) = _
  rw [after0_4]
  unfold out0_4
  rw [View.canon_unit_zero hz2_0]
  simp only [View.ld_unit_zero (S := S5000x64) hz2_0, View.ld_unit_zero (S := S128x128) hz2_0, View.ld_unit_zero (S := S128) hz1_0]
  rw [blk0_2 V c t, blk0_3 V c t, hw, hb, hpay1]
  funext y
  obtain ⟨p, q, rfl⟩ : ∃ (p : Fin 5000) (q : Fin 64), y = ix2 p q := ⟨y 0, y 1, eq_ix2 y⟩
  have hr : t.val * 5000 + p.val < 170000 := (by have := p.isLt; have := t.isLt; have hN : grid0.N = 34 := N_0; have ht : t.val < grid0.N := t.isLt; omega)
  show egoNew (N := 5000) (D := 64) (D' := 64) (iblk0 V c 0 t) (iblk0 V c 1 t) w1 b1 w2 b2 (ix2 p q)
    = (egoNew (N := 170000) (D := 64) (D' := 64) (rdE0 V c) (rdS0 V c) w1 b1 w2 b2) (((cfg0.win 4).blk t).view.emb (ix2 p q))
  rw [emb0_4 t p q hr]
  exact egoNew_row _ _ _ _ w1 b1 w2 b2 ⟨t.val * 5000 + p.val, hr⟩ p (fun k => blk0_0 V c t p k hr) (fun k => blk0_1 V c t p k hr) q

/-- The array of the layer's new embeddings after the region. -/
theorem final0_4 (c : Dev nD) (w1 w2 : FArr (F := Ideal) S64x64) (b1 b2 : FArr (F := Ideal) S64)
    (hw : rdW0 V c = wcat0 w1 w2) (hb : rdB0 V c = bcat0 b1 b2)
    (hpay1 : ∀ x0 x1 : Vec Ideal S5000x64 .f32, k0_pay1 (F := Ideal) x0 x1 (wcat0 w1 w2) (bcat0 b1 b2) = (egoNew (N := 5000) (D := 64) (D' := 64) x0 x1 w1 b1 w2 b2)) :
    (dat0 (F := Ideal) V c).arrAt 4 cfg0.N = (egoNew (N := 170000) (D := 64) (D' := 64) (rdE0 V c) (rdS0 V c) w1 b1 w2 b2) :=
  (dat0 (F := Ideal) V c).arrAt_eq_of_cover 4 _ (fun t _ => flushed0_4 V c w1 w2 b1 b2 hw hb hpay1 t) (tiles0_4)

/-- What point `t` writes back through window 5 is block `t` of the normalised new embeddings of the whole arrays. -/
theorem flushed0_5 (c : Dev nD) (w1 w2 : FArr (F := Ideal) S64x64) (b1 b2 : FArr (F := Ideal) S64)
    (hw : rdW0 V c = wcat0 w1 w2) (hb : rdB0 V c = bcat0 b1 b2)
    (hpay2 : ∀ x0 x1 : Vec Ideal S5000x64 .f32, k0_pay2 (F := Ideal) x0 x1 (wcat0 w1 w2) (bcat0 b1 b2) = normed (N := 5000) (D := 64) (egoNew (N := 5000) (D := 64) (D' := 64) x0 x1 w1 b1 w2 b2)) (t : Fin cfg0.N) :
    (dat0 (F := Ideal) V c).flushed 5 t = ((cfg0.win 5).blk t).view.read (Elt Ideal) (normed (N := 170000) (D := 64) (egoNew (N := 170000) (D := 64) (D' := 64) (rdE0 V c) (rdS0 V c) w1 b1 w2 b2)) := by
  show (cfg0.win 5).cut (grid0.coords t) ((dat0 V c).after 5 t) = _
  rw [after0_5]
  unfold out0_5
  rw [View.canon_unit_zero hz2_0]
  simp only [View.ld_unit_zero (S := S5000x64) hz2_0, View.ld_unit_zero (S := S128x128) hz2_0, View.ld_unit_zero (S := S128) hz1_0]
  rw [blk0_2 V c t, blk0_3 V c t, hw, hb, hpay2]
  funext y
  obtain ⟨p, q, rfl⟩ : ∃ (p : Fin 5000) (q : Fin 64), y = ix2 p q := ⟨y 0, y 1, eq_ix2 y⟩
  have hr : t.val * 5000 + p.val < 170000 := (by have := p.isLt; have := t.isLt; have hN : grid0.N = 34 := N_0; have ht : t.val < grid0.N := t.isLt; omega)
  show normed (N := 5000) (D := 64) (egoNew (N := 5000) (D := 64) (D' := 64) (iblk0 V c 0 t) (iblk0 V c 1 t) w1 b1 w2 b2) (ix2 p q)
    = normed (N := 170000) (D := 64) (egoNew (N := 170000) (D := 64) (D' := 64) (rdE0 V c) (rdS0 V c) w1 b1 w2 b2) (((cfg0.win 5).blk t).view.emb (ix2 p q))
  rw [emb0_5 t p q hr]
  exact normed_row _ _ ⟨t.val * 5000 + p.val, hr⟩ p
    (fun j => egoNew_row _ _ _ _ w1 b1 w2 b2 ⟨t.val * 5000 + p.val, hr⟩ p (fun k => blk0_0 V c t p k hr) (fun k => blk0_1 V c t p k hr) j) q

/-- The array of the normalised new embeddings after the region. -/
theorem final0_5 (c : Dev nD) (w1 w2 : FArr (F := Ideal) S64x64) (b1 b2 : FArr (F := Ideal) S64)
    (hw : rdW0 V c = wcat0 w1 w2) (hb : rdB0 V c = bcat0 b1 b2)
    (hpay2 : ∀ x0 x1 : Vec Ideal S5000x64 .f32, k0_pay2 (F := Ideal) x0 x1 (wcat0 w1 w2) (bcat0 b1 b2) = normed (N := 5000) (D := 64) (egoNew (N := 5000) (D := 64) (D' := 64) x0 x1 w1 b1 w2 b2)) :
    (dat0 (F := Ideal) V c).arrAt 5 cfg0.N = normed (N := 170000) (D := 64) (egoNew (N := 170000) (D := 64) (D' := 64) (rdE0 V c) (rdS0 V c) w1 b1 w2 b2) :=
  (dat0 (F := Ideal) V c).arrAt_eq_of_cover 5 _ (fun t _ => flushed0_5 V c w1 w2 b1 b2 hw hb hpay2 t) (tiles0_5)

end Region0

end Cert.KernelIdeal.Layers

end
-- ==== Proof.KernelIdealLayer1.lean ====
/-
  Region 1's output arrays, at the ideal instance: each output window's blocks tile its array (34 blocks of 5000
  rows), and what grid point t writes back is block t of ONE function of the whole operand arrays — the layer of
  Spec.lean — because a row of the layer reads that row of the embeddings and of the aggregated neighbours only, and
  the weight's and the bias's block is the whole array at every point. The body's value on a block enters as a
  hypothesis (it is proved over the payloads elsewhere).
-/
import proofs.«115229_j70806830842640_2_alg».proof.Proof.KernelIdealBodies
import proofs.«115229_j70806830842640_2_alg».proof.Proof.HostTerms
import proofs.«115229_j70806830842640_2_alg».proof.Proof.Spec
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.KernelIdeal.HostTerms Cert.BiInteraction

theorem hz2_1 : (![0, 0] : Fin 2 → Nat) = fun _ => 0 := funext fun a => by fin_cases a <;> rfl
theorem hz1_1 : (![0] : Fin 1 → Nat) = fun _ => 0 := funext fun a => by fin_cases a <;> rfl

/-! # Region 1: what its output arrays end holding -/

section Region1
variable (V : (c : Dev nD) → (b : Ref sig .tc) → Buf (Elt Ideal) ((c : Thread nD τ).loc b))

/-- The region's operand arrays as it finds them, each read at its literal shape: the embeddings, the aggregated
    neighbour rows, the block-diagonal weight and the joined bias. -/
abbrev rdE1 (c : Dev nD) : FArr (F := Ideal) S170000x64 := V c main_v21_0
abbrev rdS1 (c : Dev nD) : FArr (F := Ideal) S170000x64 := V c main_v36
abbrev rdW1 (c : Dev nD) : FArr (F := Ideal) S128x64 := V c main_v41
abbrev rdB1 (c : Dev nD) : FArr (F := Ideal) S64 := V c main_v42

/-- The printed index maps, decided over the grid: the row-blocked windows move with the grid point along the rows, the
    weight's and the bias's stay at block 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

/-- Row `p` of the embeddings' block at point `t` is row `5000 t + p` of the array. -/
theorem blk1_0 (c : Dev nD) (t : Fin cfg1.N) (p : Fin 5000) (k : Fin 64) (h : t.val * 5000 + p.val < 170000) :
    (iblk1 V c 0 t : Vec Ideal S5000x64 .f32) (ix2 p k) = rdE1 V c (ix2 ⟨t.val * 5000 + p.val, h⟩ k) := by
  show rdE1 V c (((cfg1.win 0).blk t).view.emb (ix2 p k)) = _
  refine congrArg (rdE1 V c) ?_
  obtain ⟨e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- The same for the aggregated rows' block. -/
theorem blk1_1 (c : Dev nD) (t : Fin cfg1.N) (p : Fin 5000) (k : Fin 64) (h : t.val * 5000 + p.val < 170000) :
    (iblk1 V c 1 t : Vec Ideal S5000x64 .f32) (ix2 p k) = rdS1 V c (ix2 ⟨t.val * 5000 + p.val, h⟩ k) := by
  show rdS1 V c (((cfg1.win 1).blk t).view.emb (ix2 p k)) = _
  refine congrArg (rdS1 V c) ?_
  obtain ⟨-, -, e2, e3, -⟩ := idx1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- The weight's block is the whole weight at every point. -/
theorem blk1_2 (c : Dev nD) (t : Fin cfg1.N) : (iblk1 V c 2 t : Vec Ideal S128x64 .f32) = rdW1 V c := by
  funext y
  show rdW1 V c (((cfg1.win 2).blk t).view.emb y) = rdW1 V c y
  refine congrArg (rdW1 V c) ?_
  obtain ⟨-, -, -, -, e4, e5, -⟩ := idx1 t
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The bias's block is the whole bias at every point. -/
theorem blk1_3 (c : Dev nD) (t : Fin cfg1.N) : (iblk1 V c 3 t : Vec Ideal S64 .f32) = rdB1 V c := by
  funext y
  show rdB1 V c (((cfg1.win 3).blk t).view.emb y) = rdB1 V c y
  refine congrArg (rdB1 V c) ?_
  obtain ⟨-, -, -, -, -, -, e6, -⟩ := idx1 t
  funext a; apply Fin.ext
  match a with
  | ⟨0, _⟩ => show win1_3.index t (0 : Fin 1) * 64 + 1 * (y 0).val = (y 0).val; omega

/-- Output window 4's block at point `t` sits at rows `5000 t …` of its array. -/
theorem emb1_4 (t : Fin cfg1.N) (p : Fin 5000) (q : Fin 32) (h : t.val * 5000 + p.val < 170000) :
    (((cfg1.win 4).blk t).view.emb (ix2 p q) : S170000x32.Idx) = ix2 ⟨t.val * 5000 + p.val, h⟩ q := by
  obtain ⟨-, -, -, -, -, -, -, e0, e1, -⟩ := idx1 t
  funext a; apply Fin.ext
  match a with
  | ⟨0, _⟩ => show win1_4.index t (0 : Fin 2) * 5000 + 1 * p.val = t.val * 5000 + p.val; omega
  | ⟨1, _⟩ => show win1_4.index t (1 : Fin 2) * 32 + 1 * q.val = q.val; omega

/-- An index of the array is in point `t`'s block iff each coordinate is in the block's range on its axis. -/
theorem mem_blk1_4 (t : Fin cfg1.N) (i : S170000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v43_0).slice (win1_4.rect t)).set ↔ _
  rw [View.set_slice_whole, Rect.mem_set_unit]
  exact Iff.rfl

/-- The blocks tile the array: row `r` is in the block of point `r / 5000`. -/
theorem tiles1_4 (i : S170000x32.Idx) : ∃ t : Fin cfg1.N, (cfg1.win 4).flush t = true ∧ i ∈ ((cfg1.win 4).blk t).view.set := by
  have hi0 : (i 0).val < 170000 := (i 0).isLt
  have hi1 : (i 1).val < 32 := (i 1).isLt
  have hN : grid1.N = 34 := N_1
  refine ⟨⟨(i 0).val / 5000, by show (i 0).val / 5000 < grid1.N; omega⟩, flush1_4 _, ?_⟩
  rw [mem_blk1_4]
  obtain ⟨-, -, -, -, -, -, -, e0, e1, -⟩ := idx1 (⟨(i 0).val / 5000, by show (i 0).val / 5000 < grid1.N; omega⟩ : Fin cfg1.N)
  have e0' : win1_4.index (⟨(i 0).val / 5000, by show (i 0).val / 5000 < grid1.N; omega⟩ : Fin cfg1.N) (0 : Fin 2) = (i 0).val / 5000 := e0
  intro a
  match a with
  | ⟨0, _⟩ => show win1_4.index _ (0 : Fin 2) * 5000 ≤ (i 0).val ∧ (i 0).val < win1_4.index _ (0 : Fin 2) * 5000 + 5000; omega
  | ⟨1, _⟩ => show win1_4.index _ (1 : Fin 2) * 32 ≤ (i 1).val ∧ (i 1).val < win1_4.index _ (1 : Fin 2) * 32 + 32; omega

/-- Output window 5's block at point `t` sits at rows `5000 t …` of its array. -/
theorem emb1_5 (t : Fin cfg1.N) (p : Fin 5000) (q : Fin 32) (h : t.val * 5000 + p.val < 170000) :
    (((cfg1.win 5).blk t).view.emb (ix2 p q) : S170000x32.Idx) = ix2 ⟨t.val * 5000 + p.val, h⟩ q := by
  obtain ⟨-, -, -, -, -, -, -, -, -, e0, e1⟩ := idx1 t
  funext a; apply Fin.ext
  match a with
  | ⟨0, _⟩ => show win1_5.index t (0 : Fin 2) * 5000 + 1 * p.val = t.val * 5000 + p.val; omega
  | ⟨1, _⟩ => show win1_5.index t (1 : Fin 2) * 32 + 1 * q.val = q.val; omega

/-- An index of the array is in point `t`'s block iff each coordinate is in the block's range on its axis. -/
theorem mem_blk1_5 (t : Fin cfg1.N) (i : S170000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v43_1).slice (win1_5.rect t)).set ↔ _
  rw [View.set_slice_whole, Rect.mem_set_unit]
  exact Iff.rfl

/-- The blocks tile the array: row `r` is in the block of point `r / 5000`. -/
theorem tiles1_5 (i : S170000x32.Idx) : ∃ t : Fin cfg1.N, (cfg1.win 5).flush t = true ∧ i ∈ ((cfg1.win 5).blk t).view.set := by
  have hi0 : (i 0).val < 170000 := (i 0).isLt
  have hi1 : (i 1).val < 32 := (i 1).isLt
  have hN : grid1.N = 34 := N_1
  refine ⟨⟨(i 0).val / 5000, by show (i 0).val / 5000 < grid1.N; omega⟩, flush1_5 _, ?_⟩
  rw [mem_blk1_5]
  obtain ⟨-, -, -, -, -, -, -, -, -, e0, e1⟩ := idx1 (⟨(i 0).val / 5000, by show (i 0).val / 5000 < grid1.N; omega⟩ : Fin cfg1.N)
  have e0' : win1_5.index (⟨(i 0).val / 5000, by show (i 0).val / 5000 < grid1.N; omega⟩ : Fin cfg1.N) (0 : Fin 2) = (i 0).val / 5000 := e0
  intro a
  match a with
  | ⟨0, _⟩ => show win1_5.index _ (0 : Fin 2) * 5000 ≤ (i 0).val ∧ (i 0).val < win1_5.index _ (0 : Fin 2) * 5000 + 5000; omega
  | ⟨1, _⟩ => show win1_5.index _ (1 : Fin 2) * 32 ≤ (i 1).val ∧ (i 1).val < win1_5.index _ (1 : Fin 2) * 32 + 32; omega

/-- What point `t` writes back through window 4 is block `t` of the layer's new embeddings of the whole arrays. -/
theorem flushed1_4 (c : Dev nD) (w1 w2 : FArr (F := Ideal) S64x32) (b1 b2 : FArr (F := Ideal) S32)
    (hw : rdW1 V c = wcat1 w1 w2) (hb : rdB1 V c = bcat1 b1 b2)
    (hpay1 : ∀ x0 x1 : Vec Ideal S5000x64 .f32, k1_pay1 (F := Ideal) x0 x1 (wcat1 w1 w2) (bcat1 b1 b2) = (egoNew (N := 5000) (D := 64) (D' := 32) x0 x1 w1 b1 w2 b2)) (t : Fin cfg1.N) :
    (dat1 (F := Ideal) V c).flushed 4 t = ((cfg1.win 4).blk t).view.read (Elt Ideal) (egoNew (N := 170000) (D := 64) (D' := 32) (rdE1 V c) (rdS1 V c) w1 b1 w2 b2) := by
  show (cfg1.win 4).cut (grid1.coords t) ((dat1 V c).after 4 t) = _
  rw [after1_4]
  unfold out1_4
  rw [View.canon_unit_zero hz2_1]
  simp only [View.ld_unit_zero (S := S5000x64) hz2_1, View.ld_unit_zero (S := S128x64) hz2_1, View.ld_unit_zero (S := S64) hz1_1]
  rw [blk1_2 V c t, blk1_3 V c t, hw, hb, hpay1]
  funext y
  obtain ⟨p, q, rfl⟩ : ∃ (p : Fin 5000) (q : Fin 32), y = ix2 p q := ⟨y 0, y 1, eq_ix2 y⟩
  have hr : t.val * 5000 + p.val < 170000 := (by have := p.isLt; have := t.isLt; have hN : grid1.N = 34 := N_1; have ht : t.val < grid1.N := t.isLt; omega)
  show egoNew (N := 5000) (D := 64) (D' := 32) (iblk1 V c 0 t) (iblk1 V c 1 t) w1 b1 w2 b2 (ix2 p q)
    = (egoNew (N := 170000) (D := 64) (D' := 32) (rdE1 V c) (rdS1 V c) w1 b1 w2 b2) (((cfg1.win 4).blk t).view.emb (ix2 p q))
  rw [emb1_4 t p q hr]
  exact egoNew_row _ _ _ _ w1 b1 w2 b2 ⟨t.val * 5000 + p.val, hr⟩ p (fun k => blk1_0 V c t p k hr) (fun k => blk1_1 V c t p k hr) q

/-- The array of the layer's new embeddings after the region. -/
theorem final1_4 (c : Dev nD) (w1 w2 : FArr (F := Ideal) S64x32) (b1 b2 : FArr (F := Ideal) S32)
    (hw : rdW1 V c = wcat1 w1 w2) (hb : rdB1 V c = bcat1 b1 b2)
    (hpay1 : ∀ x0 x1 : Vec Ideal S5000x64 .f32, k1_pay1 (F := Ideal) x0 x1 (wcat1 w1 w2) (bcat1 b1 b2) = (egoNew (N := 5000) (D := 64) (D' := 32) x0 x1 w1 b1 w2 b2)) :
    (dat1 (F := Ideal) V c).arrAt 4 cfg1.N = (egoNew (N := 170000) (D := 64) (D' := 32) (rdE1 V c) (rdS1 V c) w1 b1 w2 b2) :=
  (dat1 (F := Ideal) V c).arrAt_eq_of_cover 4 _ (fun t _ => flushed1_4 V c w1 w2 b1 b2 hw hb hpay1 t) (tiles1_4)

/-- What point `t` writes back through window 5 is block `t` of the normalised new embeddings of the whole arrays. -/
theorem flushed1_5 (c : Dev nD) (w1 w2 : FArr (F := Ideal) S64x32) (b1 b2 : FArr (F := Ideal) S32)
    (hw : rdW1 V c = wcat1 w1 w2) (hb : rdB1 V c = bcat1 b1 b2)
    (hpay2 : ∀ x0 x1 : Vec Ideal S5000x64 .f32, k1_pay2 (F := Ideal) x0 x1 (wcat1 w1 w2) (bcat1 b1 b2) = normed (N := 5000) (D := 32) (egoNew (N := 5000) (D := 64) (D' := 32) x0 x1 w1 b1 w2 b2)) (t : Fin cfg1.N) :
    (dat1 (F := Ideal) V c).flushed 5 t = ((cfg1.win 5).blk t).view.read (Elt Ideal) (normed (N := 170000) (D := 32) (egoNew (N := 170000) (D := 64) (D' := 32) (rdE1 V c) (rdS1 V c) w1 b1 w2 b2)) := by
  show (cfg1.win 5).cut (grid1.coords t) ((dat1 V c).after 5 t) = _
  rw [after1_5]
  unfold out1_5
  rw [View.canon_unit_zero hz2_1]
  simp only [View.ld_unit_zero (S := S5000x64) hz2_1, View.ld_unit_zero (S := S128x64) hz2_1, View.ld_unit_zero (S := S64) hz1_1]
  rw [blk1_2 V c t, blk1_3 V c t, hw, hb, hpay2]
  funext y
  obtain ⟨p, q, rfl⟩ : ∃ (p : Fin 5000) (q : Fin 32), y = ix2 p q := ⟨y 0, y 1, eq_ix2 y⟩
  have hr : t.val * 5000 + p.val < 170000 := (by have := p.isLt; have := t.isLt; have hN : grid1.N = 34 := N_1; have ht : t.val < grid1.N := t.isLt; omega)
  show normed (N := 5000) (D := 32) (egoNew (N := 5000) (D := 64) (D' := 32) (iblk1 V c 0 t) (iblk1 V c 1 t) w1 b1 w2 b2) (ix2 p q)
    = normed (N := 170000) (D := 32) (egoNew (N := 170000) (D := 64) (D' := 32) (rdE1 V c) (rdS1 V c) w1 b1 w2 b2) (((cfg1.win 5).blk t).view.emb (ix2 p q))
  rw [emb1_5 t p q hr]
  exact normed_row _ _ ⟨t.val * 5000 + p.val, hr⟩ p
    (fun j => egoNew_row _ _ _ _ w1 b1 w2 b2 ⟨t.val * 5000 + p.val, hr⟩ p (fun k => blk1_0 V c t p k hr) (fun k => blk1_1 V c t p k hr) j) q

/-- The array of the normalised new embeddings after the region. -/
theorem final1_5 (c : Dev nD) (w1 w2 : FArr (F := Ideal) S64x32) (b1 b2 : FArr (F := Ideal) S32)
    (hw : rdW1 V c = wcat1 w1 w2) (hb : rdB1 V c = bcat1 b1 b2)
    (hpay2 : ∀ x0 x1 : Vec Ideal S5000x64 .f32, k1_pay2 (F := Ideal) x0 x1 (wcat1 w1 w2) (bcat1 b1 b2) = normed (N := 5000) (D := 32) (egoNew (N := 5000) (D := 64) (D' := 32) x0 x1 w1 b1 w2 b2)) :
    (dat1 (F := Ideal) V c).arrAt 5 cfg1.N = normed (N := 170000) (D := 32) (egoNew (N := 170000) (D := 64) (D' := 32) (rdE1 V c) (rdS1 V c) w1 b1 w2 b2) :=
  (dat1 (F := Ideal) V c).arrAt_eq_of_cover 5 _ (fun t _ => flushed1_5 V c w1 w2 b1 b2 hw hb hpay2 t) (tiles1_5)

end Region1

end Cert.KernelIdeal.Layers

end
-- ==== Proof.KernelIdealLayer2.lean ====
/-
  Region 2's output arrays, at the ideal instance: each output window's blocks tile its array (34 blocks of 5000
  rows), and what grid point t writes back is block t of ONE function of the whole operand arrays — the layer of
  Spec.lean — because a row of the layer reads that row of the embeddings and of the aggregated neighbours only, and
  the weight's and the bias's block is the whole array at every point. The body's value on a block enters as a
  hypothesis (it is proved over the payloads elsewhere).
-/
import proofs.«115229_j70806830842640_2_alg».proof.Proof.KernelIdealBodies
import proofs.«115229_j70806830842640_2_alg».proof.Proof.HostTerms
import proofs.«115229_j70806830842640_2_alg».proof.Proof.Spec
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.KernelIdeal.HostTerms Cert.BiInteraction

theorem hz2_2 : (![0, 0] : Fin 2 → Nat) = fun _ => 0 := funext fun a => by fin_cases a <;> rfl
theorem hz1_2 : (![0] : Fin 1 → Nat) = fun _ => 0 := funext fun a => by fin_cases a <;> rfl

/-! # Region 2: what its output arrays end holding -/

section Region2
variable (V : (c : Dev nD) → (b : Ref sig .tc) → Buf (Elt Ideal) ((c : Thread nD τ).loc b))

/-- The region's operand arrays as it finds them, each read at its literal shape: the embeddings, the aggregated
    neighbour rows, the block-diagonal weight and the joined bias. -/
abbrev rdE2 (c : Dev nD) : FArr (F := Ideal) S170000x32 := V c main_v43_0
abbrev rdS2 (c : Dev nD) : FArr (F := Ideal) S170000x32 := V c main_v58
abbrev rdW2 (c : Dev nD) : FArr (F := Ideal) S64x32 := V c main_v63
abbrev rdB2 (c : Dev nD) : FArr (F := Ideal) S32 := V c main_v64

/-- The printed index maps, decided over the grid: the row-blocked windows move with the grid point along the rows, the
    weight's and the bias's stay at block 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = t.val
    ∧ win2_4.index t (1 : Fin 2) = 0 :=
  (by decide +kernel : ∀ t : Fin grid2.N, _)

/-- Row `p` of the embeddings' block at point `t` is row `5000 t + p` of the array. -/
theorem blk2_0 (c : Dev nD) (t : Fin cfg2.N) (p : Fin 5000) (k : Fin 32) (h : t.val * 5000 + p.val < 170000) :
    (iblk2 V c 0 t : Vec Ideal S5000x32 .f32) (ix2 p k) = rdE2 V c (ix2 ⟨t.val * 5000 + p.val, h⟩ k) := by
  show rdE2 V c (((cfg2.win 0).blk t).view.emb (ix2 p k)) = _
  refine congrArg (rdE2 V c) ?_
  obtain ⟨e0, e1, -⟩ := idx2 t
  funext a; apply Fin.ext
  match a with
  | ⟨0, _⟩ => show win2_0.index t (0 : Fin 2) * 5000 + 1 * p.val = t.val * 5000 + p.val; omega
  | ⟨1, _⟩ => show win2_0.index t (1 : Fin 2) * 32 + 1 * k.val = k.val; omega

/-- The same for the aggregated rows' block. -/
theorem blk2_1 (c : Dev nD) (t : Fin cfg2.N) (p : Fin 5000) (k : Fin 32) (h : t.val * 5000 + p.val < 170000) :
    (iblk2 V c 1 t : Vec Ideal S5000x32 .f32) (ix2 p k) = rdS2 V c (ix2 ⟨t.val * 5000 + p.val, h⟩ k) := by
  show rdS2 V c (((cfg2.win 1).blk t).view.emb (ix2 p k)) = _
  refine congrArg (rdS2 V c) ?_
  obtain ⟨-, -, e2, e3, -⟩ := idx2 t
  funext a; apply Fin.ext
  match a with
  | ⟨0, _⟩ => show win2_1.index t (0 : Fin 2) * 5000 + 1 * p.val = t.val * 5000 + p.val; omega
  | ⟨1, _⟩ => show win2_1.index t (1 : Fin 2) * 32 + 1 * k.val = k.val; omega

/-- The weight's block is the whole weight at every point. -/
theorem blk2_2 (c : Dev nD) (t : Fin cfg2.N) : (iblk2 V c 2 t : Vec Ideal S64x32 .f32) = rdW2 V c := by
  funext y
  show rdW2 V c (((cfg2.win 2).blk t).view.emb y) = rdW2 V c y
  refine congrArg (rdW2 V c) ?_
  obtain ⟨-, -, -, -, e4, e5, -⟩ := idx2 t
  funext a; apply Fin.ext
  match a with
  | ⟨0, _⟩ => show win2_2.index t (0 : Fin 2) * 64 + 1 * (y 0).val = (y 0).val; omega
  | ⟨1, _⟩ => show win2_2.index t (1 : Fin 2) * 32 + 1 * (y 1).val = (y 1).val; omega

/-- The bias's block is the whole bias at every point. -/
theorem blk2_3 (c : Dev nD) (t : Fin cfg2.N) : (iblk2 V c 3 t : Vec Ideal S32 .f32) = rdB2 V c := by
  funext y
  show rdB2 V c (((cfg2.win 3).blk t).view.emb y) = rdB2 V c y
  refine congrArg (rdB2 V c) ?_
  obtain ⟨-, -, -, -, -, -, e6, -⟩ := idx2 t
  funext a; apply Fin.ext
  match a with
  | ⟨0, _⟩ => show win2_3.index t (0 : Fin 1) * 32 + 1 * (y 0).val = (y 0).val; omega

/-- Output window 4's block at point `t` sits at rows `5000 t …` of its array. -/
theorem emb2_4 (t : Fin cfg2.N) (p : Fin 5000) (q : Fin 16) (h : t.val * 5000 + p.val < 170000) :
    (((cfg2.win 4).blk t).view.emb (ix2 p q) : S170000x16.Idx) = ix2 ⟨t.val * 5000 + p.val, h⟩ q := by
  obtain ⟨-, -, -, -, -, -, -, e0, e1⟩ := idx2 t
  funext a; apply Fin.ext
  match a with
  | ⟨0, _⟩ => show win2_4.index t (0 : Fin 2) * 5000 + 1 * p.val = t.val * 5000 + p.val; omega
  | ⟨1, _⟩ => show win2_4.index t (1 : Fin 2) * 16 + 1 * q.val = q.val; omega

/-- An index of the array is in point `t`'s block iff each coordinate is in the block's range on its axis. -/
theorem mem_blk2_4 (t : Fin cfg2.N) (i : S170000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v65).slice (win2_4.rect t)).set ↔ _
  rw [View.set_slice_whole, Rect.mem_set_unit]
  exact Iff.rfl

/-- The blocks tile the array: row `r` is in the block of point `r / 5000`. -/
theorem tiles2_4 (i : S170000x16.Idx) : ∃ t : Fin cfg2.N, (cfg2.win 4).flush t = true ∧ i ∈ ((cfg2.win 4).blk t).view.set := by
  have hi0 : (i 0).val < 170000 := (i 0).isLt
  have hi1 : (i 1).val < 16 := (i 1).isLt
  have hN : grid2.N = 34 := N_2
  refine ⟨⟨(i 0).val / 5000, by show (i 0).val / 5000 < grid2.N; omega⟩, flush2_4 _, ?_⟩
  rw [mem_blk2_4]
  obtain ⟨-, -, -, -, -, -, -, e0, e1⟩ := idx2 (⟨(i 0).val / 5000, by show (i 0).val / 5000 < grid2.N; omega⟩ : Fin cfg2.N)
  have e0' : win2_4.index (⟨(i 0).val / 5000, by show (i 0).val / 5000 < grid2.N; omega⟩ : Fin cfg2.N) (0 : Fin 2) = (i 0).val / 5000 := e0
  intro a
  match a with
  | ⟨0, _⟩ => show win2_4.index _ (0 : Fin 2) * 5000 ≤ (i 0).val ∧ (i 0).val < win2_4.index _ (0 : Fin 2) * 5000 + 5000; omega
  | ⟨1, _⟩ => show win2_4.index _ (1 : Fin 2) * 16 ≤ (i 1).val ∧ (i 1).val < win2_4.index _ (1 : Fin 2) * 16 + 16; omega

/-- What point `t` writes back through window 4 is block `t` of the normalised new embeddings of the whole arrays. -/
theorem flushed2_4 (c : Dev nD) (w1 w2 : FArr (F := Ideal) S32x16) (b1 b2 : FArr (F := Ideal) S16)
    (hw : rdW2 V c = wcat2 w1 w2) (hb : rdB2 V c = bcat2 b1 b2)
    (hpay2 : ∀ x0 x1 : Vec Ideal S5000x32 .f32, k2_pay1 (F := Ideal) x0 x1 (wcat2 w1 w2) (bcat2 b1 b2) = normed (N := 5000) (D := 16) (egoNew (N := 5000) (D := 32) (D' := 16) x0 x1 w1 b1 w2 b2)) (t : Fin cfg2.N) :
    (dat2 (F := Ideal) V c).flushed 4 t = ((cfg2.win 4).blk t).view.read (Elt Ideal) (normed (N := 170000) (D := 16) (egoNew (N := 170000) (D := 32) (D' := 16) (rdE2 V c) (rdS2 V c) w1 b1 w2 b2)) := by
  show (cfg2.win 4).cut (grid2.coords t) ((dat2 V c).after 4 t) = _
  rw [after2_4]
  unfold out2_4
  rw [View.canon_unit_zero hz2_2]
  simp only [View.ld_unit_zero (S := S5000x32) hz2_2, View.ld_unit_zero (S := S64x32) hz2_2, View.ld_unit_zero (S := S32) hz1_2]
  rw [blk2_2 V c t, blk2_3 V c t, hw, hb, hpay2]
  funext y
  obtain ⟨p, q, rfl⟩ : ∃ (p : Fin 5000) (q : Fin 16), y = ix2 p q := ⟨y 0, y 1, eq_ix2 y⟩
  have hr : t.val * 5000 + p.val < 170000 := (by have := p.isLt; have := t.isLt; have hN : grid2.N = 34 := N_2; have ht : t.val < grid2.N := t.isLt; omega)
  show normed (N := 5000) (D := 16) (egoNew (N := 5000) (D := 32) (D' := 16) (iblk2 V c 0 t) (iblk2 V c 1 t) w1 b1 w2 b2) (ix2 p q)
    = normed (N := 170000) (D := 16) (egoNew (N := 170000) (D := 32) (D' := 16) (rdE2 V c) (rdS2 V c) w1 b1 w2 b2) (((cfg2.win 4).blk t).view.emb (ix2 p q))
  rw [emb2_4 t p q hr]
  exact normed_row _ _ ⟨t.val * 5000 + p.val, hr⟩ p
    (fun j => egoNew_row _ _ _ _ w1 b1 w2 b2 ⟨t.val * 5000 + p.val, hr⟩ p (fun k => blk2_0 V c t p k hr) (fun k => blk2_1 V c t p k hr) j) q

/-- The array of the normalised new embeddings after the region. -/
theorem final2_4 (c : Dev nD) (w1 w2 : FArr (F := Ideal) S32x16) (b1 b2 : FArr (F := Ideal) S16)
    (hw : rdW2 V c = wcat2 w1 w2) (hb : rdB2 V c = bcat2 b1 b2)
    (hpay2 : ∀ x0 x1 : Vec Ideal S5000x32 .f32, k2_pay1 (F := Ideal) x0 x1 (wcat2 w1 w2) (bcat2 b1 b2) = normed (N := 5000) (D := 16) (egoNew (N := 5000) (D := 32) (D' := 16) x0 x1 w1 b1 w2 b2)) :
    (dat2 (F := Ideal) V c).arrAt 4 cfg2.N = normed (N := 170000) (D := 16) (egoNew (N := 170000) (D := 32) (D' := 16) (rdE2 V c) (rdS2 V c) w1 b1 w2 b2) :=
  (dat2 (F := Ideal) V c).arrAt_eq_of_cover 4 _ (fun t _ => flushed2_4 V c w1 w2 b1 b2 hw hb hpay2 t) (tiles2_4)

end Region2

end Cert.KernelIdeal.Layers

end
-- ==== Proof.KernelTarget.lean ====
/-
  The kernel program's result as ONE function of its argument arrays, over the kernel program's own host operations:
  three layers of Spec.lean's bi-interaction on the aggregation A · ego (gathered rows through bf16 and back), then
  the join of the input embeddings with the three normalised embeddings along the feature axis.
-/
import proofs.«115229_j70806830842640_2_alg».proof.Proof.HostTerms
import proofs.«115229_j70806830842640_2_alg».proof.Proof.Spec

noncomputable section

namespace Cert.KernelIdeal.Result

open Idealize.ShloMosaic Cert.KernelIdeal Cert.KernelIdeal.Facts₀ Cert.KernelIdeal.Facts Cert.KernelIdeal.HostTerms Cert.BiInteraction

variable [Cert.KernelIdeal.Facts]

section
variable (a0 : FArr (F := Ideal) S170000x64) (a1 : FArr (F := Ideal) S2720000) (a2 : FArr (F := Ideal) S64x64) (a3 : FArr (F := Ideal) S64)
  (a4 : FArr (F := Ideal) S64x64) (a5 : FArr (F := Ideal) S64) (a6 : FArr (F := Ideal) S64x32) (a7 : FArr (F := Ideal) S32)
  (a8 : FArr (F := Ideal) S64x32) (a9 : FArr (F := Ideal) S32) (a10 : FArr (F := Ideal) S32x16) (a11 : FArr (F := Ideal) S16)
  (a12 : FArr (F := Ideal) S32x16) (a13 : FArr (F := Ideal) S16) (a14 a15 : WArr (F := Ideal) S2720000)

/-- The embeddings after the first layer. -/
def ke1 : FArr (F := Ideal) S170000x64 := egoNew (N := 170000) (D := 64) (D' := 64) a0 (agg64 a0 a1 a14 a15) a2 a3 a4 a5
/-- The embeddings after the second layer. -/
def ke2 : FArr (F := Ideal) S170000x32 :=
  egoNew (N := 170000) (D := 64) (D' := 32) (ke1 a0 a1 a2 a3 a4 a5 a14 a15) (agg64 (ke1 a0 a1 a2 a3 a4 a5 a14 a15) a1 a14 a15) a6 a7 a8 a9
/-- The embeddings after the third layer. -/
def ke3 : FArr (F := Ideal) S170000x16 :=
  egoNew (N := 170000) (D := 32) (D' := 16) (ke2 a0 a1 a2 a3 a4 a5 a6 a7 a8 a9 a14 a15)
    (agg32 (ke2 a0 a1 a2 a3 a4 a5 a6 a7 a8 a9 a14 a15) a1 a14 a15) a10 a11 a12 a13
/-- The result. -/
def KG : FArr (F := Ideal) S170000x176 :=
  concatenate S170000x176 1
    [⟨S170000x64, a0⟩,
     ⟨S170000x64, normed (N := 170000) (D := 64) (ke1 a0 a1 a2 a3 a4 a5 a14 a15)⟩,
     ⟨S170000x32, normed (N := 170000) (D := 32) (ke2 a0 a1 a2 a3 a4 a5 a6 a7 a8 a9 a14 a15)⟩,
     ⟨S170000x16, normed (N := 170000) (D := 16) (ke3 a0 a1 a2 a3 a4 a5 a6 a7 a8 a9 a10 a11 a12 a13 a14 a15)⟩]
    concatenates_S170000x64_S170000x64_S170000x32_S170000x16_S170000x176_d1
end

end Cert.KernelIdeal.Result

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibBlockDiag.lean ====
/-
  The block-diagonal product behind one bi-interaction layer, read at an index, over the extended reals and for any
  extents.

  With sp = [s | p] (two [R, D] arrays joined along the columns into [R, D + D]) and the weight
  W = [[w1, 0], [0, w2]] ([D + D, D' + D']), column c of sp · W is
      Σ_{k < D + D} sp(r, k) · W(k, c) = Σ_{k < D} s(r, k) · w1(k, c)          for c in the left half,
                                       = Σ_{k < D} p(r, k) · w2(k, c − D')     for c in the right half,
  because the other half of the sum multiplies by the zero block, and x · 0 = 0 for every extended real (the
  infinities included), so nothing is asked of the entries. Adding the joined bias [b1 | b2], cutting the two
  halves apart and passing each through the leaky rectifier gives the layer of the specification.
-/
import Idealize.ShloMosaic.Lib.ValueLayout
import Idealize.ShloMosaic.PureOps.Ideal.Laws
import proofs.«115229_j70806830842640_2_alg».proof.Proof.LibPlainDot
import proofs.«115229_j70806830842640_2_alg».proof.Proof.Spec

noncomputable section

open scoped BigOperators

namespace Cert.Lib.BlockDiag

open Idealize.ShloMosaic Idealize.ShloMosaic.ValueIdx Cert.BiInteraction

/-! ## Two arrays joined along an axis, read at an index -/

section Join
variable {α : Type}

/-- [x₁ | x₂] along the columns, at a column of the first piece. -/
theorem join_cols_left {R A B K : ℕ} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, K]⟩ 1)
    (r : Fin R) (k : Fin K) (a : Fin A) (hk : a.val = k.val) :
    concatenate ⟨2, ![R, K]⟩ 1 [⟨⟨2, ![R, A]⟩, x₁⟩, ⟨⟨2, ![R, B]⟩, x₂⟩] h (ix2 r k) = x₁ (ix2 r a) :=
  concatenate_pair_apply_left (t := ⟨2, ![R, K]⟩) (1 : Fin 2) x₁ x₂ h (ix2 r k) rfl (ix2 r a) (fun b => by
    match b with
    | ⟨0, _⟩ => rfl
    | ⟨1, _⟩ => exact hk)

/-- [x₁ | x₂] along the columns, at a column of the second piece. -/
theorem join_cols_right {R A B K : ℕ} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, K]⟩ 1)
    (r : Fin R) (k : Fin K) (b : Fin B) (hk : b.val + A = k.val) :
    concatenate ⟨2, ![R, K]⟩ 1 [⟨⟨2, ![R, A]⟩, x₁⟩, ⟨⟨2, ![R, B]⟩, x₂⟩] h (ix2 r k) = x₂ (ix2 r b) :=
  concatenate_pair_apply_right (t := ⟨2, ![R, K]⟩) (1 : Fin 2) x₁ x₂ h (ix2 r k) rfl rfl (ix2 r b) (fun c hc => by
    match c with
    | ⟨0, _⟩ => rfl
    | ⟨1, _⟩ => exact absurd rfl hc) hk

/-- x₁ above x₂ (joined along the rows), at a row of the first piece. -/
theorem join_rows_left {A B K C : ℕ} (x₁ : (⟨2, ![A, C]⟩ : Shape).Idx → α) (x₂ : (⟨2, ![B, C]⟩ : Shape).Idx → α)
    (h : Shape.Concatenates [(⟨2, ![A, C]⟩ : Shape), ⟨2, ![B, C]⟩] ⟨2, ![K, C]⟩ 0)
    (k : Fin K) (c : Fin C) (a : Fin A) (hk : a.val = k.val) :
    concatenate ⟨2, ![K, C]⟩ 0 [⟨⟨2, ![A, C]⟩, x₁⟩, ⟨⟨2, ![B, C]⟩, x₂⟩] h (ix2 k c) = x₁ (ix2 a c) :=
  concatenate_pair_apply_left (t := ⟨2, ![K, C]⟩) (0 : Fin 2) x₁ x₂ h (ix2 k c) rfl (ix2 a c) (fun b => by
    match b with
    | ⟨0, _⟩ => exact hk
    | ⟨1, _⟩ => rfl)

/-- x₁ above x₂, at a row of the second piece. -/
theorem join_rows_right {A B K C : ℕ} (x₁ : (⟨2, ![A, C]⟩ : Shape).Idx → α) (x₂ : (⟨2, ![B, C]⟩ : Shape).Idx → α)
    (h : Shape.Concatenates [(⟨2, ![A, C]⟩ : Shape), ⟨2, ![B, C]⟩] ⟨2, ![K, C]⟩ 0)
    (k : Fin K) (c : Fin C) (b : Fin B) (hk : b.val + A = k.val) :
    concatenate ⟨2, ![K, C]⟩ 0 [⟨⟨2, ![A, C]⟩, x₁⟩, ⟨⟨2, ![B, C]⟩, x₂⟩] h (ix2 k c) = x₂ (ix2 b c) :=
  concatenate_pair_apply_right (t := ⟨2, ![K, C]⟩) (0 : Fin 2) x₁ x₂ h (ix2 k c) rfl rfl (ix2 b c) (fun e he => by
    match e with
    | ⟨0, _⟩ => exact absurd rfl he
    | ⟨1, _⟩ => rfl) hk

/-- Two vectors joined, at an entry of the first. -/
theorem join_vec_left {A B C : ℕ} (x₁ : (⟨1, ![A]⟩ : Shape).Idx → α) (x₂ : (⟨1, ![B]⟩ : Shape).Idx → α)
    (h : Shape.Concatenates [(⟨1, ![A]⟩ : Shape), ⟨1, ![B]⟩] ⟨1, ![C]⟩ 0) (c : Fin C) (a : Fin A) (hc : a.val = c.val) :
    concatenate ⟨1, ![C]⟩ 0 [⟨⟨1, ![A]⟩, x₁⟩, ⟨⟨1, ![B]⟩, x₂⟩] h (ix1 c) = x₁ (ix1 a) :=
  concatenate_pair_apply_left (t := ⟨1, ![C]⟩) (0 : Fin 1) x₁ x₂ h (ix1 c) rfl (ix1 a) (fun b => by
    match b with
    | ⟨0, _⟩ => exact hc)

/-- Two vectors joined, at an entry of the second. -/
theorem join_vec_right {A B C : ℕ} (x₁ : (⟨1, ![A]⟩ : Shape).Idx → α) (x₂ : (⟨1, ![B]⟩ : Shape).Idx → α)
    (h : Shape.Concatenates [(⟨1, ![A]⟩ : Shape), ⟨1, ![B]⟩] ⟨1, ![C]⟩ 0) (c : Fin C) (b : Fin B) (hc : b.val + A = c.val) :
    concatenate ⟨1, ![C]⟩ 0 [⟨⟨1, ![A]⟩, x₁⟩, ⟨⟨1, ![B]⟩, x₂⟩] h (ix1 c) = x₂ (ix1 b) :=
  concatenate_pair_apply_right (t := ⟨1, ![C]⟩) (0 : Fin 1) x₁ x₂ h (ix1 c) rfl rfl (ix1 b) (fun e he => by
    match e with
    | ⟨0, _⟩ => exact absurd rfl he) hc

end Join

/-- The zero word spread over any shape reads 0 everywhere. -/
theorem zeros_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 :=
  (broadcastInDim_apply dims h (constant (F := Ideal) ⟨0, ![]⟩ .f32 0x00000000#32) j ix0 fun a => a.elim0).trans
    Ideal.ofBits_zero_f32

/-! ## The block-diagonal weight and the joined bias, as what they read -/

/-- W reads as [[w1, 0], [0, w2]]. -/
structure IsBlockDiag {D D' K C : ℕ} (W : Mat K C) (w1 w2 : Mat D D') : Prop where
  tl : ∀ (k : Fin K) (c : Fin C) (a : Fin D) (j : Fin D'), a.val = k.val → j.val = c.val → W (ix2 k c) = w1 (ix2 a j)
  tr : ∀ (k : Fin K) (c : Fin C), k.val < D → D' ≤ c.val → W (ix2 k c) = 0
  bl : ∀ (k : Fin K) (c : Fin C), D ≤ k.val → c.val < D' → W (ix2 k c) = 0
  br : ∀ (k : Fin K) (c : Fin C) (a : Fin D) (j : Fin D'), a.val + D = k.val → j.val + D' = c.val →
    W (ix2 k c) = w2 (ix2 a j)

/-- B reads as [b1 | b2]. -/
structure IsJoined {D' C : ℕ} (B : Row C) (b1 b2 : Row D') : Prop where
  left : ∀ (c : Fin C) (j : Fin D'), j.val = c.val → B (ix1 c) = b1 (ix1 j)
  right : ∀ (c : Fin C) (j : Fin D'), j.val + D' = c.val → B (ix1 c) = b2 (ix1 j)

/-- [w1 | Z₁] above [Z₂ | w2], the Z all-zero, reads as [[w1, 0], [0, w2]]. -/
theorem isBlockDiag_join {D D' K C : ℕ} (hK : K = D + D) (hC : C = D' + D') (w1 w2 Z₁ Z₂ : Mat D D')
    (hZ₁ : ∀ i, Z₁ i = 0) (hZ₂ : ∀ i, Z₂ i = 0)
    (hc : Shape.Concatenates [(⟨2, ![D, D']⟩ : Shape), ⟨2, ![D, D']⟩] ⟨2, ![D, C]⟩ 1)
    (hr : Shape.Concatenates [(⟨2, ![D, C]⟩ : Shape), ⟨2, ![D, C]⟩] ⟨2, ![K, C]⟩ 0) :
    IsBlockDiag (D := D) (D' := D')
      (concatenate ⟨2, ![K, C]⟩ 0
        [⟨⟨2, ![D, C]⟩, concatenate ⟨2, ![D, C]⟩ 1 [⟨⟨2, ![D, D']⟩, w1⟩, ⟨⟨2, ![D, D']⟩, Z₁⟩] hc⟩,
         ⟨⟨2, ![D, C]⟩, concatenate ⟨2, ![D, C]⟩ 1 [⟨⟨2, ![D, D']⟩, Z₂⟩, ⟨⟨2, ![D, D']⟩, w2⟩] hc⟩] hr) w1 w2 where
  tl k c a j ha hj := by
    rw [join_rows_left _ _ hr k c a ha, join_cols_left _ _ hc a c j hj]
  tr k c hk hcD := by
    have hc' := c.isLt
    rw [join_rows_left _ _ hr k c ⟨k.val, hk⟩ rfl,
      join_cols_right _ _ hc ⟨k.val, hk⟩ c ⟨c.val - D', by omega⟩ (Nat.sub_add_cancel hcD)]
    exact hZ₁ _
  bl k c hk hcD := by
    have hk' := k.isLt
    rw [join_rows_right _ _ hr k c ⟨k.val - D, by omega⟩ (Nat.sub_add_cancel hk),
      join_cols_left _ _ hc ⟨k.val - D, by omega⟩ c ⟨c.val, hcD⟩ rfl]
    exact hZ₂ _
  br k c a j ha hj := by
    rw [join_rows_right _ _ hr k c a ha, join_cols_right _ _ hc a c j hj]

/-- Two vectors joined read as [b1 | b2]. -/
theorem isJoined_join {D' C : ℕ} (b1 b2 : Row D')
    (h : Shape.Concatenates [(⟨1, ![D']⟩ : Shape), ⟨1, ![D']⟩] ⟨1, ![C]⟩ 0) :
    IsJoined (concatenate ⟨1, ![C]⟩ 0 [⟨⟨1, ![D']⟩, b1⟩, ⟨⟨1, ![D']⟩, b2⟩] h) b1 b2 where
  left c j hj := join_vec_left b1 b2 h c j hj
  right c j hj := join_vec_right b1 b2 h c j hj

/-! ## A sum over D + D terms whose other half vanishes -/

/-- The second half of the terms are 0: the sum is the first half's. -/
theorem sum_fst_half {D K : ℕ} (hK : K = D + D) (f : Fin K → EReal) (g : Fin D → EReal)
    (h1 : ∀ (k : Fin K) (a : Fin D), a.val = k.val → f k = g a) (h2 : ∀ k : Fin K, D ≤ k.val → f k = 0) :
    ∑ k, f k = ∑ a, g a := by
  subst hK
  rw [Fin.sum_univ_add, Finset.sum_congr rfl fun a _ => h1 (Fin.castAdd D a) a rfl,
    Finset.sum_eq_zero fun a _ => h2 (Fin.natAdd D a) (Nat.le_add_right D a.val), add_zero]

/-- The first half of the terms are 0: the sum is the second half's. -/
theorem sum_snd_half {D K : ℕ} (hK : K = D + D) (f : Fin K → EReal) (g : Fin D → EReal)
    (h1 : ∀ (k : Fin K) (a : Fin D), a.val + D = k.val → f k = g a) (h2 : ∀ k : Fin K, k.val < D → f k = 0) :
    ∑ k, f k = ∑ a, g a := by
  subst hK
  rw [Fin.sum_univ_add, Finset.sum_eq_zero fun a _ => h2 (Fin.castAdd D a) a.isLt,
    Finset.sum_congr rfl fun a _ => h1 (Fin.natAdd D a) a (Nat.add_comm a.val D), zero_add]

/-! ## The layer as the kernel computes it -/

section Layer
variable {R D D' K C : ℕ}

/-- [s | p] · W + B, the bias laid out as a row over all R rows: the two pre-activations side by side. -/
def preK (s p : FVec Ideal ⟨2, ![R, D]⟩ .f32) (W : FVec Ideal ⟨2, ![K, C]⟩ .f32) (B : FVec Ideal ⟨1, ![C]⟩ .f32)
    (hcat : Shape.Concatenates [(⟨2, ![R, D]⟩ : Shape), ⟨2, ![R, D]⟩] ⟨2, ![R, K]⟩ 1)
    (hb : FTy.bits .bf16 < FTy.bits .f32)
    (d : DotDims (⟨2, ![R, K]⟩ : Shape) (⟨2, ![K, C]⟩ : Shape) (⟨2, ![R, C]⟩ : Shape))
    (hsc : (⟨1, ![C]⟩ : Shape).ShapeCasts ⟨2, ![1, C]⟩) (hbc : (⟨2, ![1, C]⟩ : Shape).Broadcasts ⟨2, ![R, C]⟩) :
    FVec Ideal ⟨2, ![R, C]⟩ .f32 :=
  addf
    (matmul d none (truncf .bf16 (concatenate ⟨2, ![R, K]⟩ 1 [⟨⟨2, ![R, D]⟩, s⟩, ⟨⟨2, ![R, D]⟩, p⟩] hcat) hb)
      (truncf .bf16 W hb) (constant ⟨2, ![R, C]⟩ .f32 0x00000000#32))
    (broadcastTo ⟨2, ![R, C]⟩ (shapeCast ⟨2, ![1, C]⟩ B hsc) hbc)

variable (hK : K = D + D) (hC : C = D' + D')
  (s p : FVec Ideal ⟨2, ![R, D]⟩ .f32) (W : FVec Ideal ⟨2, ![K, C]⟩ .f32) (B : FVec Ideal ⟨1, ![C]⟩ .f32)
  (w1 w2 : Mat D D') (b1 b2 : Row D') (hW : IsBlockDiag W w1 w2) (hB : IsJoined B b1 b2)
  (hcat : Shape.Concatenates [(⟨2, ![R, D]⟩ : Shape), ⟨2, ![R, D]⟩] ⟨2, ![R, K]⟩ 1)
  (hb : FTy.bits .bf16 < FTy.bits .f32)
  (d : DotDims (⟨2, ![R, K]⟩ : Shape) (⟨2, ![K, C]⟩ : Shape) (⟨2, ![R, C]⟩ : Shape)) (hd : Cert.Lib.PlainDot.Reads d)
  (hsc : (⟨1, ![C]⟩ : Shape).ShapeCasts ⟨2, ![1, C]⟩) (hbc : (⟨2, ![1, C]⟩ : Shape).Broadcasts ⟨2, ![R, C]⟩)

include hK hW hB hd in
/-- A column of the left half: Σ_k s(r,k) · w1(k,j) + b1(j). -/
theorem preK_left (r : Fin R) (c : Fin C) (j : Fin D') (hj : j.val = c.val) :
    preK s p W B hcat hb d hsc hbc (ix2 r c) = affine (fun k => s (ix2 r k)) w1 b1 j := by
  show FloatOps.matmul d none (truncf .bf16 (concatenate ⟨2, ![R, K]⟩ 1 [⟨⟨2, ![R, D]⟩, s⟩, ⟨⟨2, ![R, D]⟩, p⟩] hcat) hb)
        (truncf .bf16 W hb) (constant ⟨2, ![R, C]⟩ .f32 0x00000000#32) (ix2 r c)
      + broadcastTo ⟨2, ![R, C]⟩ (shapeCast ⟨2, ![1, C]⟩ B hsc) hbc (ix2 r c)
      = (∑ k : Fin D, s (ix2 r k) * w1 (ix2 k j)) + b1 (ix1 j)
  rw [Cert.Lib.PlainDot.matmul_zero_apply hd, broadcastTo_1b_ab_apply, shapeCast_a_1a_apply, hB.left c j hj]
  refine congrArg (· + b1 (ix1 j)) (sum_fst_half hK _ _ (fun k a ha => ?_) (fun k hk => ?_))
  · show concatenate ⟨2, ![R, K]⟩ 1 [⟨⟨2, ![R, D]⟩, s⟩, ⟨⟨2, ![R, D]⟩, p⟩] hcat (ix2 r k) * W (ix2 k c)
      = s (ix2 r a) * w1 (ix2 a j)
    rw [join_cols_left s p hcat r k a ha, hW.tl k c a j ha hj]
  · show concatenate ⟨2, ![R, K]⟩ 1 [⟨⟨2, ![R, D]⟩, s⟩, ⟨⟨2, ![R, D]⟩, p⟩] hcat (ix2 r k) * W (ix2 k c) = 0
    have hj' := j.isLt
    rw [hW.bl k c hk (by omega), mul_zero]

include hK hW hB hd in
/-- A column of the right half: Σ_k p(r,k) · w2(k,j) + b2(j). -/
theorem preK_right (r : Fin R) (c : Fin C) (j : Fin D') (hj : j.val + D' = c.val) :
    preK s p W B hcat hb d hsc hbc (ix2 r c) = affine (fun k => p (ix2 r k)) w2 b2 j := by
  show FloatOps.matmul d none (truncf .bf16 (concatenate ⟨2, ![R, K]⟩ 1 [⟨⟨2, ![R, D]⟩, s⟩, ⟨⟨2, ![R, D]⟩, p⟩] hcat) hb)
        (truncf .bf16 W hb) (constant ⟨2, ![R, C]⟩ .f32 0x00000000#32) (ix2 r c)
      + broadcastTo ⟨2, ![R, C]⟩ (shapeCast ⟨2, ![1, C]⟩ B hsc) hbc (ix2 r c)
      = (∑ k : Fin D, p (ix2 r k) * w2 (ix2 k j)) + b2 (ix1 j)
  rw [Cert.Lib.PlainDot.matmul_zero_apply hd, broadcastTo_1b_ab_apply, shapeCast_a_1a_apply, hB.right c j hj]
  refine congrArg (· + b2 (ix1 j)) (sum_snd_half hK _ _ (fun k a ha => ?_) (fun k hk => ?_))
  · show concatenate ⟨2, ![R, K]⟩ 1 [⟨⟨2, ![R, D]⟩, s⟩, ⟨⟨2, ![R, D]⟩, p⟩] hcat (ix2 r k) * W (ix2 k c)
      = p (ix2 r a) * w2 (ix2 a j)
    rw [join_cols_right s p hcat r k a ha, hW.br k c a j ha hj]
  · show concatenate ⟨2, ![R, K]⟩ 1 [⟨⟨2, ![R, D]⟩, s⟩, ⟨⟨2, ![R, D]⟩, p⟩] hcat (ix2 r k) * W (ix2 k c) = 0
    rw [hW.tr k c hk (by omega), mul_zero]

/-- The two halves cut apart, each through the leaky rectifier (a comparison against the zero word, a choice between
    the value and the slope word times it), and added. -/
def egoK (x0 x1 : FVec Ideal ⟨2, ![R, D]⟩ .f32)
    (hs1 : (⟨2, ![R, C]⟩ : Shape).Slices ![0, 0] ⟨2, ![R, D']⟩) (hs2 : (⟨2, ![R, C]⟩ : Shape).Slices ![0, D'] ⟨2, ![R, D']⟩) :
    FVec Ideal ⟨2, ![R, D']⟩ .f32 :=
  have pre : FVec Ideal ⟨2, ![R, C]⟩ .f32 := preK (addf x0 x1) (mulf x0 x1) W B hcat hb d hsc hbc
  have l : FVec Ideal ⟨2, ![R, D']⟩ .f32 := extractStridedSlice ⟨2, ![R, D']⟩ ![0, 0] pre hs1
  have r : FVec Ideal ⟨2, ![R, D']⟩ .f32 := extractStridedSlice ⟨2, ![R, D']⟩ ![0, D'] pre hs2
  addf
    (select (cmpf .oge l (broadcast ⟨2, ![R, D']⟩ (Scalar.ofBits .f32 0x00000000#32))) l
      (mulf (broadcast ⟨2, ![R, D']⟩ (Scalar.ofBits .f32 0x3C23D70A#32)) l))
    (select (cmpf .oge r (broadcast ⟨2, ![R, D']⟩ (Scalar.ofBits .f32 0x00000000#32))) r
      (mulf (broadcast ⟨2, ![R, D']⟩ (Scalar.ofBits .f32 0x3C23D70A#32)) r))

include hK hC hW hB hd in
/-- It is the layer of the specification. -/
theorem egoK_eq (x0 x1 : FVec Ideal ⟨2, ![R, D]⟩ .f32)
    (hs1 : (⟨2, ![R, C]⟩ : Shape).Slices ![0, 0] ⟨2, ![R, D']⟩) (hs2 : (⟨2, ![R, C]⟩ : Shape).Slices ![0, D'] ⟨2, ![R, D']⟩) :
    egoK W B hcat hb d hsc hbc x0 x1 hs1 hs2 = egoNew x0 x1 w1 b1 w2 b2 := by
  funext i
  obtain ⟨r, q, rfl⟩ : ∃ (r : Fin R) (q : Fin D'), i = ix2 r q := ⟨i 0, i 1, eq_ix2 i⟩
  have hq := q.isLt
  have e1 := slice2_axis1_apply 0 (preK (addf x0 x1) (mulf x0 x1) W B hcat hb d hsc hbc) hs1 r q ⟨q.val, by omega⟩
    (Nat.zero_add _).symm
  have e2 := slice2_axis1_apply D' (preK (addf x0 x1) (mulf x0 x1) W B hcat hb d hsc hbc) hs2 r q ⟨D' + q.val, by omega⟩ rfl
  rw [preK_left hK _ _ W B w1 w2 b1 b2 hW hB hcat hb d hd hsc hbc r _ q rfl] at e1
  rw [preK_right hK _ _ W B w1 w2 b1 b2 hW hB hcat hb d hd hsc hbc r _ q (Nat.add_comm _ _)] at e2
  show leaky (extractStridedSlice ⟨2, ![R, D']⟩ ![0, 0] (preK (addf x0 x1) (mulf x0 x1) W B hcat hb d hsc hbc) hs1 (ix2 r q))
      + leaky (extractStridedSlice ⟨2, ![R, D']⟩ ![0, D'] (preK (addf x0 x1) (mulf x0 x1) W B hcat hb d hsc hbc) hs2 (ix2 r q))
    = leaky (affine (fun k => x0 (ix2 r k) + x1 (ix2 r k)) w1 b1 q) + leaky (affine (fun k => x0 (ix2 r k) * x1 (ix2 r k)) w2 b2 q)
  rw [e1, e2]
  rfl

end Layer

end Cert.Lib.BlockDiag

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowReduce.lean ====
/-
  A row reduction kept as a column and broadcast back, read at an index, over the extended reals.

  For an `[R, C]` array `z`: reduce along the columns (a maximum folded from the accumulator's value, or a sum), stand
  the `R` results up as an `[R, 1]` column, and broadcast the column back to `[R, C]`. At `(r, c)` the result is
  row `r`'s reduction, whatever `c`: the fold of `max` over `k ↦ z (r, k)`, or `Σ_k z (r, k)`.
-/
import Idealize.ShloMosaic.Lib.Pipeline.Value
import Idealize.ShloMosaic.Lib.ValueIdx
import Idealize.ShloMosaic.PureOps.Ideal.Laws
import proofs.«115229_j70806830842640_2_alg».proof.Proof.LibColumnLayout

noncomputable section

namespace Cert.Lib.RowReduce

open Idealize.ShloMosaic Idealize.ShloMosaic.ValueIdx

variable {R C : ℕ}

/-- The index of row `r` with the dropped column coordinate `k` put back is `(r, k)`. -/
theorem lift_row (hred : (⟨2, ![R, C]⟩ : Shape).Reduces [1] ⟨1, ![R]⟩) (r : Fin R) (k : Fin C) :
    hred.lift (ix1 r) k = ix2 r k :=
  funext fun a => Fin.ext (by match a with | ⟨0, _⟩ => rfl | ⟨1, _⟩ => rfl)

/-- A row's maximum, kept as a column and broadcast back, at `(r, c)`. -/
theorem max_keep_apply (z : FVec Ideal (⟨2, ![R, C]⟩ : Shape) .f32) (acc : BitVec 32)
    (hred : (⟨2, ![R, C]⟩ : Shape).Reduces [1] ⟨1, ![R]⟩) (hφ : FKind.Formats .f32)
    (hacc : acc = FKind.maximumf.neutral .f32 hφ)
    (hc : (⟨1, ![R]⟩ : Shape).ShapeCasts ⟨2, ![R, 1]⟩) (hb : (⟨2, ![R, 1]⟩ : Shape).Broadcasts ⟨2, ![R, C]⟩)
    (r : Fin R) (c : Fin C) :
    broadcastTo ⟨2, ![R, C]⟩ (shapeCast ⟨2, ![R, 1]⟩ (multiReduction .maximumf [1] ⟨1, ![R]⟩ z acc hred hφ hacc) hc) hb (ix2 r c)
      = (Finset.univ : Finset (Fin C)).fold max (Ideal.ofBits .f32 acc) (fun k => z (ix2 r k)) := by
  rw [Cert.ColumnLayout.broadcastTo_a1_ab_apply, Cert.ColumnLayout.shapeCast_a_a1_apply]
  refine (Ideal.multiReduction_maximumf_single z acc hred hφ hacc (ix1 r)).trans ?_
  exact congrArg (fun f : Fin C → EReal => (Finset.univ : Finset (Fin C)).fold max (Ideal.ofBits .f32 acc) f)
    (funext fun k => congrArg z (lift_row hred r k))

/-- A row's sum, kept as a column and broadcast back, at `(r, c)`. -/
theorem sum_keep_apply (z : FVec Ideal (⟨2, ![R, C]⟩ : Shape) .f32) (acc : BitVec 32)
    (hred : (⟨2, ![R, C]⟩ : Shape).Reduces [1] ⟨1, ![R]⟩) (hφ : FKind.Formats .f32)
    (hacc : acc = FKind.add.neutral .f32 hφ)
    (hc : (⟨1, ![R]⟩ : Shape).ShapeCasts ⟨2, ![R, 1]⟩) (hb : (⟨2, ![R, 1]⟩ : Shape).Broadcasts ⟨2, ![R, C]⟩)
    (r : Fin R) (c : Fin C) :
    broadcastTo ⟨2, ![R, C]⟩ (shapeCast ⟨2, ![R, 1]⟩ (multiReduction .add [1] ⟨1, ![R]⟩ z acc hred hφ hacc) hc) hb (ix2 r c)
      = ∑ k : Fin C, z (ix2 r k) := by
  rw [Cert.ColumnLayout.broadcastTo_a1_ab_apply, Cert.ColumnLayout.shapeCast_a_a1_apply]
  refine (Ideal.multiReduction_add_single z acc hred hφ hacc (ix1 r)).trans ?_
  exact Finset.sum_congr rfl fun k _ => congrArg z (lift_row hred r k)

end Cert.Lib.RowReduce

end
-- ==== Proof.LibRowNorm.lean ====
/-
  A row's Euclidean normalisation as the kernel computes it, read at an index, over the extended reals and for any
  extents: square, sum each row (the reduction's zero start adds nothing), stand the sums up as a column, take the
  square root, take the larger of it and the floor word, spread the column back over the row, and divide.
  At (r, c) this is y(r, c) / max( sqrt( Σ_j y(r, j)² ), floor ): the specification's `normed`.
-/
import Idealize.ShloMosaic.Lib.ValueLayout
import Idealize.ShloMosaic.PureOps.Ideal.Laws
import proofs.«115229_j70806830842640_2_alg».proof.Proof.LibRowReduce
import proofs.«115229_j70806830842640_2_alg».proof.Proof.Spec

noncomputable section

open scoped BigOperators

namespace Cert.Lib.RowNorm

open Idealize.ShloMosaic Idealize.ShloMosaic.ValueIdx Cert.BiInteraction

variable {R C : ℕ}

/-- y / max( sqrt( rowsum(y ∗ y) ), floor ), the row sums kept as a column and spread back. -/
def normK (y : FVec Ideal ⟨2, ![R, C]⟩ .f32) (hred : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩) :
    FVec Ideal ⟨2, ![R, C]⟩ .f32 :=
  divf y
    (broadcastTo ⟨2, ![R, C]⟩
      (maximumf
        (sqrt (shapeCast ⟨2, ![R, 1]⟩ (multiReduction .add [1] ⟨1, ![R]⟩ (mulf y y) 0x00000000#32 hred (.inl rfl) rfl) hc))
        (broadcast ⟨2, ![R, 1]⟩ (Scalar.ofBits .f32 0x2B8CBCCC#32))) hb)

/-- It is the specification's normalisation. -/
theorem normK_eq (y : FVec Ideal ⟨2, ![R, C]⟩ .f32) (hred : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩) :
    normK y hred hc hb = normed y := by
  funext i
  obtain ⟨r, q, rfl⟩ : ∃ (r : Fin R) (q : Fin C), i = ix2 r q := ⟨i 0, i 1, eq_ix2 i⟩
  show Ideal.div (y (ix2 r q))
      (broadcastTo ⟨2, ![R, C]⟩
        (maximumf
          (sqrt (shapeCast ⟨2, ![R, 1]⟩ (multiReduction .add [1] ⟨1, ![R]⟩ (mulf y y) 0x00000000#32 hred (.inl rfl) rfl) hc))
          (broadcast ⟨2, ![R, 1]⟩ (Scalar.ofBits .f32 0x2B8CBCCC#32))) hb (ix2 r q))
    = Ideal.div (y (ix2 r q)) (max (Ideal.sqrt (∑ j : Fin C, y (ix2 r j) * y (ix2 r j))) (Ideal.ofBits .f32 0x2B8CBCCC#32))
  rw [Cert.ColumnLayout.broadcastTo_a1_ab_apply]
  show Ideal.div (y (ix2 r q))
      (max (Ideal.sqrt (shapeCast ⟨2, ![R, 1]⟩ (multiReduction .add [1] ⟨1, ![R]⟩ (mulf y y) 0x00000000#32 hred (.inl rfl) rfl) hc
        (ix2 r (0 : Fin 1)))) (Ideal.ofBits .f32 0x2B8CBCCC#32))
    = _
  rw [Cert.ColumnLayout.shapeCast_a_a1_apply]
  refine congrArg (fun t => Ideal.div (y (ix2 r q)) (max (Ideal.sqrt t) (Ideal.ofBits .f32 0x2B8CBCCC#32))) ?_
  refine (Ideal.multiReduction_add_single (mulf y y) 0x00000000#32 hred (.inl rfl) rfl (ix1 r)).trans ?_
  exact Finset.sum_congr rfl fun k _ => congrArg (mulf y y) (Cert.Lib.RowReduce.lift_row hred r k)

end Cert.Lib.RowNorm

end
-- ==== Proof.Payload0.lean ====
/-
  The first layer's two stored values are the specification's layer (64 → 64) and its row normalisation, on the
  block of 5000 rows the body holds: the body's weight is the block-diagonal [[w1, 0], [0, w2]] and its bias the
  joined [b1 | b2], so the generic reading of the block-diagonal product applies at these extents.
-/
import proofs.«115229_j70806830842640_2_alg».proof.Proof.Gen.KernelIdeal.Skeleton
import proofs.«115229_j70806830842640_2_alg».proof.Proof.HostTerms
import proofs.«115229_j70806830842640_2_alg».proof.Proof.LibBlockDiag
import proofs.«115229_j70806830842640_2_alg».proof.Proof.LibRowNorm

noncomputable section

namespace Cert.KernelIdeal.Payload

open Idealize.ShloMosaic Idealize.ShloMosaic.ValueIdx Cert.KernelIdeal
  Cert.KernelIdeal.Gen Cert.KernelIdeal.HostTerms Cert.BiInteraction Cert.Lib.BlockDiag Cert.Lib.RowNorm

variable [Cert.KernelIdeal.Facts]

/-- The first layer's product contracts the left operand's columns with the right operand's rows. -/
theorem reads0 : Cert.Lib.PlainDot.Reads (R := 5000) (K := 128) (C := 128) dot_S5000x128_S128x128_S5000x128_1_0_0_1_n_n :=
  ⟨rfl, rfl, fun _ _ => rfl, fun _ _ => rfl, fun _ _ => rfl, fun _ _ => rfl⟩

/-- The first layer's weight reads as [[w1, 0], [0, w2]]. -/
theorem wcat0_blockDiag (w1 w2 : Vec Ideal S64x64 .f32) :
    IsBlockDiag (D := 64) (D' := 64) (K := 128) (C := 128) (wcat0 (F := Ideal) w1 w2) w1 w2 :=
  isBlockDiag_join (D := 64) (D' := 64) (K := 128) (C := 128) rfl rfl w1 w2 _ _ (zeros_apply _ _) (zeros_apply _ _)
    concatenates_S64x64_S64x64_S64x128_d1 concatenates_S64x128_S64x128_S128x128_d0

/-- The first layer's bias reads as [b1 | b2]. -/
theorem bcat0_joined (b1 b2 : Vec Ideal S64 .f32) : IsJoined (D' := 64) (C := 128) (bcat0 (F := Ideal) b1 b2) b1 b2 :=
  isJoined_join (D' := 64) (C := 128) b1 b2 concatenates_S64_S64_S128_d0

theorem pay0_ego (x0 x1 : Vec Ideal S5000x64 .f32) (w1 w2 : Vec Ideal S64x64 .f32) (b1 b2 : Vec Ideal S64 .f32) :
    k0_pay1 (F := Ideal) x0 x1 (wcat0 w1 w2) (bcat0 b1 b2) = egoNew (N := 5000) (D := 64) (D' := 64) x0 x1 w1 b1 w2 b2 := by
  have hx1 : shapeCast S5000x64 x1 shapeCasts_S5000x64_S5000x64 = x1 := shapeCast_self _ _
  have hW : shapeCast S128x128 (wcat0 (F := Ideal) w1 w2) shapeCasts_S128x128_S128x128 = wcat0 w1 w2 := shapeCast_self _ _
  have hB : shapeCast S128 (bcat0 (F := Ideal) b1 b2) shapeCasts_S128_S128 = bcat0 b1 b2 := shapeCast_self _ _
  unfold k0_pay1
  rw [hx1, hW, hB]
  exact egoK_eq (R := 5000) (D := 64) (D' := 64) (K := 128) (C := 128) rfl rfl (wcat0 w1 w2) (bcat0 b1 b2) w1 w2 b1 b2
    (wcat0_blockDiag w1 w2) (bcat0_joined b1 b2) concatenates_S5000x64_S5000x64_S5000x128_d1 bitsLt_bf16_f32
    dot_S5000x128_S128x128_S5000x128_1_0_0_1_n_n reads0 shapeCasts_S128_S1x128 broadcasts_S1x128_S5000x128 x0 x1
    slices_S5000x128_o0_0_S5000x64 slices_S5000x128_o0_64_S5000x64

theorem pay0_norm (x0 x1 : Vec Ideal S5000x64 .f32) (w1 w2 : Vec Ideal S64x64 .f32) (b1 b2 : Vec Ideal S64 .f32) :
    k0_pay2 (F := Ideal) x0 x1 (wcat0 w1 w2) (bcat0 b1 b2)
      = normed (N := 5000) (D := 64) (egoNew (N := 5000) (D := 64) (D' := 64) x0 x1 w1 b1 w2 b2) := by
  unfold k0_pay2
  rw [pay0_ego]
  exact normK_eq (R := 5000) (C := 64) _ reduces_S5000x64_S5000 shapeCasts_S5000_S5000x1 broadcasts_S5000x1_S5000x64

end Cert.KernelIdeal.Payload

end
-- ==== Proof.Payload1.lean ====
/-
  The second layer's two values are the specification's layer (64 → 32) and its row normalisation, on the block of
  5000 rows the body holds: the same reading of the block-diagonal product, at these extents.
-/
import proofs.«115229_j70806830842640_2_alg».proof.Proof.Gen.KernelIdeal.Skeleton
import proofs.«115229_j70806830842640_2_alg».proof.Proof.HostTerms
import proofs.«115229_j70806830842640_2_alg».proof.Proof.LibBlockDiag
import proofs.«115229_j70806830842640_2_alg».proof.Proof.LibRowNorm

noncomputable section

namespace Cert.KernelIdeal.Payload

open Idealize.ShloMosaic Idealize.ShloMosaic.ValueIdx Cert.KernelIdeal
  Cert.KernelIdeal.Gen Cert.KernelIdeal.HostTerms Cert.BiInteraction Cert.Lib.BlockDiag Cert.Lib.RowNorm

variable [Cert.KernelIdeal.Facts]

/-- The second layer's product contracts the left operand's columns with the right operand's rows. -/
theorem reads1 : Cert.Lib.PlainDot.Reads (R := 5000) (K := 128) (C := 64) dot_S5000x128_S128x64_S5000x64_1_0_0_1_n_n :=
  ⟨rfl, rfl, fun _ _ => rfl, fun _ _ => rfl, fun _ _ => rfl, fun _ _ => rfl⟩

/-- The second layer's weight reads as [[w1, 0], [0, w2]]. -/
theorem wcat1_blockDiag (w1 w2 : Vec Ideal S64x32 .f32) :
    IsBlockDiag (D := 64) (D' := 32) (K := 128) (C := 64) (wcat1 (F := Ideal) w1 w2) w1 w2 :=
  isBlockDiag_join (D := 64) (D' := 32) (K := 128) (C := 64) rfl rfl w1 w2 _ _ (zeros_apply _ _) (zeros_apply _ _)
    concatenates_S64x32_S64x32_S64x64_d1 concatenates_S64x64_S64x64_S128x64_d0

/-- The second layer's bias reads as [b1 | b2]. -/
theorem bcat1_joined (b1 b2 : Vec Ideal S32 .f32) : IsJoined (D' := 32) (C := 64) (bcat1 (F := Ideal) b1 b2) b1 b2 :=
  isJoined_join (D' := 32) (C := 64) b1 b2 concatenates_S32_S32_S64_d0

theorem pay1_ego (x0 x1 : Vec Ideal S5000x64 .f32) (w1 w2 : Vec Ideal S64x32 .f32) (b1 b2 : Vec Ideal S32 .f32) :
    k1_pay1 (F := Ideal) x0 x1 (wcat1 w1 w2) (bcat1 b1 b2) = egoNew (N := 5000) (D := 64) (D' := 32) x0 x1 w1 b1 w2 b2 := by
  have hx0 : shapeCast S5000x64 x0 shapeCasts_S5000x64_S5000x64 = x0 := shapeCast_self _ _
  have hx1 : shapeCast S5000x64 x1 shapeCasts_S5000x64_S5000x64 = x1 := shapeCast_self _ _
  have hW : shapeCast S128x64 (wcat1 (F := Ideal) w1 w2) shapeCasts_S128x64_S128x64 = wcat1 w1 w2 := shapeCast_self _ _
  have hB : shapeCast S64 (bcat1 (F := Ideal) b1 b2) shapeCasts_S64_S64 = bcat1 b1 b2 := shapeCast_self _ _
  unfold k1_pay1
  rw [hx0, hx1, hW, hB]
  exact egoK_eq (R := 5000) (D := 64) (D' := 32) (K := 128) (C := 64) rfl rfl (wcat1 w1 w2) (bcat1 b1 b2) w1 w2 b1 b2
    (wcat1_blockDiag w1 w2) (bcat1_joined b1 b2) concatenates_S5000x64_S5000x64_S5000x128_d1 bitsLt_bf16_f32
    dot_S5000x128_S128x64_S5000x64_1_0_0_1_n_n reads1 shapeCasts_S64_S1x64 broadcasts_S1x64_S5000x64 x0 x1
    slices_S5000x64_o0_0_S5000x32 slices_S5000x64_o0_32_S5000x32

theorem pay1_norm (x0 x1 : Vec Ideal S5000x64 .f32) (w1 w2 : Vec Ideal S64x32 .f32) (b1 b2 : Vec Ideal S32 .f32) :
    k1_pay2 (F := Ideal) x0 x1 (wcat1 w1 w2) (bcat1 b1 b2)
      = normed (N := 5000) (D := 32) (egoNew (N := 5000) (D := 64) (D' := 32) x0 x1 w1 b1 w2 b2) := by
  unfold k1_pay2
  rw [pay1_ego]
  exact normK_eq (R := 5000) (C := 32) _ reduces_S5000x32_S5000 shapeCasts_S5000_S5000x1 broadcasts_S5000x1_S5000x32

end Cert.KernelIdeal.Payload

end
-- ==== Proof.Payload2.lean ====
/-
  The third layer's stored value is the row normalisation of the specification's layer (32 → 16), on the block of
  5000 rows the body holds: the body computes the layer and normalises it in one term, so the two generic readings
  compose.
-/
import proofs.«115229_j70806830842640_2_alg».proof.Proof.Gen.KernelIdeal.Skeleton
import proofs.«115229_j70806830842640_2_alg».proof.Proof.HostTerms
import proofs.«115229_j70806830842640_2_alg».proof.Proof.LibBlockDiag
import proofs.«115229_j70806830842640_2_alg».proof.Proof.LibRowNorm

noncomputable section

namespace Cert.KernelIdeal.Payload

open Idealize.ShloMosaic Idealize.ShloMosaic.ValueIdx Cert.KernelIdeal
  Cert.KernelIdeal.Gen Cert.KernelIdeal.HostTerms Cert.BiInteraction Cert.Lib.BlockDiag Cert.Lib.RowNorm

variable [Cert.KernelIdeal.Facts]

/-- The third layer's product contracts the left operand's columns with the right operand's rows. -/
theorem reads2 : Cert.Lib.PlainDot.Reads (R := 5000) (K := 64) (C := 32) dot_S5000x64_S64x32_S5000x32_1_0_0_1_n_n :=
  ⟨rfl, rfl, fun _ _ => rfl, fun _ _ => rfl, fun _ _ => rfl, fun _ _ => rfl⟩

/-- The third layer's weight reads as [[w1, 0], [0, w2]]. -/
theorem wcat2_blockDiag (w1 w2 : Vec Ideal S32x16 .f32) :
    IsBlockDiag (D := 32) (D' := 16) (K := 64) (C := 32) (wcat2 (F := Ideal) w1 w2) w1 w2 :=
  isBlockDiag_join (D := 32) (D' := 16) (K := 64) (C := 32) rfl rfl w1 w2 _ _ (zeros_apply _ _) (zeros_apply _ _)
    concatenates_S32x16_S32x16_S32x32_d1 concatenates_S32x32_S32x32_S64x32_d0

/-- The third layer's bias reads as [b1 | b2]. -/
theorem bcat2_joined (b1 b2 : Vec Ideal S16 .f32) : IsJoined (D' := 16) (C := 32) (bcat2 (F := Ideal) b1 b2) b1 b2 :=
  isJoined_join (D' := 16) (C := 32) b1 b2 concatenates_S16_S16_S32_d0

theorem pay2_norm (x0 x1 : Vec Ideal S5000x32 .f32) (w1 w2 : Vec Ideal S32x16 .f32) (b1 b2 : Vec Ideal S16 .f32) :
    k2_pay1 (F := Ideal) x0 x1 (wcat2 w1 w2) (bcat2 b1 b2)
      = normed (N := 5000) (D := 16) (egoNew (N := 5000) (D := 32) (D' := 16) x0 x1 w1 b1 w2 b2) := by
  have hx0 : shapeCast S5000x32 x0 shapeCasts_S5000x32_S5000x32 = x0 := shapeCast_self _ _
  have hx1 : shapeCast S5000x32 x1 shapeCasts_S5000x32_S5000x32 = x1 := shapeCast_self _ _
  have hW : shapeCast S64x32 (wcat2 (F := Ideal) w1 w2) shapeCasts_S64x32_S64x32 = wcat2 w1 w2 := shapeCast_self _ _
  have hB : shapeCast S32 (bcat2 (F := Ideal) b1 b2) shapeCasts_S32_S32 = bcat2 b1 b2 := shapeCast_self _ _
  have hego := egoK_eq (R := 5000) (D := 32) (D' := 16) (K := 64) (C := 32) rfl rfl (wcat2 w1 w2) (bcat2 b1 b2) w1 w2 b1 b2
    (wcat2_blockDiag w1 w2) (bcat2_joined b1 b2) concatenates_S5000x32_S5000x32_S5000x64_d1 bitsLt_bf16_f32
    dot_S5000x64_S64x32_S5000x32_1_0_0_1_n_n reads2 shapeCasts_S32_S1x32 broadcasts_S1x32_S5000x32 x0 x1
    slices_S5000x32_o0_0_S5000x16 slices_S5000x32_o0_16_S5000x16
  unfold k2_pay1
  rw [hx0, hx1, hW, hB]
  refine (normK_eq (R := 5000) (C := 16)
    (egoK (R := 5000) (D := 32) (D' := 16) (K := 64) (C := 32) (wcat2 w1 w2) (bcat2 b1 b2)
      concatenates_S5000x32_S5000x32_S5000x64_d1 bitsLt_bf16_f32 dot_S5000x64_S64x32_S5000x32_1_0_0_1_n_n
      shapeCasts_S32_S1x32 broadcasts_S1x32_S5000x32 x0 x1 slices_S5000x32_o0_0_S5000x16 slices_S5000x32_o0_16_S5000x16)
    reduces_S5000x16_S5000 shapeCasts_S5000_S5000x1 broadcasts_S5000x1_S5000x16).trans ?_
  rw [hego]

end Cert.KernelIdeal.Payload

end
-- ==== Proof.KernelIdealResult.lean ====
/-
  The kernel program's result, at the ideal instance, read back through the fold of boundary contents: the last
  boundary at the result buffer is the join of the input embeddings with the three regions' normalised outputs; each
  region's outputs are its blocks-to-array theorem at the contents its host stretch prepared (the aggregation of the
  previous embeddings, the block-diagonal weight, the joined bias) with the body's value on a block (the payload
  theorems); a buffer nobody writes in between is carried along unchanged. One theorem at the end: every weakly fair
  execution terminates with the result buffer at KernelTarget.lean's function of the arguments and the arguments
  unchanged.
-/
import proofs.«115229_j70806830842640_2_alg».proof.Proof.KernelIdealRun
import proofs.«115229_j70806830842640_2_alg».proof.Proof.KernelIdealHostRead
import proofs.«115229_j70806830842640_2_alg».proof.Proof.KernelIdealLayer0
import proofs.«115229_j70806830842640_2_alg».proof.Proof.KernelIdealLayer1
import proofs.«115229_j70806830842640_2_alg».proof.Proof.KernelIdealLayer2
import proofs.«115229_j70806830842640_2_alg».proof.Proof.KernelTarget
import proofs.«115229_j70806830842640_2_alg».proof.Proof.Payload0
import proofs.«115229_j70806830842640_2_alg».proof.Proof.Payload1
import proofs.«115229_j70806830842640_2_alg».proof.Proof.Payload2

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Frame Cert.KernelIdeal.HostTerms Cert.KernelIdeal.HostRead
  Cert.KernelIdeal.Layers Cert.KernelIdeal.Payload Cert.BiInteraction

variable (m : (ℓ : Loc nD τ sig) → Buf (Elt Ideal) ℓ) (ρ : Dev nD → PrngReg)

/-! ## Buffers carried through the fold -/

/-- A buffer no host operation before the last launch writes and no region has among its arrays holds its launch
    contents at every boundary up to the last launch's exit. -/
theorem carried (c : Dev nD) (b : Ref sig .tc) (h0 : b ∉ hostOps0_W) (h1 : b ∉ hostOps1_W) (h2 : b ∉ hostOps2_W)
    (n0 : ∀ w, Pipeline.arrRef spec0 w ≠ b) (n1 : ∀ w, Pipeline.arrRef spec1 w ≠ b) (n2 : ∀ w, Pipeline.arrRef spec2 w ≠ b) :
    W2 m ρ c (Proc.devRef .tc b) = m ((c : Thread nD τ).loc b) ∧ W4 m ρ c (Proc.devRef .tc b) = m ((c : Thread nD τ).loc b)
    ∧ W6 m ρ c (Proc.devRef .tc b) = m ((c : Thread nD τ).loc b) := by
  have e1 : W1 m ρ c (Proc.devRef .tc b) = m ((c : Thread nD τ).loc b) :=
    (StableHlo.after_of_writes_sub hostOps0 _ hostOps0_writes h0).trans rfl
  have e2 : W2 m ρ c (Proc.devRef .tc b) = m ((c : Thread nD τ).loc b) := (W2_of_ne m ρ c b n0).trans e1
  have e3 : W3 m ρ c (Proc.devRef .tc b) = m ((c : Thread nD τ).loc b) :=
    (StableHlo.after_of_writes_sub hostOps1 _ hostOps1_writes h1).trans e2
  have e4 : W4 m ρ c (Proc.devRef .tc b) = m ((c : Thread nD τ).loc b) := (W4_of_ne m ρ c b n1).trans e3
  have e5 : W5 m ρ c (Proc.devRef .tc b) = m ((c : Thread nD τ).loc b) :=
    (StableHlo.after_of_writes_sub hostOps2 _ hostOps2_writes h2).trans e4
  exact ⟨e2, e4, (W6_of_ne m ρ c b n2).trans e5⟩

/-- The input embeddings when region 0 is entered and at the last launch's exit: region 0 only reads them. -/
theorem carried_arg0 (c : Dev nD) :
    W1 m ρ c (Proc.devRef .tc main_arg0) = m ((c : Thread nD τ).loc main_arg0) ∧ W6 m ρ c (Proc.devRef .tc main_arg0) = m ((c : Thread nD τ).loc main_arg0) := by
  have e1 : W1 m ρ c (Proc.devRef .tc main_arg0) = m ((c : Thread nD τ).loc main_arg0) :=
    (StableHlo.after_of_writes_sub hostOps0 _ hostOps0_writes (by decide)).trans rfl
  have e2 : W2 m ρ c (Proc.devRef .tc main_arg0) = m ((c : Thread nD τ).loc main_arg0) :=
    ((W2_arr m ρ c 0).trans (((dat0 (X1 m ρ) c).arrAt_in 0 rfl _).trans (A_eq0 (X1 m ρ) c 0))).trans e1
  have e3 := (StableHlo.after_of_writes_sub hostOps1 (W2 m ρ c) hostOps1_writes (r := main_arg0) (by decide)).trans e2
  have e4 := (W4_of_ne m ρ c main_arg0 (by decide)).trans e3
  have e5 := (StableHlo.after_of_writes_sub hostOps2 (W4 m ρ c) hostOps2_writes (r := main_arg0) (by decide)).trans e4
  exact ⟨e1, (W6_of_ne m ρ c main_arg0 (by decide)).trans e5⟩

/-! ## Region 0 -/

/-- Region 0's operands as it finds them. -/
theorem ent0 (c : Dev nD) :
    rdE0 (X1 m ρ) c = (m ((c : Thread nD τ).loc main_arg0)) ∧ rdS0 (X1 m ρ) c = agg64 (m ((c : Thread nD τ).loc main_arg0)) (m ((c : Thread nD τ).loc main_arg1)) (m ((c : Thread nD τ).loc main_arg14)) (m ((c : Thread nD τ).loc main_arg15))
    ∧ rdW0 (X1 m ρ) c = wcat0 (m ((c : Thread nD τ).loc main_arg2)) (m ((c : Thread nD τ).loc main_arg4)) ∧ rdB0 (X1 m ρ) c = bcat0 (m ((c : Thread nD τ).loc main_arg3)) (m ((c : Thread nD τ).loc main_arg5)) :=
  ⟨(carried_arg0 m ρ c).1, s0_agg (W0 m ρ c), s0_w (W0 m ρ c), s0_b (W0 m ρ c)⟩

/-- After region 0: the new embeddings and their normalised copy. -/
theorem out0 (c : Dev nD) :
    (W2 m ρ c (Proc.devRef .tc main_v21_0) : FArr (F := Ideal) S170000x64) = (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)))
    ∧ (W2 m ρ c (Proc.devRef .tc main_v21_1) : FArr (F := Ideal) S170000x64) = normed (N := 170000) (D := 64) (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) := by
  obtain ⟨hE, hS, hW, hB⟩ := ent0 m ρ c
  refine ⟨(W2_arr m ρ c 4).trans ((final0_4 (X1 m ρ) c _ _ _ _ hW hB (pay0_ego · · _ _ _ _)).trans ?_),
    (W2_arr m ρ c 5).trans ((final0_5 (X1 m ρ) c _ _ _ _ hW hB (pay0_norm · · _ _ _ _)).trans ?_)⟩
  · rw [hE, hS]; rfl
  · rw [hE, hS]; rfl

/-! ## Region 1 -/

/-- Region 1's operands as it finds them. -/
theorem ent1 (c : Dev nD) :
    rdE1 (X3 m ρ) c = (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) ∧ rdS1 (X3 m ρ) c = agg64 (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) (m ((c : Thread nD τ).loc main_arg1)) (m ((c : Thread nD τ).loc main_arg14)) (m ((c : Thread nD τ).loc main_arg15))
    ∧ rdW1 (X3 m ρ) c = wcat1 (m ((c : Thread nD τ).loc main_arg6)) (m ((c : Thread nD τ).loc main_arg8)) ∧ rdB1 (X3 m ρ) c = bcat1 (m ((c : Thread nD τ).loc main_arg7)) (m ((c : Thread nD τ).loc main_arg9)) := by
  have hE2 := (out0 m ρ c).1
  have hE : rdE1 (X3 m ρ) c = (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) :=
    (StableHlo.after_of_writes_sub hostOps1 (W2 m ρ c) hostOps1_writes (r := main_v21_0) (by decide)).trans hE2
  have k1 := (carried m ρ c main_arg1 (by decide) (by decide) (by decide) (by decide) (by decide) (by decide)).1
  have k14 := (carried m ρ c main_arg14 (by decide) (by decide) (by decide) (by decide) (by decide) (by decide)).1
  have k15 := (carried m ρ c main_arg15 (by decide) (by decide) (by decide) (by decide) (by decide) (by decide)).1
  have k6 := (carried m ρ c main_arg6 (by decide) (by decide) (by decide) (by decide) (by decide) (by decide)).1
  have k7 := (carried m ρ c main_arg7 (by decide) (by decide) (by decide) (by decide) (by decide) (by decide)).1
  have k8 := (carried m ρ c main_arg8 (by decide) (by decide) (by decide) (by decide) (by decide) (by decide)).1
  have k9 := (carried m ρ c main_arg9 (by decide) (by decide) (by decide) (by decide) (by decide) (by decide)).1
  refine ⟨hE, (s1_agg (W2 m ρ c)).trans ?_, (s1_w (W2 m ρ c)).trans ?_, (s1_b (W2 m ρ c)).trans ?_⟩
  · rw [k1, k14, k15]; exact congrArg (fun e => agg64 e _ _ _) hE2
  · rw [k6, k8]
  · rw [k7, k9]

/-- After region 1. -/
theorem out1 (c : Dev nD) :
    (W4 m ρ c (Proc.devRef .tc main_v43_0) : FArr (F := Ideal) S170000x32) = (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)))
    ∧ (W4 m ρ c (Proc.devRef .tc main_v43_1) : FArr (F := Ideal) S170000x32) = normed (N := 170000) (D := 32) (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))) := by
  obtain ⟨hE, hS, hW, hB⟩ := ent1 m ρ c
  refine ⟨(W4_arr m ρ c 4).trans ((final1_4 (X3 m ρ) c _ _ _ _ hW hB (pay1_ego · · _ _ _ _)).trans ?_),
    (W4_arr m ρ c 5).trans ((final1_5 (X3 m ρ) c _ _ _ _ hW hB (pay1_norm · · _ _ _ _)).trans ?_)⟩
  · rw [hE, hS]; rfl
  · rw [hE, hS]; rfl

/-! ## Region 2 -/

/-- Region 2's operands as it finds them. -/
theorem ent2 (c : Dev nD) :
    rdE2 (X5 m ρ) c = (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))) ∧ rdS2 (X5 m ρ) c = agg32 (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))) (m ((c : Thread nD τ).loc main_arg1)) (m ((c : Thread nD τ).loc main_arg14)) (m ((c : Thread nD τ).loc main_arg15))
    ∧ rdW2 (X5 m ρ) c = wcat2 (m ((c : Thread nD τ).loc main_arg10)) (m ((c : Thread nD τ).loc main_arg12)) ∧ rdB2 (X5 m ρ) c = bcat2 (m ((c : Thread nD τ).loc main_arg11)) (m ((c : Thread nD τ).loc main_arg13)) := by
  have hE4 := (out1 m ρ c).1
  have hE : rdE2 (X5 m ρ) c = (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))) :=
    (StableHlo.after_of_writes_sub hostOps2 (W4 m ρ c) hostOps2_writes (r := main_v43_0) (by decide)).trans hE4
  have k1 := (carried m ρ c main_arg1 (by decide) (by decide) (by decide) (by decide) (by decide) (by decide)).2.1
  have k14 := (carried m ρ c main_arg14 (by decide) (by decide) (by decide) (by decide) (by decide) (by decide)).2.1
  have k15 := (carried m ρ c main_arg15 (by decide) (by decide) (by decide) (by decide) (by decide) (by decide)).2.1
  have k10 := (carried m ρ c main_arg10 (by decide) (by decide) (by decide) (by decide) (by decide) (by decide)).2.1
  have k11 := (carried m ρ c main_arg11 (by decide) (by decide) (by decide) (by decide) (by decide) (by decide)).2.1
  have k12 := (carried m ρ c main_arg12 (by decide) (by decide) (by decide) (by decide) (by decide) (by decide)).2.1
  have k13 := (carried m ρ c main_arg13 (by decide) (by decide) (by decide) (by decide) (by decide) (by decide)).2.1
  refine ⟨hE, (s2_agg (W4 m ρ c)).trans ?_, (s2_w (W4 m ρ c)).trans ?_, (s2_b (W4 m ρ c)).trans ?_⟩
  · rw [k1, k14, k15]; exact congrArg (fun e => agg32 e _ _ _) hE4
  · rw [k10, k12]
  · rw [k11, k13]

/-- After region 2. -/
theorem out2 (c : Dev nD) :
    (W6 m ρ c (Proc.devRef .tc main_v65) : FArr (F := Ideal) S170000x16) = normed (N := 170000) (D := 16) (ke3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  obtain ⟨hE, hS, hW, hB⟩ := ent2 m ρ c
  refine (W6_arr m ρ c 4).trans ((final2_4 (X5 m ρ) c _ _ _ _ hW hB (pay2_norm · · _ _ _ _)).trans ?_)
  rw [hE, hS]; rfl

/-! ## The result -/

/-- The last boundary's contents at the result buffer: the function of the arguments. -/
theorem result (c : Dev nD) :
    (W7 m ρ c (Proc.devRef .tc main_v66) : FArr (F := Ideal) S170000x176) = KG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h0 := (carried_arg0 m ρ c).2
  -- the first layer's normalised embeddings are carried from region 0's exit to the last launch's exit
  have h1 : (W6 m ρ c (Proc.devRef .tc main_v21_1) : FArr (F := Ideal) S170000x64) = normed (N := 170000) (D := 64) (ke1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) :=
    (W6_of_ne m ρ c main_v21_1 (by decide)).trans <|
    (StableHlo.after_of_writes_sub hostOps2 (W4 m ρ c) hostOps2_writes (r := main_v21_1) (by decide)).trans <|
    (W4_of_ne m ρ c main_v21_1 (by decide)).trans <|
    (StableHlo.after_of_writes_sub hostOps1 (W2 m ρ c) hostOps1_writes (r := main_v21_1) (by decide)).trans (out0 m ρ c).2
  -- the second layer's from region 1's exit
  have h2 : (W6 m ρ c (Proc.devRef .tc main_v43_1) : FArr (F := Ideal) S170000x32) = normed (N := 170000) (D := 32) (ke2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))) :=
    (W6_of_ne m ρ c main_v43_1 (by decide)).trans <|
    (StableHlo.after_of_writes_sub hostOps2 (W4 m ρ c) hostOps2_writes (r := main_v43_1) (by decide)).trans (out1 m ρ c).2
  have h3 := out2 m ρ c
  refine (s3_out (W6 m ρ c)).trans ?_
  unfold KG
  rw [h0, h1, h2, h3]

/-- THE KERNEL PROGRAM'S RUN, read: every weakly fair execution terminates, nothing faulting, with the result buffer
    at the function of the arguments and every argument unchanged. -/
theorem kernel_run : θ_run defs (onTc (τ := τ) (main (F := Ideal))) ⟨m, fun _ => 0, ρ⟩ (fun r => ∀ c : Dev nD,
      r.2.mem ((c.tc : Thread nD τ).loc main_v66) = KG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v66 (by decide))).trans (result m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (run m ρ)

end Cert.KernelIdeal.Result

end
-- ==== Proof.Target.lean ====
/-
  The result both programs are shown to compute, as ONE function of the sixteen argument arrays.

  Aggregation over the edges (agg64 / agg32): with the column word of an edge wrapped (a negative word has the row
  count 170000 added), the edge's value times the embedding row the wrapped column names is added into the row the
  edge's row word names, from an all-zero table: the sparse matrix A times the embeddings, as the host's gather,
  product and accumulating scatter.

  Three layers: e1 = new(e0, A e0), e2 = new(e1, A e1), e3 = new(e2, A e2) with e0 the input embeddings and
  `new` the bi-interaction layer (Spec.lean); the result is [e0 | normed e1 | normed e2 | normed e3] joined
  along the feature axis.
-/
import proofs.«115229_j70806830842640_2_alg».proof.ReferenceIdeal
import proofs.«115229_j70806830842640_2_alg».proof.Proof.Spec

noncomputable section

namespace Cert.Target

open Idealize.ShloMosaic Cert.ReferenceIdeal Cert.ReferenceIdeal.Facts₀ Cert.ReferenceIdeal.Facts Cert.BiInteraction

variable [Cert.ReferenceIdeal.Facts]

/-- An array of extended reals / of 32-bit words of a named shape. -/
abbrev FArr (s : Shape) : Type := (⟨s, .f32⟩ : BufTy).Contents (Elt Ideal)
abbrev WArr (s : Shape) : Type := (⟨s, .i32⟩ : BufTy).Contents (Elt Ideal)

/-- The column words as a column of start indices, a negative word wrapped by the row count. -/
def wrapped (cols : WArr S2720000) : WArr S2720000x1 :=
  broadcastInDim S2720000x1 ![0] bcast_S2720000_S2720000x1_0
    (select (cmpi .slt cols (broadcastInDim S2720000 ![] bcast_S_S2720000 (constantI S_ 32 0#32)))
      (addi cols (broadcastInDim S2720000 ![] bcast_S_S2720000 (constantI S_ 32 170000#32))) cols)

/-- A · ego for 64 feature columns. -/
def agg64 (ego : FArr S170000x64) (vals : FArr S2720000) (rows cols : WArr S2720000) : FArr S170000x64 :=
  Host.scatterAdd scatter_S170000x64_S2720000x1_S2720000x64_1_0_0_1
    (broadcastInDim S170000x64 ![] bcast_S_S170000x64 (constant (F := Ideal) S_ .f32 0x00000000#32))
    (broadcastInDim S2720000x1 ![0] bcast_S2720000_S2720000x1_0 rows)
    (mulf (broadcastInDim S2720000x64 ![0, 1] bcast_S2720000x1_S2720000x64_0_1
        (broadcastInDim S2720000x1 ![0] bcast_S2720000_S2720000x1_0 vals))
      (Host.gather gather_S170000x64_S2720000x1_S2720000x64_1_0_n_n_0_1_164 ego (wrapped cols)))

/-- A · ego for 32 feature columns. -/
def agg32 (ego : FArr S170000x32) (vals : FArr S2720000) (rows cols : WArr S2720000) : FArr S170000x32 :=
  Host.scatterAdd scatter_S170000x32_S2720000x1_S2720000x32_1_0_0_1
    (broadcastInDim S170000x32 ![] bcast_S_S170000x32 (constant (F := Ideal) S_ .f32 0x00000000#32))
    (broadcastInDim S2720000x1 ![0] bcast_S2720000_S2720000x1_0 rows)
    (mulf (broadcastInDim S2720000x32 ![0, 1] bcast_S2720000x1_S2720000x32_0_1
        (broadcastInDim S2720000x1 ![0] bcast_S2720000_S2720000x1_0 vals))
      (Host.gather gather_S170000x32_S2720000x1_S2720000x32_1_0_n_n_0_1_132 ego (wrapped cols)))

section
variable (a0 : FArr S170000x64) (a1 : FArr S2720000) (a2 : FArr S64x64) (a3 : FArr S64) (a4 : FArr S64x64) (a5 : FArr S64)
  (a6 : FArr S64x32) (a7 : FArr S32) (a8 : FArr S64x32) (a9 : FArr S32) (a10 : FArr S32x16) (a11 : FArr S16)
  (a12 : FArr S32x16) (a13 : FArr S16) (a14 a15 : WArr S2720000)

/-- The embeddings after the first layer. -/
def e1 : FArr S170000x64 := egoNew (N := 170000) (D := 64) (D' := 64) a0 (agg64 a0 a1 a14 a15) a2 a3 a4 a5
/-- The embeddings after the second layer. -/
def e2 : FArr S170000x32 :=
  egoNew (N := 170000) (D := 64) (D' := 32) (e1 a0 a1 a2 a3 a4 a5 a14 a15) (agg64 (e1 a0 a1 a2 a3 a4 a5 a14 a15) a1 a14 a15) a6 a7 a8 a9
/-- The embeddings after the third layer. -/
def e3 : FArr S170000x16 :=
  egoNew (N := 170000) (D := 32) (D' := 16) (e2 a0 a1 a2 a3 a4 a5 a6 a7 a8 a9 a14 a15)
    (agg32 (e2 a0 a1 a2 a3 a4 a5 a6 a7 a8 a9 a14 a15) a1 a14 a15) a10 a11 a12 a13

/-- The result: the input embeddings and the three layers' normalised embeddings side by side. -/
def G : FArr S170000x176 :=
  concatenate S170000x176 1
    [⟨S170000x64, a0⟩,
     ⟨S170000x64, normed (N := 170000) (D := 64) (e1 a0 a1 a2 a3 a4 a5 a14 a15)⟩,
     ⟨S170000x32, normed (N := 170000) (D := 32) (e2 a0 a1 a2 a3 a4 a5 a6 a7 a8 a9 a14 a15)⟩,
     ⟨S170000x16, normed (N := 170000) (D := 16) (e3 a0 a1 a2 a3 a4 a5 a6 a7 a8 a9 a10 a11 a12 a13 a14 a15)⟩]
    concatenates_S170000x64_S170000x64_S170000x32_S170000x16_S170000x176_d1
end

end Cert.Target

end
-- ==== Proof.Bridge.lean ====
/-
  The kernel program's result function IS the reference's (Target.G): at the ideal instance a change of float format
  is the identity, so the aggregation whose gathered rows pass through bf16 and back is the aggregation; and the two
  programs' gather, scatter, broadcast and join records are the same data under two names.
-/
import proofs.«115229_j70806830842640_2_alg».proof.Proof.KernelTarget
import proofs.«115229_j70806830842640_2_alg».proof.Proof.Target

noncomputable section

namespace Cert.Bridge

open Idealize.ShloMosaic Cert.BiInteraction

variable [Cert.KernelIdeal.Facts] [Cert.ReferenceIdeal.Facts]

/-- A · ego, 64 columns: the kernel program's is the reference's. -/
theorem agg64_eq (ego : Cert.Target.FArr Cert.ReferenceIdeal.S170000x64) (vals : Cert.Target.FArr Cert.ReferenceIdeal.S2720000)
    (rows cols : Cert.Target.WArr Cert.ReferenceIdeal.S2720000) :
    Cert.KernelIdeal.HostTerms.agg64 (F := Ideal) ego vals rows cols = Cert.Target.agg64 ego vals rows cols := rfl

/-- A · ego, 32 columns. -/
theorem agg32_eq (ego : Cert.Target.FArr Cert.ReferenceIdeal.S170000x32) (vals : Cert.Target.FArr Cert.ReferenceIdeal.S2720000)
    (rows cols : Cert.Target.WArr Cert.ReferenceIdeal.S2720000) :
    Cert.KernelIdeal.HostTerms.agg32 (F := Ideal) ego vals rows cols = Cert.Target.agg32 ego vals rows cols := rfl

section
variable (a0 : Cert.Target.FArr Cert.ReferenceIdeal.S170000x64) (a1 : Cert.Target.FArr Cert.ReferenceIdeal.S2720000)
  (a2 : Cert.Target.FArr Cert.ReferenceIdeal.S64x64) (a3 : Cert.Target.FArr Cert.ReferenceIdeal.S64)
  (a4 : Cert.Target.FArr Cert.ReferenceIdeal.S64x64) (a5 : Cert.Target.FArr Cert.ReferenceIdeal.S64)
  (a6 : Cert.Target.FArr Cert.ReferenceIdeal.S64x32) (a7 : Cert.Target.FArr Cert.ReferenceIdeal.S32)
  (a8 : Cert.Target.FArr Cert.ReferenceIdeal.S64x32) (a9 : Cert.Target.FArr Cert.ReferenceIdeal.S32)
  (a10 : Cert.Target.FArr Cert.ReferenceIdeal.S32x16) (a11 : Cert.Target.FArr Cert.ReferenceIdeal.S16)
  (a12 : Cert.Target.FArr Cert.ReferenceIdeal.S32x16) (a13 : Cert.Target.FArr Cert.ReferenceIdeal.S16)
  (a14 a15 : Cert.Target.WArr Cert.ReferenceIdeal.S2720000)

theorem e1_eq : Cert.KernelIdeal.Result.ke1 a0 a1 a2 a3 a4 a5 a14 a15 = Cert.Target.e1 a0 a1 a2 a3 a4 a5 a14 a15 := by
  unfold Cert.KernelIdeal.Result.ke1 Cert.Target.e1; rw [agg64_eq]
theorem e2_eq : Cert.KernelIdeal.Result.ke2 a0 a1 a2 a3 a4 a5 a6 a7 a8 a9 a14 a15 = Cert.Target.e2 a0 a1 a2 a3 a4 a5 a6 a7 a8 a9 a14 a15 := by
  unfold Cert.KernelIdeal.Result.ke2 Cert.Target.e2; rw [e1_eq, agg64_eq]
theorem e3_eq : Cert.KernelIdeal.Result.ke3 a0 a1 a2 a3 a4 a5 a6 a7 a8 a9 a10 a11 a12 a13 a14 a15 = Cert.Target.e3 a0 a1 a2 a3 a4 a5 a6 a7 a8 a9 a10 a11 a12 a13 a14 a15 := by
  unfold Cert.KernelIdeal.Result.ke3 Cert.Target.e3; rw [e2_eq, agg32_eq]
/-- The two result functions are one. -/
theorem KG_eq : Cert.KernelIdeal.Result.KG a0 a1 a2 a3 a4 a5 a6 a7 a8 a9 a10 a11 a12 a13 a14 a15 = Cert.Target.G a0 a1 a2 a3 a4 a5 a6 a7 a8 a9 a10 a11 a12 a13 a14 a15 := by
  unfold Cert.KernelIdeal.Result.KG Cert.Target.G; rw [e1_eq, e2_eq, e3_eq]
end

end Cert.Bridge

end
-- ==== Proof.RefAfter1.lean ====
/-
  The first layer's stretch of the reference's host operations (main_v0 … main_v41: the aggregation over the edges of the
  input embeddings, the bi-interaction, the row normalisation) and what it leaves, over an ARBITRARY valuation X of the
  buffers before it: the new embeddings and their normalised form are the stages of ReadP at X's argument arrays, and
  every argument array is as X has it. The stages are the operations' own composition; nothing is opened.
-/
import proofs.«115229_j70806830842640_2_alg».proof.Proof.ReadP

noncomputable section

namespace Cert.ReferenceIdeal.RefAfter1

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The first layer's operations, in order. -/
def layer1 : List (HloOp τ sig (Elt F)) :=
  [ unary main_arg1 main_v0 (broadcastInDim S2720000x1 ![0] bcast_S2720000_S2720000x1_0 : (⟨S2720000, .f32⟩ : BufTy).Contents (Elt F) → (⟨S2720000x1, .f32⟩ : BufTy).Contents (Elt F)),
    nullary main_c (constantI S_ 32 0#32),
    unary main_c main_v1 (broadcastInDim S2720000 ![] bcast_S_S2720000 : (⟨S_, .i32⟩ : BufTy).Contents (Elt F) → (⟨S2720000, .i32⟩ : BufTy).Contents (Elt F)),
    binary main_arg15 main_v1 main_v2 (cmpi .slt : (⟨S2720000, .i32⟩ : BufTy).Contents (Elt F) → (⟨S2720000, .i32⟩ : BufTy).Contents (Elt F) → (⟨S2720000, .i1⟩ : BufTy).Contents (Elt F)),
    nullary main_c_0 (constantI S_ 32 170000#32),
    unary main_c_0 main_v3 (broadcastInDim S2720000 ![] bcast_S_S2720000 : (⟨S_, .i32⟩ : BufTy).Contents (Elt F) → (⟨S2720000, .i32⟩ : BufTy).Contents (Elt F)),
    binary main_arg15 main_v3 main_v4 (addi : (⟨S2720000, .i32⟩ : BufTy).Contents (Elt F) → (⟨S2720000, .i32⟩ : BufTy).Contents (Elt F) → (⟨S2720000, .i32⟩ : BufTy).Contents (Elt F)),
    ternary main_v2 main_v4 main_arg15 main_v5 (select : (⟨S2720000, .i1⟩ : BufTy).Contents (Elt F) → (⟨S2720000, .i32⟩ : BufTy).Contents (Elt F) → (⟨S2720000, .i32⟩ : BufTy).Contents (Elt F) → (⟨S2720000, .i32⟩ : BufTy).Contents (Elt F)),
    unary main_v5 main_v6 (broadcastInDim S2720000x1 ![0] bcast_S2720000_S2720000x1_0 : (⟨S2720000, .i32⟩ : BufTy).Contents (Elt F) → (⟨S2720000x1, .i32⟩ : BufTy).Contents (Elt F)),
    binary main_arg0 main_v6 main_v7 ((fun x i => Host.gather gather_S170000x64_S2720000x1_S2720000x64_1_0_n_n_0_1_164 x i) : (⟨S170000x64, .f32⟩ : BufTy).Contents (Elt F) → (⟨S2720000x1, .i32⟩ : BufTy).Contents (Elt F) → (⟨S2720000x64, .f32⟩ : BufTy).Contents (Elt F)),
    unary main_v0 main_v8 (broadcastInDim S2720000x64 ![0, 1] bcast_S2720000x1_S2720000x64_0_1 : (⟨S2720000x1, .f32⟩ : BufTy).Contents (Elt F) → (⟨S2720000x64, .f32⟩ : BufTy).Contents (Elt F)),
    binary main_v8 main_v7 main_v9 (mulf : (⟨S2720000x64, .f32⟩ : BufTy).Contents (Elt F) → (⟨S2720000x64, .f32⟩ : BufTy).Contents (Elt F) → (⟨S2720000x64, .f32⟩ : BufTy).Contents (Elt F)),
    nullary main_cst (constant S_ .f32 0x00000000#32),
    unary main_cst main_v10 (broadcastInDim S170000x64 ![] bcast_S_S170000x64 : (⟨S_, .f32⟩ : BufTy).Contents (Elt F) → (⟨S170000x64, .f32⟩ : BufTy).Contents (Elt F)),
    unary main_arg14 main_v11 (broadcastInDim S2720000x1 ![0] bcast_S2720000_S2720000x1_0 : (⟨S2720000, .i32⟩ : BufTy).Contents (Elt F) → (⟨S2720000x1, .i32⟩ : BufTy).Contents (Elt F)),
    ternary main_v10 main_v11 main_v9 main_v12 ((fun x i u => Host.scatterAdd scatter_S170000x64_S2720000x1_S2720000x64_1_0_0_1 x i u) : (⟨S170000x64, .f32⟩ : BufTy).Contents (Elt F) → (⟨S2720000x1, .i32⟩ : BufTy).Contents (Elt F) → (⟨S2720000x64, .f32⟩ : BufTy).Contents (Elt F) → (⟨S170000x64, .f32⟩ : BufTy).Contents (Elt F)),
    binary main_arg0 main_v12 main_v13 (addf : (⟨S170000x64, .f32⟩ : BufTy).Contents (Elt F) → (⟨S170000x64, .f32⟩ : BufTy).Contents (Elt F) → (⟨S170000x64, .f32⟩ : BufTy).Contents (Elt F)),
    binary main_v13 main_arg2 main_v14 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S170000x64 ![0, 1] bcast_S1x64_S170000x64_0_1 : (⟨S1x64, .f32⟩ : BufTy).Contents (Elt F) → (⟨S170000x64, .f32⟩ : BufTy).Contents (Elt F)),
    binary main_v14 main_v16 main_v17 (addf : (⟨S170000x64, .f32⟩ : BufTy).Contents (Elt F) → (⟨S170000x64, .f32⟩ : BufTy).Contents (Elt F) → (⟨S170000x64, .f32⟩ : BufTy).Contents (Elt F)),
    nullary main_cst_1 (constant S_ .f32 0x00000000#32),
    unary main_cst_1 main_v18 (broadcastInDim S170000x64 ![] bcast_S_S170000x64 : (⟨S_, .f32⟩ : BufTy).Contents (Elt F) → (⟨S170000x64, .f32⟩ : BufTy).Contents (Elt F)),
    binary main_v17 main_v18 main_v19 (cmpf .oge : (⟨S170000x64, .f32⟩ : BufTy).Contents (Elt F) → (⟨S170000x64, .f32⟩ : BufTy).Contents (Elt F) → (⟨S170000x64, .i1⟩ : BufTy).Contents (Elt F)),
    nullary main_cst_2 (constant S_ .f32 0x3C23D70A#32),
    unary main_cst_2 main_v20 (broadcastInDim S170000x64 ![] bcast_S_S170000x64 : (⟨S_, .f32⟩ : BufTy).Contents (Elt F) → (⟨S170000x64, .f32⟩ : BufTy).Contents (Elt F)),
    binary main_v20 main_v17 main_v21 (mulf : (⟨S170000x64, .f32⟩ : BufTy).Contents (Elt F) → (⟨S170000x64, .f32⟩ : BufTy).Contents (Elt F) → (⟨S170000x64, .f32⟩ : BufTy).Contents (Elt F)),
    TRef.ternary (TRef.of (T := ⟨S170000x64, .i1⟩) main_v19) (TRef.of (T := ⟨S170000x64, .f32⟩) main_v17) (TRef.of (T := ⟨S170000x64, .f32⟩) main_v21) (TRef.of (T := ⟨S170000x64, .f32⟩) main_v22) select,
    binary main_arg0 main_v12 main_v23 (mulf : (⟨S170000x64, .f32⟩ : BufTy).Contents (Elt F) → (⟨S170000x64, .f32⟩ : BufTy).Contents (Elt F) → (⟨S170000x64, .f32⟩ : BufTy).Contents (Elt F)),
    binary main_v23 main_arg4 main_v24 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    unary main_arg5 main_v25 (broadcastInDim S1x64 ![1] bcast_S64_S1x64_1 : (⟨S64, .f32⟩ : BufTy).Contents (Elt F) → (⟨S1x64, .f32⟩ : BufTy).Contents (Elt F)),
    unary main_v25 main_v26 (broadcastInDim S170000x64 ![0, 1] bcast_S1x64_S170000x64_0_1 : (⟨S1x64, .f32⟩ : BufTy).Contents (Elt F) → (⟨S170000x64, .f32⟩ : BufTy).Contents (Elt F)),
    binary main_v24 main_v26 main_v27 (addf : (⟨S170000x64, .f32⟩ : BufTy).Contents (Elt F) → (⟨S170000x64, .f32⟩ : BufTy).Contents (Elt F) → (⟨S170000x64, .f32⟩ : BufTy).Contents (Elt F)),
    nullary main_cst_3 (constant S_ .f32 0x00000000#32),
    unary main_cst_3 main_v28 (broadcastInDim S170000x64 ![] bcast_S_S170000x64 : (⟨S_, .f32⟩ : BufTy).Contents (Elt F) → (⟨S170000x64, .f32⟩ : BufTy).Contents (Elt F)),
    binary main_v27 main_v28 main_v29 (cmpf .oge : (⟨S170000x64, .f32⟩ : BufTy).Contents (Elt F) → (⟨S170000x64, .f32⟩ : BufTy).Contents (Elt F) → (⟨S170000x64, .i1⟩ : BufTy).Contents (Elt F)),
    nullary main_cst_4 (constant S_ .f32 0x3C23D70A#32),
    unary main_cst_4 main_v30 (broadcastInDim S170000x64 ![] bcast_S_S170000x64 : (⟨S_, .f32⟩ : BufTy).Contents (Elt F) → (⟨S170000x64, .f32⟩ : BufTy).Contents (Elt F)),
    binary main_v30 main_v27 main_v31 (mulf : (⟨S170000x64, .f32⟩ : BufTy).Contents (Elt F) → (⟨S170000x64, .f32⟩ : BufTy).Contents (Elt F) → (⟨S170000x64, .f32⟩ : BufTy).Contents (Elt F)),
    TRef.ternary (TRef.of (T := ⟨S170000x64, .i1⟩) main_v29) (TRef.of (T := ⟨S170000x64, .f32⟩) main_v27) (TRef.of (T := ⟨S170000x64, .f32⟩) main_v31) (TRef.of (T := ⟨S170000x64, .f32⟩) main_v32) select,
    binary main_v22 main_v32 main_v33 (addf : (⟨S170000x64, .f32⟩ : BufTy).Contents (Elt F) → (⟨S170000x64, .f32⟩ : BufTy).Contents (Elt F) → (⟨S170000x64, .f32⟩ : BufTy).Contents (Elt F)),
    binary main_v33 main_v33 main_v34 (mulf : (⟨S170000x64, .f32⟩ : BufTy).Contents (Elt F) → (⟨S170000x64, .f32⟩ : BufTy).Contents (Elt F) → (⟨S170000x64, .f32⟩ : BufTy).Contents (Elt F)),
    nullary main_cst_5 (constant S_ .f32 0x00000000#32),
    binary main_v34 main_cst_5 main_v35 ((fun x v => Host.reduceAdd x v reducesTo_S170000x64_S170000_d1 h_S_) : (⟨S170000x64, .f32⟩ : BufTy).Contents (Elt F) → (⟨S_, .f32⟩ : BufTy).Contents (Elt F) → (⟨S170000, .f32⟩ : BufTy).Contents (Elt F)),
    unary main_v35 main_v36 (broadcastInDim S170000x1 ![0] bcast_S170000_S170000x1_0 : (⟨S170000, .f32⟩ : BufTy).Contents (Elt F) → (⟨S170000x1, .f32⟩ : BufTy).Contents (Elt F)),
    unary main_v36 main_v37 (Host.sqrt : (⟨S170000x1, .f32⟩ : BufTy).Contents (Elt F) → (⟨S170000x1, .f32⟩ : BufTy).Contents (Elt F)),
    nullary main_cst_6 (constant S_ .f32 0x2B8CBCCC#32),
    unary main_cst_6 main_v38 (broadcastInDim S170000x1 ![] bcast_S_S170000x1 : (⟨S_, .f32⟩ : BufTy).Contents (Elt F) → (⟨S170000x1, .f32⟩ : BufTy).Contents (Elt F)),
    binary main_v37 main_v38 main_v39 (maximumf : (⟨S170000x1, .f32⟩ : BufTy).Contents (Elt F) → (⟨S170000x1, .f32⟩ : BufTy).Contents (Elt F) → (⟨S170000x1, .f32⟩ : BufTy).Contents (Elt F)),
    unary main_v39 main_v40 (broadcastInDim S170000x64 ![0, 1] bcast_S170000x1_S170000x64_0_1 : (⟨S170000x1, .f32⟩ : BufTy).Contents (Elt F) → (⟨S170000x64, .f32⟩ : BufTy).Contents (Elt F)),
    binary main_v33 main_v40 main_v41 (Host.divf : (⟨S170000x64, .f32⟩ : BufTy).Contents (Elt F) → (⟨S170000x64, .f32⟩ : BufTy).Contents (Elt F) → (⟨S170000x64, .f32⟩ : BufTy).Contents (Elt F)) ]

/-- The first new embeddings. -/
theorem layer1_v33 (X : Valuation τ sig (Elt F)) :
    after (layer1 (F := F)) X (Proc.devRef .tc main_v33) = val_main_v33 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg14)) (X (Proc.devRef .tc main_arg15)) := by
  unfold layer1; after_results_simp <;> rfl

/-- The first normalised embeddings. -/
theorem layer1_v41 (X : Valuation τ sig (Elt F)) :
    after (layer1 (F := F)) X (Proc.devRef .tc main_v41) = val_main_v41 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg14)) (X (Proc.devRef .tc main_arg15)) := by
  unfold layer1; after_results_simp <;> rfl

/-! The argument arrays are not written. -/
theorem layer1_keeps_arg0 (X : Valuation τ sig (Elt F)) :
    after (layer1 (F := F)) X (Proc.devRef .tc main_arg0) = X (Proc.devRef .tc main_arg0) := by
  unfold layer1; after_results_simp <;> rfl
theorem layer1_keeps_arg1 (X : Valuation τ sig (Elt F)) :
    after (layer1 (F := F)) X (Proc.devRef .tc main_arg1) = X (Proc.devRef .tc main_arg1) := by
  unfold layer1; after_results_simp <;> rfl
theorem layer1_keeps_arg2 (X : Valuation τ sig (Elt F)) :
    after (layer1 (F := F)) X (Proc.devRef .tc main_arg2) = X (Proc.devRef .tc main_arg2) := by
  unfold layer1; after_results_simp <;> rfl
theorem layer1_keeps_arg3 (X : Valuation τ sig (Elt F)) :
    after (layer1 (F := F)) X (Proc.devRef .tc main_arg3) = X (Proc.devRef .tc main_arg3) := by
  unfold layer1; after_results_simp <;> rfl
theorem layer1_keeps_arg4 (X : Valuation τ sig (Elt F)) :
    after (layer1 (F := F)) X (Proc.devRef .tc main_arg4) = X (Proc.devRef .tc main_arg4) := by
  unfold layer1; after_results_simp <;> rfl
theorem layer1_keeps_arg5 (X : Valuation τ sig (Elt F)) :
    after (layer1 (F := F)) X (Proc.devRef .tc main_arg5) = X (Proc.devRef .tc main_arg5) := by
  unfold layer1; after_results_simp <;> rfl
theorem layer1_keeps_arg6 (X : Valuation τ sig (Elt F)) :
    after (layer1 (F := F)) X (Proc.devRef .tc main_arg6) = X (Proc.devRef .tc main_arg6) := by
  unfold layer1; after_results_simp <;> rfl
theorem layer1_keeps_arg7 (X : Valuation τ sig (Elt F)) :
    after (layer1 (F := F)) X (Proc.devRef .tc main_arg7) = X (Proc.devRef .tc main_arg7) := by
  unfold layer1; after_results_simp <;> rfl
theorem layer1_keeps_arg8 (X : Valuation τ sig (Elt F)) :
    after (layer1 (F := F)) X (Proc.devRef .tc main_arg8) = X (Proc.devRef .tc main_arg8) := by
  unfold layer1; after_results_simp <;> rfl
theorem layer1_keeps_arg9 (X : Valuation τ sig (Elt F)) :
    after (layer1 (F := F)) X (Proc.devRef .tc main_arg9) = X (Proc.devRef .tc main_arg9) := by
  unfold layer1; after_results_simp <;> rfl
theorem layer1_keeps_arg10 (X : Valuation τ sig (Elt F)) :
    after (layer1 (F := F)) X (Proc.devRef .tc main_arg10) = X (Proc.devRef .tc main_arg10) := by
  unfold layer1; after_results_simp <;> rfl
theorem layer1_keeps_arg11 (X : Valuation τ sig (Elt F)) :
    after (layer1 (F := F)) X (Proc.devRef .tc main_arg11) = X (Proc.devRef .tc main_arg11) := by
  unfold layer1; after_results_simp <;> rfl
theorem layer1_keeps_arg12 (X : Valuation τ sig (Elt F)) :
    after (layer1 (F := F)) X (Proc.devRef .tc main_arg12) = X (Proc.devRef .tc main_arg12) := by
  unfold layer1; after_results_simp <;> rfl
theorem layer1_keeps_arg13 (X : Valuation τ sig (Elt F)) :
    after (layer1 (F := F)) X (Proc.devRef .tc main_arg13) = X (Proc.devRef .tc main_arg13) := by
  unfold layer1; after_results_simp <;> rfl
theorem layer1_keeps_arg14 (X : Valuation τ sig (Elt F)) :
    after (layer1 (F := F)) X (Proc.devRef .tc main_arg14) = X (Proc.devRef .tc main_arg14) := by
  unfold layer1; after_results_simp <;> rfl
theorem layer1_keeps_arg15 (X : Valuation τ sig (Elt F)) :
    after (layer1 (F := F)) X (Proc.devRef .tc main_arg15) = X (Proc.devRef .tc main_arg15) := by
  unfold layer1; after_results_simp <;> rfl

end Cert.ReferenceIdeal.RefAfter1

end
-- ==== Proof.RefAfter2.lean ====
/-
  The second layer's stretch (main_v42 … main_v83) over an ARBITRARY valuation X that holds, as the first layer's new
  embeddings, that stage of its own argument arrays: the second new embeddings and their normalised form are the stages
  of ReadP at X's argument arrays; the argument arrays and the first normalised embeddings are as X has them.
-/
import proofs.«115229_j70806830842640_2_alg».proof.Proof.ReadP

noncomputable section

namespace Cert.ReferenceIdeal.RefAfter2

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The second layer's operations, in order. -/
def layer2 : List (HloOp τ sig (Elt F)) :=
  [ unary main_arg1 main_v42 (broadcastInDim S2720000x1 ![0] bcast_S2720000_S2720000x1_0 : (⟨S2720000, .f32⟩ : BufTy).Contents (Elt F) → (⟨S2720000x1, .f32⟩ : BufTy).Contents (Elt F)),
    nullary main_c_7 (constantI S_ 32 0#32),
    unary main_c_7 main_v43 (broadcastInDim S2720000 ![] bcast_S_S2720000 : (⟨S_, .i32⟩ : BufTy).Contents (Elt F) → (⟨S2720000, .i32⟩ : BufTy).Contents (Elt F)),
    binary main_arg15 main_v43 main_v44 (cmpi .slt : (⟨S2720000, .i32⟩ : BufTy).Contents (Elt F) → (⟨S2720000, .i32⟩ : BufTy).Contents (Elt F) → (⟨S2720000, .i1⟩ : BufTy).Contents (Elt F)),
    nullary main_c_8 (constantI S_ 32 170000#32),
    unary main_c_8 main_v45 (broadcastInDim S2720000 ![] bcast_S_S2720000 : (⟨S_, .i32⟩ : BufTy).Contents (Elt F) → (⟨S2720000, .i32⟩ : BufTy).Contents (Elt F)),
    binary main_arg15 main_v45 main_v46 (addi : (⟨S2720000, .i32⟩ : BufTy).Contents (Elt F) → (⟨S2720000, .i32⟩ : BufTy).Contents (Elt F) → (⟨S2720000, .i32⟩ : BufTy).Contents (Elt F)),
    ternary main_v44 main_v46 main_arg15 main_v47 (select : (⟨S2720000, .i1⟩ : BufTy).Contents (Elt F) → (⟨S2720000, .i32⟩ : BufTy).Contents (Elt F) → (⟨S2720000, .i32⟩ : BufTy).Contents (Elt F) → (⟨S2720000, .i32⟩ : BufTy).Contents (Elt F)),
    unary main_v47 main_v48 (broadcastInDim S2720000x1 ![0] bcast_S2720000_S2720000x1_0 : (⟨S2720000, .i32⟩ : BufTy).Contents (Elt F) → (⟨S2720000x1, .i32⟩ : BufTy).Contents (Elt F)),
    binary main_v33 main_v48 main_v49 ((fun x i => Host.gather gather_S170000x64_S2720000x1_S2720000x64_1_0_n_n_0_1_164 x i) : (⟨S170000x64, .f32⟩ : BufTy).Contents (Elt F) → (⟨S2720000x1, .i32⟩ : BufTy).Contents (Elt F) → (⟨S2720000x64, .f32⟩ : BufTy).Contents (Elt F)),
    unary main_v42 main_v50 (broadcastInDim S2720000x64 ![0, 1] bcast_S2720000x1_S2720000x64_0_1 : (⟨S2720000x1, .f32⟩ : BufTy).Contents (Elt F) → (⟨S2720000x64, .f32⟩ : BufTy).Contents (Elt F)),
    binary main_v50 main_v49 main_v51 (mulf : (⟨S2720000x64, .f32⟩ : BufTy).Contents (Elt F) → (⟨S2720000x64, .f32⟩ : BufTy).Contents (Elt F) → (⟨S2720000x64, .f32⟩ : BufTy).Contents (Elt F)),
    nullary main_cst_9 (constant S_ .f32 0x00000000#32),
    unary main_cst_9 main_v52 (broadcastInDim S170000x64 ![] bcast_S_S170000x64 : (⟨S_, .f32⟩ : BufTy).Contents (Elt F) → (⟨S170000x64, .f32⟩ : BufTy).Contents (Elt F)),
    unary main_arg14 main_v53 (broadcastInDim S2720000x1 ![0] bcast_S2720000_S2720000x1_0 : (⟨S2720000, .i32⟩ : BufTy).Contents (Elt F) → (⟨S2720000x1, .i32⟩ : BufTy).Contents (Elt F)),
    ternary main_v52 main_v53 main_v51 main_v54 ((fun x i u => Host.scatterAdd scatter_S170000x64_S2720000x1_S2720000x64_1_0_0_1 x i u) : (⟨S170000x64, .f32⟩ : BufTy).Contents (Elt F) → (⟨S2720000x1, .i32⟩ : BufTy).Contents (Elt F) → (⟨S2720000x64, .f32⟩ : BufTy).Contents (Elt F) → (⟨S170000x64, .f32⟩ : BufTy).Contents (Elt F)),
    binary main_v33 main_v54 main_v55 (addf : (⟨S170000x64, .f32⟩ : BufTy).Contents (Elt F) → (⟨S170000x64, .f32⟩ : BufTy).Contents (Elt F) → (⟨S170000x64, .f32⟩ : BufTy).Contents (Elt F)),
    binary main_v55 main_arg6 main_v56 ((fun l r => Host.dotGeneral dot_S170000x64_S64x32_S170000x32_1_0_0_1_n_n none l r) : (⟨S170000x64, .f32⟩ : BufTy).Contents (Elt F) → (⟨S64x32, .f32⟩ : BufTy).Contents (Elt F) → (⟨S170000x32, .f32⟩ : BufTy).Contents (Elt F)),
    unary main_arg7 main_v57 (broadcastInDim S1x32 ![1] bcast_S32_S1x32_1 : (⟨S32, .f32⟩ : BufTy).Contents (Elt F) → (⟨S1x32, .f32⟩ : BufTy).Contents (Elt F)),
    unary main_v57 main_v58 (broadcastInDim S170000x32 ![0, 1] bcast_S1x32_S170000x32_0_1 : (⟨S1x32, .f32⟩ : BufTy).Contents (Elt F) → (⟨S170000x32, .f32⟩ : BufTy).Contents (Elt F)),
    binary main_v56 main_v58 main_v59 (addf : (⟨S170000x32, .f32⟩ : BufTy).Contents (Elt F) → (⟨S170000x32, .f32⟩ : BufTy).Contents (Elt F) → (⟨S170000x32, .f32⟩ : BufTy).Contents (Elt F)),
    nullary main_cst_10 (constant S_ .f32 0x00000000#32),
    unary main_cst_10 main_v60 (broadcastInDim S170000x32 ![] bcast_S_S170000x32 : (⟨S_, .f32⟩ : BufTy).Contents (Elt F) → (⟨S170000x32, .f32⟩ : BufTy).Contents (Elt F)),
    binary main_v59 main_v60 main_v61 (cmpf .oge : (⟨S170000x32, .f32⟩ : BufTy).Contents (Elt F) → (⟨S170000x32, .f32⟩ : BufTy).Contents (Elt F) → (⟨S170000x32, .i1⟩ : BufTy).Contents (Elt F)),
    nullary main_cst_11 (constant S_ .f32 0x3C23D70A#32),
    unary main_cst_11 main_v62 (broadcastInDim S170000x32 ![] bcast_S_S170000x32 : (⟨S_, .f32⟩ : BufTy).Contents (Elt F) → (⟨S170000x32, .f32⟩ : BufTy).Contents (Elt F)),
    binary main_v62 main_v59 main_v63 (mulf : (⟨S170000x32, .f32⟩ : BufTy).Contents (Elt F) → (⟨S170000x32, .f32⟩ : BufTy).Contents (Elt F) → (⟨S170000x32, .f32⟩ : BufTy).Contents (Elt F)),
    TRef.ternary (TRef.of (T := ⟨S170000x32, .i1⟩) main_v61) (TRef.of (T := ⟨S170000x32, .f32⟩) main_v59) (TRef.of (T := ⟨S170000x32, .f32⟩) main_v63) (TRef.of (T := ⟨S170000x32, .f32⟩) main_v64) select,
    binary main_v33 main_v54 main_v65 (mulf : (⟨S170000x64, .f32⟩ : BufTy).Contents (Elt F) → (⟨S170000x64, .f32⟩ : BufTy).Contents (Elt F) → (⟨S170000x64, .f32⟩ : BufTy).Contents (Elt F)),
    binary main_v65 main_arg8 main_v66 ((fun l r => Host.dotGeneral dot_S170000x64_S64x32_S170000x32_1_0_0_1_n_n none l r) : (⟨S170000x64, .f32⟩ : BufTy).Contents (Elt F) → (⟨S64x32, .f32⟩ : BufTy).Contents (Elt F) → (⟨S170000x32, .f32⟩ : BufTy).Contents (Elt F)),
    unary main_arg9 main_v67 (broadcastInDim S1x32 ![1] bcast_S32_S1x32_1 : (⟨S32, .f32⟩ : BufTy).Contents (Elt F) → (⟨S1x32, .f32⟩ : BufTy).Contents (Elt F)),
    unary main_v67 main_v68 (broadcastInDim S170000x32 ![0, 1] bcast_S1x32_S170000x32_0_1 : (⟨S1x32, .f32⟩ : BufTy).Contents (Elt F) → (⟨S170000x32, .f32⟩ : BufTy).Contents (Elt F)),
    binary main_v66 main_v68 main_v69 (addf : (⟨S170000x32, .f32⟩ : BufTy).Contents (Elt F) → (⟨S170000x32, .f32⟩ : BufTy).Contents (Elt F) → (⟨S170000x32, .f32⟩ : BufTy).Contents (Elt F)),
    nullary main_cst_12 (constant S_ .f32 0x00000000#32),
    unary main_cst_12 main_v70 (broadcastInDim S170000x32 ![] bcast_S_S170000x32 : (⟨S_, .f32⟩ : BufTy).Contents (Elt F) → (⟨S170000x32, .f32⟩ : BufTy).Contents (Elt F)),
    binary main_v69 main_v70 main_v71 (cmpf .oge : (⟨S170000x32, .f32⟩ : BufTy).Contents (Elt F) → (⟨S170000x32, .f32⟩ : BufTy).Contents (Elt F) → (⟨S170000x32, .i1⟩ : BufTy).Contents (Elt F)),
    nullary main_cst_13 (constant S_ .f32 0x3C23D70A#32),
    unary main_cst_13 main_v72 (broadcastInDim S170000x32 ![] bcast_S_S170000x32 : (⟨S_, .f32⟩ : BufTy).Contents (Elt F) → (⟨S170000x32, .f32⟩ : BufTy).Contents (Elt F)),
    binary main_v72 main_v69 main_v73 (mulf : (⟨S170000x32, .f32⟩ : BufTy).Contents (Elt F) → (⟨S170000x32, .f32⟩ : BufTy).Contents (Elt F) → (⟨S170000x32, .f32⟩ : BufTy).Contents (Elt F)),
    TRef.ternary (TRef.of (T := ⟨S170000x32, .i1⟩) main_v71) (TRef.of (T := ⟨S170000x32, .f32⟩) main_v69) (TRef.of (T := ⟨S170000x32, .f32⟩) main_v73) (TRef.of (T := ⟨S170000x32, .f32⟩) main_v74) select,
    binary main_v64 main_v74 main_v75 (addf : (⟨S170000x32, .f32⟩ : BufTy).Contents (Elt F) → (⟨S170000x32, .f32⟩ : BufTy).Contents (Elt F) → (⟨S170000x32, .f32⟩ : BufTy).Contents (Elt F)),
    binary main_v75 main_v75 main_v76 (mulf : (⟨S170000x32, .f32⟩ : BufTy).Contents (Elt F) → (⟨S170000x32, .f32⟩ : BufTy).Contents (Elt F) → (⟨S170000x32, .f32⟩ : BufTy).Contents (Elt F)),
    nullary main_cst_14 (constant S_ .f32 0x00000000#32),
    binary main_v76 main_cst_14 main_v77 ((fun x v => Host.reduceAdd x v reducesTo_S170000x32_S170000_d1 h_S_) : (⟨S170000x32, .f32⟩ : BufTy).Contents (Elt F) → (⟨S_, .f32⟩ : BufTy).Contents (Elt F) → (⟨S170000, .f32⟩ : BufTy).Contents (Elt F)),
    unary main_v77 main_v78 (broadcastInDim S170000x1 ![0] bcast_S170000_S170000x1_0 : (⟨S170000, .f32⟩ : BufTy).Contents (Elt F) → (⟨S170000x1, .f32⟩ : BufTy).Contents (Elt F)),
    unary main_v78 main_v79 (Host.sqrt : (⟨S170000x1, .f32⟩ : BufTy).Contents (Elt F) → (⟨S170000x1, .f32⟩ : BufTy).Contents (Elt F)),
    nullary main_cst_15 (constant S_ .f32 0x2B8CBCCC#32),
    unary main_cst_15 main_v80 (broadcastInDim S170000x1 ![] bcast_S_S170000x1 : (⟨S_, .f32⟩ : BufTy).Contents (Elt F) → (⟨S170000x1, .f32⟩ : BufTy).Contents (Elt F)),
    binary main_v79 main_v80 main_v81 (maximumf : (⟨S170000x1, .f32⟩ : BufTy).Contents (Elt F) → (⟨S170000x1, .f32⟩ : BufTy).Contents (Elt F) → (⟨S170000x1, .f32⟩ : BufTy).Contents (Elt F)),
    unary main_v81 main_v82 (broadcastInDim S170000x32 ![0, 1] bcast_S170000x1_S170000x32_0_1 : (⟨S170000x1, .f32⟩ : BufTy).Contents (Elt F) → (⟨S170000x32, .f32⟩ : BufTy).Contents (Elt F)),
    binary main_v75 main_v82 main_v83 (Host.divf : (⟨S170000x32, .f32⟩ : BufTy).Contents (Elt F) → (⟨S170000x32, .f32⟩ : BufTy).Contents (Elt F) → (⟨S170000x32, .f32⟩ : BufTy).Contents (Elt F)) ]

/-- The second new embeddings. -/
theorem layer2_v75 (X : Valuation τ sig (Elt F))
    (h : X (Proc.devRef .tc main_v33) = val_main_v33 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg14)) (X (Proc.devRef .tc main_arg15))) :
    after (layer2 (F := F)) X (Proc.devRef .tc main_v75) = val_main_v75 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg14)) (X (Proc.devRef .tc main_arg15)) := by
  unfold layer2; after_results_simp; rw [h]; rfl

/-- The second normalised embeddings. -/
theorem layer2_v83 (X : Valuation τ sig (Elt F))
    (h : X (Proc.devRef .tc main_v33) = val_main_v33 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg14)) (X (Proc.devRef .tc main_arg15))) :
    after (layer2 (F := F)) X (Proc.devRef .tc main_v83) = val_main_v83 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg14)) (X (Proc.devRef .tc main_arg15)) := by
  unfold layer2; after_results_simp; rw [h]; rfl

/-! The argument arrays and the first normalised embeddings are not written. -/
theorem layer2_keeps_arg0 (X : Valuation τ sig (Elt F)) :
    after (layer2 (F := F)) X (Proc.devRef .tc main_arg0) = X (Proc.devRef .tc main_arg0) := by
  unfold layer2; after_results_simp <;> rfl
theorem layer2_keeps_arg1 (X : Valuation τ sig (Elt F)) :
    after (layer2 (F := F)) X (Proc.devRef .tc main_arg1) = X (Proc.devRef .tc main_arg1) := by
  unfold layer2; after_results_simp <;> rfl
theorem layer2_keeps_arg2 (X : Valuation τ sig (Elt F)) :
    after (layer2 (F := F)) X (Proc.devRef .tc main_arg2) = X (Proc.devRef .tc main_arg2) := by
  unfold layer2; after_results_simp <;> rfl
theorem layer2_keeps_arg3 (X : Valuation τ sig (Elt F)) :
    after (layer2 (F := F)) X (Proc.devRef .tc main_arg3) = X (Proc.devRef .tc main_arg3) := by
  unfold layer2; after_results_simp <;> rfl
theorem layer2_keeps_arg4 (X : Valuation τ sig (Elt F)) :
    after (layer2 (F := F)) X (Proc.devRef .tc main_arg4) = X (Proc.devRef .tc main_arg4) := by
  unfold layer2; after_results_simp <;> rfl
theorem layer2_keeps_arg5 (X : Valuation τ sig (Elt F)) :
    after (layer2 (F := F)) X (Proc.devRef .tc main_arg5) = X (Proc.devRef .tc main_arg5) := by
  unfold layer2; after_results_simp <;> rfl
theorem layer2_keeps_arg6 (X : Valuation τ sig (Elt F)) :
    after (layer2 (F := F)) X (Proc.devRef .tc main_arg6) = X (Proc.devRef .tc main_arg6) := by
  unfold layer2; after_results_simp <;> rfl
theorem layer2_keeps_arg7 (X : Valuation τ sig (Elt F)) :
    after (layer2 (F := F)) X (Proc.devRef .tc main_arg7) = X (Proc.devRef .tc main_arg7) := by
  unfold layer2; after_results_simp <;> rfl
theorem layer2_keeps_arg8 (X : Valuation τ sig (Elt F)) :
    after (layer2 (F := F)) X (Proc.devRef .tc main_arg8) = X (Proc.devRef .tc main_arg8) := by
  unfold layer2; after_results_simp <;> rfl
theorem layer2_keeps_arg9 (X : Valuation τ sig (Elt F)) :
    after (layer2 (F := F)) X (Proc.devRef .tc main_arg9) = X (Proc.devRef .tc main_arg9) := by
  unfold layer2; after_results_simp <;> rfl
theorem layer2_keeps_arg10 (X : Valuation τ sig (Elt F)) :
    after (layer2 (F := F)) X (Proc.devRef .tc main_arg10) = X (Proc.devRef .tc main_arg10) := by
  unfold layer2; after_results_simp <;> rfl
theorem layer2_keeps_arg11 (X : Valuation τ sig (Elt F)) :
    after (layer2 (F := F)) X (Proc.devRef .tc main_arg11) = X (Proc.devRef .tc main_arg11) := by
  unfold layer2; after_results_simp <;> rfl
theorem layer2_keeps_arg12 (X : Valuation τ sig (Elt F)) :
    after (layer2 (F := F)) X (Proc.devRef .tc main_arg12) = X (Proc.devRef .tc main_arg12) := by
  unfold layer2; after_results_simp <;> rfl
theorem layer2_keeps_arg13 (X : Valuation τ sig (Elt F)) :
    after (layer2 (F := F)) X (Proc.devRef .tc main_arg13) = X (Proc.devRef .tc main_arg13) := by
  unfold layer2; after_results_simp <;> rfl
theorem layer2_keeps_arg14 (X : Valuation τ sig (Elt F)) :
    after (layer2 (F := F)) X (Proc.devRef .tc main_arg14) = X (Proc.devRef .tc main_arg14) := by
  unfold layer2; after_results_simp <;> rfl
theorem layer2_keeps_arg15 (X : Valuation τ sig (Elt F)) :
    after (layer2 (F := F)) X (Proc.devRef .tc main_arg15) = X (Proc.devRef .tc main_arg15) := by
  unfold layer2; after_results_simp <;> rfl
theorem layer2_keeps_v41 (X : Valuation τ sig (Elt F)) :
    after (layer2 (F := F)) X (Proc.devRef .tc main_v41) = X (Proc.devRef .tc main_v41) := by
  unfold layer2; after_results_simp <;> rfl

end Cert.ReferenceIdeal.RefAfter2

end
-- ==== Proof.RefAfter3.lean ====
/-
  The third layer's stretch (main_v84 … main_v125) and the final join (main_v126) over an ARBITRARY valuation X that
  holds the earlier layers' embeddings as those stages of its own argument arrays: the third normalised embeddings, and
  then the joined result, are the stages of ReadP at X's argument arrays; the argument arrays and the earlier
  normalised embeddings are as X has them.
-/
import proofs.«115229_j70806830842640_2_alg».proof.Proof.ReadP

noncomputable section

namespace Cert.ReferenceIdeal.RefAfter3

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The third layer's operations, in order. -/
def layer3 : List (HloOp τ sig (Elt F)) :=
  [ unary main_arg1 main_v84 (broadcastInDim S2720000x1 ![0] bcast_S2720000_S2720000x1_0 : (⟨S2720000, .f32⟩ : BufTy).Contents (Elt F) → (⟨S2720000x1, .f32⟩ : BufTy).Contents (Elt F)),
    nullary main_c_16 (constantI S_ 32 0#32),
    unary main_c_16 main_v85 (broadcastInDim S2720000 ![] bcast_S_S2720000 : (⟨S_, .i32⟩ : BufTy).Contents (Elt F) → (⟨S2720000, .i32⟩ : BufTy).Contents (Elt F)),
    binary main_arg15 main_v85 main_v86 (cmpi .slt : (⟨S2720000, .i32⟩ : BufTy).Contents (Elt F) → (⟨S2720000, .i32⟩ : BufTy).Contents (Elt F) → (⟨S2720000, .i1⟩ : BufTy).Contents (Elt F)),
    nullary main_c_17 (constantI S_ 32 170000#32),
    unary main_c_17 main_v87 (broadcastInDim S2720000 ![] bcast_S_S2720000 : (⟨S_, .i32⟩ : BufTy).Contents (Elt F) → (⟨S2720000, .i32⟩ : BufTy).Contents (Elt F)),
    binary main_arg15 main_v87 main_v88 (addi : (⟨S2720000, .i32⟩ : BufTy).Contents (Elt F) → (⟨S2720000, .i32⟩ : BufTy).Contents (Elt F) → (⟨S2720000, .i32⟩ : BufTy).Contents (Elt F)),
    ternary main_v86 main_v88 main_arg15 main_v89 (select : (⟨S2720000, .i1⟩ : BufTy).Contents (Elt F) → (⟨S2720000, .i32⟩ : BufTy).Contents (Elt F) → (⟨S2720000, .i32⟩ : BufTy).Contents (Elt F) → (⟨S2720000, .i32⟩ : BufTy).Contents (Elt F)),
    unary main_v89 main_v90 (broadcastInDim S2720000x1 ![0] bcast_S2720000_S2720000x1_0 : (⟨S2720000, .i32⟩ : BufTy).Contents (Elt F) → (⟨S2720000x1, .i32⟩ : BufTy).Contents (Elt F)),
    binary main_v75 main_v90 main_v91 ((fun x i => Host.gather gather_S170000x32_S2720000x1_S2720000x32_1_0_n_n_0_1_132 x i) : (⟨S170000x32, .f32⟩ : BufTy).Contents (Elt F) → (⟨S2720000x1, .i32⟩ : BufTy).Contents (Elt F) → (⟨S2720000x32, .f32⟩ : BufTy).Contents (Elt F)),
    unary main_v84 main_v92 (broadcastInDim S2720000x32 ![0, 1] bcast_S2720000x1_S2720000x32_0_1 : (⟨S2720000x1, .f32⟩ : BufTy).Contents (Elt F) → (⟨S2720000x32, .f32⟩ : BufTy).Contents (Elt F)),
    binary main_v92 main_v91 main_v93 (mulf : (⟨S2720000x32, .f32⟩ : BufTy).Contents (Elt F) → (⟨S2720000x32, .f32⟩ : BufTy).Contents (Elt F) → (⟨S2720000x32, .f32⟩ : BufTy).Contents (Elt F)),
    nullary main_cst_18 (constant S_ .f32 0x00000000#32),
    unary main_cst_18 main_v94 (broadcastInDim S170000x32 ![] bcast_S_S170000x32 : (⟨S_, .f32⟩ : BufTy).Contents (Elt F) → (⟨S170000x32, .f32⟩ : BufTy).Contents (Elt F)),
    unary main_arg14 main_v95 (broadcastInDim S2720000x1 ![0] bcast_S2720000_S2720000x1_0 : (⟨S2720000, .i32⟩ : BufTy).Contents (Elt F) → (⟨S2720000x1, .i32⟩ : BufTy).Contents (Elt F)),
    ternary main_v94 main_v95 main_v93 main_v96 ((fun x i u => Host.scatterAdd scatter_S170000x32_S2720000x1_S2720000x32_1_0_0_1 x i u) : (⟨S170000x32, .f32⟩ : BufTy).Contents (Elt F) → (⟨S2720000x1, .i32⟩ : BufTy).Contents (Elt F) → (⟨S2720000x32, .f32⟩ : BufTy).Contents (Elt F) → (⟨S170000x32, .f32⟩ : BufTy).Contents (Elt F)),
    binary main_v75 main_v96 main_v97 (addf : (⟨S170000x32, .f32⟩ : BufTy).Contents (Elt F) → (⟨S170000x32, .f32⟩ : BufTy).Contents (Elt F) → (⟨S170000x32, .f32⟩ : BufTy).Contents (Elt F)),
    binary main_v97 main_arg10 main_v98 ((fun l r => Host.dotGeneral dot_S170000x32_S32x16_S170000x16_1_0_0_1_n_n none l r) : (⟨S170000x32, .f32⟩ : BufTy).Contents (Elt F) → (⟨S32x16, .f32⟩ : BufTy).Contents (Elt F) → (⟨S170000x16, .f32⟩ : BufTy).Contents (Elt F)),
    unary main_arg11 main_v99 (broadcastInDim S1x16 ![1] bcast_S16_S1x16_1 : (⟨S16, .f32⟩ : BufTy).Contents (Elt F) → (⟨S1x16, .f32⟩ : BufTy).Contents (Elt F)),
    unary main_v99 main_v100 (broadcastInDim S170000x16 ![0, 1] bcast_S1x16_S170000x16_0_1 : (⟨S1x16, .f32⟩ : BufTy).Contents (Elt F) → (⟨S170000x16, .f32⟩ : BufTy).Contents (Elt F)),
    binary main_v98 main_v100 main_v101 (addf : (⟨S170000x16, .f32⟩ : BufTy).Contents (Elt F) → (⟨S170000x16, .f32⟩ : BufTy).Contents (Elt F) → (⟨S170000x16, .f32⟩ : BufTy).Contents (Elt F)),
    nullary main_cst_19 (constant S_ .f32 0x00000000#32),
    unary main_cst_19 main_v102 (broadcastInDim S170000x16 ![] bcast_S_S170000x16 : (⟨S_, .f32⟩ : BufTy).Contents (Elt F) → (⟨S170000x16, .f32⟩ : BufTy).Contents (Elt F)),
    binary main_v101 main_v102 main_v103 (cmpf .oge : (⟨S170000x16, .f32⟩ : BufTy).Contents (Elt F) → (⟨S170000x16, .f32⟩ : BufTy).Contents (Elt F) → (⟨S170000x16, .i1⟩ : BufTy).Contents (Elt F)),
    nullary main_cst_20 (constant S_ .f32 0x3C23D70A#32),
    unary main_cst_20 main_v104 (broadcastInDim S170000x16 ![] bcast_S_S170000x16 : (⟨S_, .f32⟩ : BufTy).Contents (Elt F) → (⟨S170000x16, .f32⟩ : BufTy).Contents (Elt F)),
    binary main_v104 main_v101 main_v105 (mulf : (⟨S170000x16, .f32⟩ : BufTy).Contents (Elt F) → (⟨S170000x16, .f32⟩ : BufTy).Contents (Elt F) → (⟨S170000x16, .f32⟩ : BufTy).Contents (Elt F)),
    TRef.ternary (TRef.of (T := ⟨S170000x16, .i1⟩) main_v103) (TRef.of (T := ⟨S170000x16, .f32⟩) main_v101) (TRef.of (T := ⟨S170000x16, .f32⟩) main_v105) (TRef.of (T := ⟨S170000x16, .f32⟩) main_v106) select,
    binary main_v75 main_v96 main_v107 (mulf : (⟨S170000x32, .f32⟩ : BufTy).Contents (Elt F) → (⟨S170000x32, .f32⟩ : BufTy).Contents (Elt F) → (⟨S170000x32, .f32⟩ : BufTy).Contents (Elt F)),
    binary main_v107 main_arg12 main_v108 ((fun l r => Host.dotGeneral dot_S170000x32_S32x16_S170000x16_1_0_0_1_n_n none l r) : (⟨S170000x32, .f32⟩ : BufTy).Contents (Elt F) → (⟨S32x16, .f32⟩ : BufTy).Contents (Elt F) → (⟨S170000x16, .f32⟩ : BufTy).Contents (Elt F)),
    unary main_arg13 main_v109 (broadcastInDim S1x16 ![1] bcast_S16_S1x16_1 : (⟨S16, .f32⟩ : BufTy).Contents (Elt F) → (⟨S1x16, .f32⟩ : BufTy).Contents (Elt F)),
    unary main_v109 main_v110 (broadcastInDim S170000x16 ![0, 1] bcast_S1x16_S170000x16_0_1 : (⟨S1x16, .f32⟩ : BufTy).Contents (Elt F) → (⟨S170000x16, .f32⟩ : BufTy).Contents (Elt F)),
    binary main_v108 main_v110 main_v111 (addf : (⟨S170000x16, .f32⟩ : BufTy).Contents (Elt F) → (⟨S170000x16, .f32⟩ : BufTy).Contents (Elt F) → (⟨S170000x16, .f32⟩ : BufTy).Contents (Elt F)),
    nullary main_cst_21 (constant S_ .f32 0x00000000#32),
    unary main_cst_21 main_v112 (broadcastInDim S170000x16 ![] bcast_S_S170000x16 : (⟨S_, .f32⟩ : BufTy).Contents (Elt F) → (⟨S170000x16, .f32⟩ : BufTy).Contents (Elt F)),
    binary main_v111 main_v112 main_v113 (cmpf .oge : (⟨S170000x16, .f32⟩ : BufTy).Contents (Elt F) → (⟨S170000x16, .f32⟩ : BufTy).Contents (Elt F) → (⟨S170000x16, .i1⟩ : BufTy).Contents (Elt F)),
    nullary main_cst_22 (constant S_ .f32 0x3C23D70A#32),
    unary main_cst_22 main_v114 (broadcastInDim S170000x16 ![] bcast_S_S170000x16 : (⟨S_, .f32⟩ : BufTy).Contents (Elt F) → (⟨S170000x16, .f32⟩ : BufTy).Contents (Elt F)),
    binary main_v114 main_v111 main_v115 (mulf : (⟨S170000x16, .f32⟩ : BufTy).Contents (Elt F) → (⟨S170000x16, .f32⟩ : BufTy).Contents (Elt F) → (⟨S170000x16, .f32⟩ : BufTy).Contents (Elt F)),
    TRef.ternary (TRef.of (T := ⟨S170000x16, .i1⟩) main_v113) (TRef.of (T := ⟨S170000x16, .f32⟩) main_v111) (TRef.of (T := ⟨S170000x16, .f32⟩) main_v115) (TRef.of (T := ⟨S170000x16, .f32⟩) main_v116) select,
    binary main_v106 main_v116 main_v117 (addf : (⟨S170000x16, .f32⟩ : BufTy).Contents (Elt F) → (⟨S170000x16, .f32⟩ : BufTy).Contents (Elt F) → (⟨S170000x16, .f32⟩ : BufTy).Contents (Elt F)),
    binary main_v117 main_v117 main_v118 (mulf : (⟨S170000x16, .f32⟩ : BufTy).Contents (Elt F) → (⟨S170000x16, .f32⟩ : BufTy).Contents (Elt F) → (⟨S170000x16, .f32⟩ : BufTy).Contents (Elt F)),
    nullary main_cst_23 (constant S_ .f32 0x00000000#32),
    binary main_v118 main_cst_23 main_v119 ((fun x v => Host.reduceAdd x v reducesTo_S170000x16_S170000_d1 h_S_) : (⟨S170000x16, .f32⟩ : BufTy).Contents (Elt F) → (⟨S_, .f32⟩ : BufTy).Contents (Elt F) → (⟨S170000, .f32⟩ : BufTy).Contents (Elt F)),
    unary main_v119 main_v120 (broadcastInDim S170000x1 ![0] bcast_S170000_S170000x1_0 : (⟨S170000, .f32⟩ : BufTy).Contents (Elt F) → (⟨S170000x1, .f32⟩ : BufTy).Contents (Elt F)),
    unary main_v120 main_v121 (Host.sqrt : (⟨S170000x1, .f32⟩ : BufTy).Contents (Elt F) → (⟨S170000x1, .f32⟩ : BufTy).Contents (Elt F)),
    nullary main_cst_24 (constant S_ .f32 0x2B8CBCCC#32),
    unary main_cst_24 main_v122 (broadcastInDim S170000x1 ![] bcast_S_S170000x1 : (⟨S_, .f32⟩ : BufTy).Contents (Elt F) → (⟨S170000x1, .f32⟩ : BufTy).Contents (Elt F)),
    binary main_v121 main_v122 main_v123 (maximumf : (⟨S170000x1, .f32⟩ : BufTy).Contents (Elt F) → (⟨S170000x1, .f32⟩ : BufTy).Contents (Elt F) → (⟨S170000x1, .f32⟩ : BufTy).Contents (Elt F)),
    unary main_v123 main_v124 (broadcastInDim S170000x16 ![0, 1] bcast_S170000x1_S170000x16_0_1 : (⟨S170000x1, .f32⟩ : BufTy).Contents (Elt F) → (⟨S170000x16, .f32⟩ : BufTy).Contents (Elt F)),
    binary main_v117 main_v124 main_v125 (Host.divf : (⟨S170000x16, .f32⟩ : BufTy).Contents (Elt F) → (⟨S170000x16, .f32⟩ : BufTy).Contents (Elt F) → (⟨S170000x16, .f32⟩ : BufTy).Contents (Elt F)) ]

/-- The final operation: the four blocks of columns joined. -/
def join : List (HloOp τ sig (Elt F)) :=
  [ nary ![main_arg0, main_v41, main_v83, main_v125] main_v126 (fun u => concatenate S170000x176 1 [⟨S170000x64, u 0⟩, ⟨S170000x64, u 1⟩, ⟨S170000x32, u 2⟩, ⟨S170000x16, u 3⟩] concatenates_S170000x64_S170000x64_S170000x32_S170000x16_S170000x176_d1)  ]

/-- The third normalised embeddings. -/
theorem layer3_v125 (X : Valuation τ sig (Elt F))
    (h : X (Proc.devRef .tc main_v75) = val_main_v75 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg14)) (X (Proc.devRef .tc main_arg15))) :
    after (layer3 (F := F)) X (Proc.devRef .tc main_v125) = val_main_v125 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) := by
  unfold layer3; after_results_simp; rw [h]; rfl

/-! The argument arrays and the earlier normalised embeddings are not written. -/
theorem layer3_keeps_arg0 (X : Valuation τ sig (Elt F)) :
    after (layer3 (F := F)) X (Proc.devRef .tc main_arg0) = X (Proc.devRef .tc main_arg0) := by
  unfold layer3; after_results_simp <;> rfl
theorem layer3_keeps_arg1 (X : Valuation τ sig (Elt F)) :
    after (layer3 (F := F)) X (Proc.devRef .tc main_arg1) = X (Proc.devRef .tc main_arg1) := by
  unfold layer3; after_results_simp <;> rfl
theorem layer3_keeps_arg2 (X : Valuation τ sig (Elt F)) :
    after (layer3 (F := F)) X (Proc.devRef .tc main_arg2) = X (Proc.devRef .tc main_arg2) := by
  unfold layer3; after_results_simp <;> rfl
theorem layer3_keeps_arg3 (X : Valuation τ sig (Elt F)) :
    after (layer3 (F := F)) X (Proc.devRef .tc main_arg3) = X (Proc.devRef .tc main_arg3) := by
  unfold layer3; after_results_simp <;> rfl
theorem layer3_keeps_arg4 (X : Valuation τ sig (Elt F)) :
    after (layer3 (F := F)) X (Proc.devRef .tc main_arg4) = X (Proc.devRef .tc main_arg4) := by
  unfold layer3; after_results_simp <;> rfl
theorem layer3_keeps_arg5 (X : Valuation τ sig (Elt F)) :
    after (layer3 (F := F)) X (Proc.devRef .tc main_arg5) = X (Proc.devRef .tc main_arg5) := by
  unfold layer3; after_results_simp <;> rfl
theorem layer3_keeps_arg6 (X : Valuation τ sig (Elt F)) :
    after (layer3 (F := F)) X (Proc.devRef .tc main_arg6) = X (Proc.devRef .tc main_arg6) := by
  unfold layer3; after_results_simp <;> rfl
theorem layer3_keeps_arg7 (X : Valuation τ sig (Elt F)) :
    after (layer3 (F := F)) X (Proc.devRef .tc main_arg7) = X (Proc.devRef .tc main_arg7) := by
  unfold layer3; after_results_simp <;> rfl
theorem layer3_keeps_arg8 (X : Valuation τ sig (Elt F)) :
    after (layer3 (F := F)) X (Proc.devRef .tc main_arg8) = X (Proc.devRef .tc main_arg8) := by
  unfold layer3; after_results_simp <;> rfl
theorem layer3_keeps_arg9 (X : Valuation τ sig (Elt F)) :
    after (layer3 (F := F)) X (Proc.devRef .tc main_arg9) = X (Proc.devRef .tc main_arg9) := by
  unfold layer3; after_results_simp <;> rfl
theorem layer3_keeps_arg10 (X : Valuation τ sig (Elt F)) :
    after (layer3 (F := F)) X (Proc.devRef .tc main_arg10) = X (Proc.devRef .tc main_arg10) := by
  unfold layer3; after_results_simp <;> rfl
theorem layer3_keeps_arg11 (X : Valuation τ sig (Elt F)) :
    after (layer3 (F := F)) X (Proc.devRef .tc main_arg11) = X (Proc.devRef .tc main_arg11) := by
  unfold layer3; after_results_simp <;> rfl
theorem layer3_keeps_arg12 (X : Valuation τ sig (Elt F)) :
    after (layer3 (F := F)) X (Proc.devRef .tc main_arg12) = X (Proc.devRef .tc main_arg12) := by
  unfold layer3; after_results_simp <;> rfl
theorem layer3_keeps_arg13 (X : Valuation τ sig (Elt F)) :
    after (layer3 (F := F)) X (Proc.devRef .tc main_arg13) = X (Proc.devRef .tc main_arg13) := by
  unfold layer3; after_results_simp <;> rfl
theorem layer3_keeps_arg14 (X : Valuation τ sig (Elt F)) :
    after (layer3 (F := F)) X (Proc.devRef .tc main_arg14) = X (Proc.devRef .tc main_arg14) := by
  unfold layer3; after_results_simp <;> rfl
theorem layer3_keeps_arg15 (X : Valuation τ sig (Elt F)) :
    after (layer3 (F := F)) X (Proc.devRef .tc main_arg15) = X (Proc.devRef .tc main_arg15) := by
  unfold layer3; after_results_simp <;> rfl
theorem layer3_keeps_v41 (X : Valuation τ sig (Elt F)) :
    after (layer3 (F := F)) X (Proc.devRef .tc main_v41) = X (Proc.devRef .tc main_v41) := by
  unfold layer3; after_results_simp <;> rfl
theorem layer3_keeps_v83 (X : Valuation τ sig (Elt F)) :
    after (layer3 (F := F)) X (Proc.devRef .tc main_v83) = X (Proc.devRef .tc main_v83) := by
  unfold layer3; after_results_simp <;> rfl

/-- The joined result. -/
theorem join_v126 (X : Valuation τ sig (Elt F))
    (h41 : X (Proc.devRef .tc main_v41) = val_main_v41 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg14)) (X (Proc.devRef .tc main_arg15)))
    (h83 : X (Proc.devRef .tc main_v83) = val_main_v83 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg14)) (X (Proc.devRef .tc main_arg15)))
    (h125 : X (Proc.devRef .tc main_v125) = val_main_v125 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15))) :
    after (join (F := F)) X (Proc.devRef .tc main_v126) = val_main_v126 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) := by
  have e : after (join (F := F)) X (Proc.devRef .tc main_v126)
      = concatenate S170000x176 1
          [⟨S170000x64, X (Proc.devRef .tc main_arg0)⟩, ⟨S170000x64, X (Proc.devRef .tc main_v41)⟩,
           ⟨S170000x32, X (Proc.devRef .tc main_v83)⟩, ⟨S170000x16, X (Proc.devRef .tc main_v125)⟩]
          concatenates_S170000x64_S170000x64_S170000x32_S170000x16_S170000x176_d1 := by
    unfold join; after_results_simp <;> rfl
  rw [e, h41, h83, h125]; rfl

end Cert.ReferenceIdeal.RefAfter3

end
-- ==== Proof.RefAfter.lean ====
/-
  The reference's whole list of host operations is its three layers' stretches and the final join, one after the
  other, so the contents after the list are the contents after the stretches in turn. Chaining what each stretch
  leaves (each stated over an arbitrary valuation before it): after the whole list the result buffer holds the last
  stage of ReadP read at the argument arrays the list started from, and every argument array is as it started.
-/
import proofs.«115229_j70806830842640_2_alg».proof.Proof.RefAfter1
import proofs.«115229_j70806830842640_2_alg».proof.Proof.RefAfter2
import proofs.«115229_j70806830842640_2_alg».proof.Proof.RefAfter3

noncomputable section

namespace Cert.ReferenceIdeal.RefAfter

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RefAfter1 Cert.ReferenceIdeal.RefAfter2 Cert.ReferenceIdeal.RefAfter3

variable {F : FTy → Type} [FloatOps F]

set_option maxRecDepth 8192 in
/-- The operation list is the four stretches in order. -/
theorem ops_eq : (ValueP.ops : List (HloOp τ sig (Elt F))) = layer1 ++ (layer2 ++ (layer3 ++ join)) := rfl

/-! The join writes no argument array. -/
theorem join_keeps_arg0 (X : Valuation τ sig (Elt F)) :
    after (join (F := F)) X (Proc.devRef .tc main_arg0) = X (Proc.devRef .tc main_arg0) := by
  unfold join; after_results_simp <;> rfl
theorem join_keeps_arg1 (X : Valuation τ sig (Elt F)) :
    after (join (F := F)) X (Proc.devRef .tc main_arg1) = X (Proc.devRef .tc main_arg1) := by
  unfold join; after_results_simp <;> rfl
theorem join_keeps_arg2 (X : Valuation τ sig (Elt F)) :
    after (join (F := F)) X (Proc.devRef .tc main_arg2) = X (Proc.devRef .tc main_arg2) := by
  unfold join; after_results_simp <;> rfl
theorem join_keeps_arg3 (X : Valuation τ sig (Elt F)) :
    after (join (F := F)) X (Proc.devRef .tc main_arg3) = X (Proc.devRef .tc main_arg3) := by
  unfold join; after_results_simp <;> rfl
theorem join_keeps_arg4 (X : Valuation τ sig (Elt F)) :
    after (join (F := F)) X (Proc.devRef .tc main_arg4) = X (Proc.devRef .tc main_arg4) := by
  unfold join; after_results_simp <;> rfl
theorem join_keeps_arg5 (X : Valuation τ sig (Elt F)) :
    after (join (F := F)) X (Proc.devRef .tc main_arg5) = X (Proc.devRef .tc main_arg5) := by
  unfold join; after_results_simp <;> rfl
theorem join_keeps_arg6 (X : Valuation τ sig (Elt F)) :
    after (join (F := F)) X (Proc.devRef .tc main_arg6) = X (Proc.devRef .tc main_arg6) := by
  unfold join; after_results_simp <;> rfl
theorem join_keeps_arg7 (X : Valuation τ sig (Elt F)) :
    after (join (F := F)) X (Proc.devRef .tc main_arg7) = X (Proc.devRef .tc main_arg7) := by
  unfold join; after_results_simp <;> rfl
theorem join_keeps_arg8 (X : Valuation τ sig (Elt F)) :
    after (join (F := F)) X (Proc.devRef .tc main_arg8) = X (Proc.devRef .tc main_arg8) := by
  unfold join; after_results_simp <;> rfl
theorem join_keeps_arg9 (X : Valuation τ sig (Elt F)) :
    after (join (F := F)) X (Proc.devRef .tc main_arg9) = X (Proc.devRef .tc main_arg9) := by
  unfold join; after_results_simp <;> rfl
theorem join_keeps_arg10 (X : Valuation τ sig (Elt F)) :
    after (join (F := F)) X (Proc.devRef .tc main_arg10) = X (Proc.devRef .tc main_arg10) := by
  unfold join; after_results_simp <;> rfl
theorem join_keeps_arg11 (X : Valuation τ sig (Elt F)) :
    after (join (F := F)) X (Proc.devRef .tc main_arg11) = X (Proc.devRef .tc main_arg11) := by
  unfold join; after_results_simp <;> rfl
theorem join_keeps_arg12 (X : Valuation τ sig (Elt F)) :
    after (join (F := F)) X (Proc.devRef .tc main_arg12) = X (Proc.devRef .tc main_arg12) := by
  unfold join; after_results_simp <;> rfl
theorem join_keeps_arg13 (X : Valuation τ sig (Elt F)) :
    after (join (F := F)) X (Proc.devRef .tc main_arg13) = X (Proc.devRef .tc main_arg13) := by
  unfold join; after_results_simp <;> rfl
theorem join_keeps_arg14 (X : Valuation τ sig (Elt F)) :
    after (join (F := F)) X (Proc.devRef .tc main_arg14) = X (Proc.devRef .tc main_arg14) := by
  unfold join; after_results_simp <;> rfl
theorem join_keeps_arg15 (X : Valuation τ sig (Elt F)) :
    after (join (F := F)) X (Proc.devRef .tc main_arg15) = X (Proc.devRef .tc main_arg15) := by
  unfold join; after_results_simp <;> rfl

/-! No operation of the list writes an argument array. -/
theorem after_ops_arg0 (V : Valuation τ sig (Elt F)) :
    after (ValueP.ops (F := F)) V (Proc.devRef .tc main_arg0) = V (Proc.devRef .tc main_arg0) := by
  rw [ops_eq, after_append, after_append, after_append, join_keeps_arg0, layer3_keeps_arg0, layer2_keeps_arg0, layer1_keeps_arg0]
theorem after_ops_arg1 (V : Valuation τ sig (Elt F)) :
    after (ValueP.ops (F := F)) V (Proc.devRef .tc main_arg1) = V (Proc.devRef .tc main_arg1) := by
  rw [ops_eq, after_append, after_append, after_append, join_keeps_arg1, layer3_keeps_arg1, layer2_keeps_arg1, layer1_keeps_arg1]
theorem after_ops_arg2 (V : Valuation τ sig (Elt F)) :
    after (ValueP.ops (F := F)) V (Proc.devRef .tc main_arg2) = V (Proc.devRef .tc main_arg2) := by
  rw [ops_eq, after_append, after_append, after_append, join_keeps_arg2, layer3_keeps_arg2, layer2_keeps_arg2, layer1_keeps_arg2]
theorem after_ops_arg3 (V : Valuation τ sig (Elt F)) :
    after (ValueP.ops (F := F)) V (Proc.devRef .tc main_arg3) = V (Proc.devRef .tc main_arg3) := by
  rw [ops_eq, after_append, after_append, after_append, join_keeps_arg3, layer3_keeps_arg3, layer2_keeps_arg3, layer1_keeps_arg3]
theorem after_ops_arg4 (V : Valuation τ sig (Elt F)) :
    after (ValueP.ops (F := F)) V (Proc.devRef .tc main_arg4) = V (Proc.devRef .tc main_arg4) := by
  rw [ops_eq, after_append, after_append, after_append, join_keeps_arg4, layer3_keeps_arg4, layer2_keeps_arg4, layer1_keeps_arg4]
theorem after_ops_arg5 (V : Valuation τ sig (Elt F)) :
    after (ValueP.ops (F := F)) V (Proc.devRef .tc main_arg5) = V (Proc.devRef .tc main_arg5) := by
  rw [ops_eq, after_append, after_append, after_append, join_keeps_arg5, layer3_keeps_arg5, layer2_keeps_arg5, layer1_keeps_arg5]
theorem after_ops_arg6 (V : Valuation τ sig (Elt F)) :
    after (ValueP.ops (F := F)) V (Proc.devRef .tc main_arg6) = V (Proc.devRef .tc main_arg6) := by
  rw [ops_eq, after_append, after_append, after_append, join_keeps_arg6, layer3_keeps_arg6, layer2_keeps_arg6, layer1_keeps_arg6]
theorem after_ops_arg7 (V : Valuation τ sig (Elt F)) :
    after (ValueP.ops (F := F)) V (Proc.devRef .tc main_arg7) = V (Proc.devRef .tc main_arg7) := by
  rw [ops_eq, after_append, after_append, after_append, join_keeps_arg7, layer3_keeps_arg7, layer2_keeps_arg7, layer1_keeps_arg7]
theorem after_ops_arg8 (V : Valuation τ sig (Elt F)) :
    after (ValueP.ops (F := F)) V (Proc.devRef .tc main_arg8) = V (Proc.devRef .tc main_arg8) := by
  rw [ops_eq, after_append, after_append, after_append, join_keeps_arg8, layer3_keeps_arg8, layer2_keeps_arg8, layer1_keeps_arg8]
theorem after_ops_arg9 (V : Valuation τ sig (Elt F)) :
    after (ValueP.ops (F := F)) V (Proc.devRef .tc main_arg9) = V (Proc.devRef .tc main_arg9) := by
  rw [ops_eq, after_append, after_append, after_append, join_keeps_arg9, layer3_keeps_arg9, layer2_keeps_arg9, layer1_keeps_arg9]
theorem after_ops_arg10 (V : Valuation τ sig (Elt F)) :
    after (ValueP.ops (F := F)) V (Proc.devRef .tc main_arg10) = V (Proc.devRef .tc main_arg10) := by
  rw [ops_eq, after_append, after_append, after_append, join_keeps_arg10, layer3_keeps_arg10, layer2_keeps_arg10, layer1_keeps_arg10]
theorem after_ops_arg11 (V : Valuation τ sig (Elt F)) :
    after (ValueP.ops (F := F)) V (Proc.devRef .tc main_arg11) = V (Proc.devRef .tc main_arg11) := by
  rw [ops_eq, after_append, after_append, after_append, join_keeps_arg11, layer3_keeps_arg11, layer2_keeps_arg11, layer1_keeps_arg11]
theorem after_ops_arg12 (V : Valuation τ sig (Elt F)) :
    after (ValueP.ops (F := F)) V (Proc.devRef .tc main_arg12) = V (Proc.devRef .tc main_arg12) := by
  rw [ops_eq, after_append, after_append, after_append, join_keeps_arg12, layer3_keeps_arg12, layer2_keeps_arg12, layer1_keeps_arg12]
theorem after_ops_arg13 (V : Valuation τ sig (Elt F)) :
    after (ValueP.ops (F := F)) V (Proc.devRef .tc main_arg13) = V (Proc.devRef .tc main_arg13) := by
  rw [ops_eq, after_append, after_append, after_append, join_keeps_arg13, layer3_keeps_arg13, layer2_keeps_arg13, layer1_keeps_arg13]
theorem after_ops_arg14 (V : Valuation τ sig (Elt F)) :
    after (ValueP.ops (F := F)) V (Proc.devRef .tc main_arg14) = V (Proc.devRef .tc main_arg14) := by
  rw [ops_eq, after_append, after_append, after_append, join_keeps_arg14, layer3_keeps_arg14, layer2_keeps_arg14, layer1_keeps_arg14]
theorem after_ops_arg15 (V : Valuation τ sig (Elt F)) :
    after (ValueP.ops (F := F)) V (Proc.devRef .tc main_arg15) = V (Proc.devRef .tc main_arg15) := by
  rw [ops_eq, after_append, after_append, after_append, join_keeps_arg15, layer3_keeps_arg15, layer2_keeps_arg15, layer1_keeps_arg15]

/-- After the whole list the result buffer holds the last stage at the starting argument arrays. -/
theorem after_ops (V : Valuation τ sig (Elt F)) :
    after (ValueP.ops (F := F)) V (Proc.devRef .tc main_v126) = val_main_v126 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have h33 : (after (layer1 (F := F)) V) (Proc.devRef .tc main_v33) = val_main_v33 (F := F) ((after (layer1 (F := F)) V) (Proc.devRef .tc main_arg0)) ((after (layer1 (F := F)) V) (Proc.devRef .tc main_arg1)) ((after (layer1 (F := F)) V) (Proc.devRef .tc main_arg2)) ((after (layer1 (F := F)) V) (Proc.devRef .tc main_arg3)) ((after (layer1 (F := F)) V) (Proc.devRef .tc main_arg4)) ((after (layer1 (F := F)) V) (Proc.devRef .tc main_arg5)) ((after (layer1 (F := F)) V) (Proc.devRef .tc main_arg14)) ((after (layer1 (F := F)) V) (Proc.devRef .tc main_arg15)) := by
    rw [layer1_keeps_arg0, layer1_keeps_arg1, layer1_keeps_arg2, layer1_keeps_arg3, layer1_keeps_arg4, layer1_keeps_arg5, layer1_keeps_arg14, layer1_keeps_arg15]
    exact layer1_v33 V
  have h41 : (after (layer1 (F := F)) V) (Proc.devRef .tc main_v41) = val_main_v41 (F := F) ((after (layer1 (F := F)) V) (Proc.devRef .tc main_arg0)) ((after (layer1 (F := F)) V) (Proc.devRef .tc main_arg1)) ((after (layer1 (F := F)) V) (Proc.devRef .tc main_arg2)) ((after (layer1 (F := F)) V) (Proc.devRef .tc main_arg3)) ((after (layer1 (F := F)) V) (Proc.devRef .tc main_arg4)) ((after (layer1 (F := F)) V) (Proc.devRef .tc main_arg5)) ((after (layer1 (F := F)) V) (Proc.devRef .tc main_arg14)) ((after (layer1 (F := F)) V) (Proc.devRef .tc main_arg15)) := by
    rw [layer1_keeps_arg0, layer1_keeps_arg1, layer1_keeps_arg2, layer1_keeps_arg3, layer1_keeps_arg4, layer1_keeps_arg5, layer1_keeps_arg14, layer1_keeps_arg15]
    exact layer1_v41 V
  have h75 : (after (layer2 (F := F)) (after (layer1 (F := F)) V)) (Proc.devRef .tc main_v75) = val_main_v75 (F := F) ((after (layer2 (F := F)) (after (layer1 (F := F)) V)) (Proc.devRef .tc main_arg0)) ((after (layer2 (F := F)) (after (layer1 (F := F)) V)) (Proc.devRef .tc main_arg1)) ((after (layer2 (F := F)) (after (layer1 (F := F)) V)) (Proc.devRef .tc main_arg2)) ((after (layer2 (F := F)) (after (layer1 (F := F)) V)) (Proc.devRef .tc main_arg3)) ((after (layer2 (F := F)) (after (layer1 (F := F)) V)) (Proc.devRef .tc main_arg4)) ((after (layer2 (F := F)) (after (layer1 (F := F)) V)) (Proc.devRef .tc main_arg5)) ((after (layer2 (F := F)) (after (layer1 (F := F)) V)) (Proc.devRef .tc main_arg6)) ((after (layer2 (F := F)) (after (layer1 (F := F)) V)) (Proc.devRef .tc main_arg7)) ((after (layer2 (F := F)) (after (layer1 (F := F)) V)) (Proc.devRef .tc main_arg8)) ((after (layer2 (F := F)) (after (layer1 (F := F)) V)) (Proc.devRef .tc main_arg9)) ((after (layer2 (F := F)) (after (layer1 (F := F)) V)) (Proc.devRef .tc main_arg14)) ((after (layer2 (F := F)) (after (layer1 (F := F)) V)) (Proc.devRef .tc main_arg15)) := by
    rw [layer2_keeps_arg0, layer2_keeps_arg1, layer2_keeps_arg2, layer2_keeps_arg3, layer2_keeps_arg4, layer2_keeps_arg5, layer2_keeps_arg6, layer2_keeps_arg7, layer2_keeps_arg8, layer2_keeps_arg9, layer2_keeps_arg14, layer2_keeps_arg15]
    exact layer2_v75 _ h33
  have h83 : (after (layer2 (F := F)) (after (layer1 (F := F)) V)) (Proc.devRef .tc main_v83) = val_main_v83 (F := F) ((after (layer2 (F := F)) (after (layer1 (F := F)) V)) (Proc.devRef .tc main_arg0)) ((after (layer2 (F := F)) (after (layer1 (F := F)) V)) (Proc.devRef .tc main_arg1)) ((after (layer2 (F := F)) (after (layer1 (F := F)) V)) (Proc.devRef .tc main_arg2)) ((after (layer2 (F := F)) (after (layer1 (F := F)) V)) (Proc.devRef .tc main_arg3)) ((after (layer2 (F := F)) (after (layer1 (F := F)) V)) (Proc.devRef .tc main_arg4)) ((after (layer2 (F := F)) (after (layer1 (F := F)) V)) (Proc.devRef .tc main_arg5)) ((after (layer2 (F := F)) (after (layer1 (F := F)) V)) (Proc.devRef .tc main_arg6)) ((after (layer2 (F := F)) (after (layer1 (F := F)) V)) (Proc.devRef .tc main_arg7)) ((after (layer2 (F := F)) (after (layer1 (F := F)) V)) (Proc.devRef .tc main_arg8)) ((after (layer2 (F := F)) (after (layer1 (F := F)) V)) (Proc.devRef .tc main_arg9)) ((after (layer2 (F := F)) (after (layer1 (F := F)) V)) (Proc.devRef .tc main_arg14)) ((after (layer2 (F := F)) (after (layer1 (F := F)) V)) (Proc.devRef .tc main_arg15)) := by
    rw [layer2_keeps_arg0, layer2_keeps_arg1, layer2_keeps_arg2, layer2_keeps_arg3, layer2_keeps_arg4, layer2_keeps_arg5, layer2_keeps_arg6, layer2_keeps_arg7, layer2_keeps_arg8, layer2_keeps_arg9, layer2_keeps_arg14, layer2_keeps_arg15]
    exact layer2_v83 _ h33
  have h41' : (after (layer2 (F := F)) (after (layer1 (F := F)) V)) (Proc.devRef .tc main_v41) = val_main_v41 (F := F) ((after (layer2 (F := F)) (after (layer1 (F := F)) V)) (Proc.devRef .tc main_arg0)) ((after (layer2 (F := F)) (after (layer1 (F := F)) V)) (Proc.devRef .tc main_arg1)) ((after (layer2 (F := F)) (after (layer1 (F := F)) V)) (Proc.devRef .tc main_arg2)) ((after (layer2 (F := F)) (after (layer1 (F := F)) V)) (Proc.devRef .tc main_arg3)) ((after (layer2 (F := F)) (after (layer1 (F := F)) V)) (Proc.devRef .tc main_arg4)) ((after (layer2 (F := F)) (after (layer1 (F := F)) V)) (Proc.devRef .tc main_arg5)) ((after (layer2 (F := F)) (after (layer1 (F := F)) V)) (Proc.devRef .tc main_arg14)) ((after (layer2 (F := F)) (after (layer1 (F := F)) V)) (Proc.devRef .tc main_arg15)) := by
    rw [layer2_keeps_v41, layer2_keeps_arg0, layer2_keeps_arg1, layer2_keeps_arg2, layer2_keeps_arg3, layer2_keeps_arg4, layer2_keeps_arg5, layer2_keeps_arg14, layer2_keeps_arg15]
    exact h41
  have h125 : (after (layer3 (F := F)) (after (layer2 (F := F)) (after (layer1 (F := F)) V))) (Proc.devRef .tc main_v125) = val_main_v125 (F := F) ((after (layer3 (F := F)) (after (layer2 (F := F)) (after (layer1 (F := F)) V))) (Proc.devRef .tc main_arg0)) ((after (layer3 (F := F)) (after (layer2 (F := F)) (after (layer1 (F := F)) V))) (Proc.devRef .tc main_arg1)) ((after (layer3 (F := F)) (after (layer2 (F := F)) (after (layer1 (F := F)) V))) (Proc.devRef .tc main_arg2)) ((after (layer3 (F := F)) (after (layer2 (F := F)) (after (layer1 (F := F)) V))) (Proc.devRef .tc main_arg3)) ((after (layer3 (F := F)) (after (layer2 (F := F)) (after (layer1 (F := F)) V))) (Proc.devRef .tc main_arg4)) ((after (layer3 (F := F)) (after (layer2 (F := F)) (after (layer1 (F := F)) V))) (Proc.devRef .tc main_arg5)) ((after (layer3 (F := F)) (after (layer2 (F := F)) (after (layer1 (F := F)) V))) (Proc.devRef .tc main_arg6)) ((after (layer3 (F := F)) (after (layer2 (F := F)) (after (layer1 (F := F)) V))) (Proc.devRef .tc main_arg7)) ((after (layer3 (F := F)) (after (layer2 (F := F)) (after (layer1 (F := F)) V))) (Proc.devRef .tc main_arg8)) ((after (layer3 (F := F)) (after (layer2 (F := F)) (after (layer1 (F := F)) V))) (Proc.devRef .tc main_arg9)) ((after (layer3 (F := F)) (after (layer2 (F := F)) (after (layer1 (F := F)) V))) (Proc.devRef .tc main_arg10)) ((after (layer3 (F := F)) (after (layer2 (F := F)) (after (layer1 (F := F)) V))) (Proc.devRef .tc main_arg11)) ((after (layer3 (F := F)) (after (layer2 (F := F)) (after (layer1 (F := F)) V))) (Proc.devRef .tc main_arg12)) ((after (layer3 (F := F)) (after (layer2 (F := F)) (after (layer1 (F := F)) V))) (Proc.devRef .tc main_arg13)) ((after (layer3 (F := F)) (after (layer2 (F := F)) (after (layer1 (F := F)) V))) (Proc.devRef .tc main_arg14)) ((after (layer3 (F := F)) (after (layer2 (F := F)) (after (layer1 (F := F)) V))) (Proc.devRef .tc main_arg15)) := by
    rw [layer3_keeps_arg0, layer3_keeps_arg1, layer3_keeps_arg2, layer3_keeps_arg3, layer3_keeps_arg4, layer3_keeps_arg5, layer3_keeps_arg6, layer3_keeps_arg7, layer3_keeps_arg8, layer3_keeps_arg9, layer3_keeps_arg10, layer3_keeps_arg11, layer3_keeps_arg12, layer3_keeps_arg13, layer3_keeps_arg14, layer3_keeps_arg15]
    exact layer3_v125 _ h75
  have h83' : (after (layer3 (F := F)) (after (layer2 (F := F)) (after (layer1 (F := F)) V))) (Proc.devRef .tc main_v83) = val_main_v83 (F := F) ((after (layer3 (F := F)) (after (layer2 (F := F)) (after (layer1 (F := F)) V))) (Proc.devRef .tc main_arg0)) ((after (layer3 (F := F)) (after (layer2 (F := F)) (after (layer1 (F := F)) V))) (Proc.devRef .tc main_arg1)) ((after (layer3 (F := F)) (after (layer2 (F := F)) (after (layer1 (F := F)) V))) (Proc.devRef .tc main_arg2)) ((after (layer3 (F := F)) (after (layer2 (F := F)) (after (layer1 (F := F)) V))) (Proc.devRef .tc main_arg3)) ((after (layer3 (F := F)) (after (layer2 (F := F)) (after (layer1 (F := F)) V))) (Proc.devRef .tc main_arg4)) ((after (layer3 (F := F)) (after (layer2 (F := F)) (after (layer1 (F := F)) V))) (Proc.devRef .tc main_arg5)) ((after (layer3 (F := F)) (after (layer2 (F := F)) (after (layer1 (F := F)) V))) (Proc.devRef .tc main_arg6)) ((after (layer3 (F := F)) (after (layer2 (F := F)) (after (layer1 (F := F)) V))) (Proc.devRef .tc main_arg7)) ((after (layer3 (F := F)) (after (layer2 (F := F)) (after (layer1 (F := F)) V))) (Proc.devRef .tc main_arg8)) ((after (layer3 (F := F)) (after (layer2 (F := F)) (after (layer1 (F := F)) V))) (Proc.devRef .tc main_arg9)) ((after (layer3 (F := F)) (after (layer2 (F := F)) (after (layer1 (F := F)) V))) (Proc.devRef .tc main_arg14)) ((after (layer3 (F := F)) (after (layer2 (F := F)) (after (layer1 (F := F)) V))) (Proc.devRef .tc main_arg15)) := by
    rw [layer3_keeps_v83, layer3_keeps_arg0, layer3_keeps_arg1, layer3_keeps_arg2, layer3_keeps_arg3, layer3_keeps_arg4, layer3_keeps_arg5, layer3_keeps_arg6, layer3_keeps_arg7, layer3_keeps_arg8, layer3_keeps_arg9, layer3_keeps_arg14, layer3_keeps_arg15]
    exact h83
  have h41'' : (after (layer3 (F := F)) (after (layer2 (F := F)) (after (layer1 (F := F)) V))) (Proc.devRef .tc main_v41) = val_main_v41 (F := F) ((after (layer3 (F := F)) (after (layer2 (F := F)) (after (layer1 (F := F)) V))) (Proc.devRef .tc main_arg0)) ((after (layer3 (F := F)) (after (layer2 (F := F)) (after (layer1 (F := F)) V))) (Proc.devRef .tc main_arg1)) ((after (layer3 (F := F)) (after (layer2 (F := F)) (after (layer1 (F := F)) V))) (Proc.devRef .tc main_arg2)) ((after (layer3 (F := F)) (after (layer2 (F := F)) (after (layer1 (F := F)) V))) (Proc.devRef .tc main_arg3)) ((after (layer3 (F := F)) (after (layer2 (F := F)) (after (layer1 (F := F)) V))) (Proc.devRef .tc main_arg4)) ((after (layer3 (F := F)) (after (layer2 (F := F)) (after (layer1 (F := F)) V))) (Proc.devRef .tc main_arg5)) ((after (layer3 (F := F)) (after (layer2 (F := F)) (after (layer1 (F := F)) V))) (Proc.devRef .tc main_arg14)) ((after (layer3 (F := F)) (after (layer2 (F := F)) (after (layer1 (F := F)) V))) (Proc.devRef .tc main_arg15)) := by
    rw [layer3_keeps_v41, layer3_keeps_arg0, layer3_keeps_arg1, layer3_keeps_arg2, layer3_keeps_arg3, layer3_keeps_arg4, layer3_keeps_arg5, layer3_keeps_arg14, layer3_keeps_arg15]
    exact h41'
  rw [ops_eq, after_append, after_append, after_append]
  refine (join_v126 _ h41'' h83' h125).trans ?_
  rw [layer3_keeps_arg0, layer3_keeps_arg1, layer3_keeps_arg2, layer3_keeps_arg3, layer3_keeps_arg4, layer3_keeps_arg5, layer3_keeps_arg6, layer3_keeps_arg7, layer3_keeps_arg8, layer3_keeps_arg9, layer3_keeps_arg10, layer3_keeps_arg11, layer3_keeps_arg12, layer3_keeps_arg13, layer3_keeps_arg14, layer3_keeps_arg15, layer2_keeps_arg0, layer2_keeps_arg1, layer2_keeps_arg2, layer2_keeps_arg3, layer2_keeps_arg4, layer2_keeps_arg5, layer2_keeps_arg6, layer2_keeps_arg7, layer2_keeps_arg8, layer2_keeps_arg9, layer2_keeps_arg10, layer2_keeps_arg11, layer2_keeps_arg12, layer2_keeps_arg13, layer2_keeps_arg14, layer2_keeps_arg15, layer1_keeps_arg0, layer1_keeps_arg1, layer1_keeps_arg2, layer1_keeps_arg3, layer1_keeps_arg4, layer1_keeps_arg5, layer1_keeps_arg6, layer1_keeps_arg7, layer1_keeps_arg8, layer1_keeps_arg9, layer1_keeps_arg10, layer1_keeps_arg11, layer1_keeps_arg12, layer1_keeps_arg13, layer1_keeps_arg14, layer1_keeps_arg15]

end Cert.ReferenceIdeal.RefAfter

end
-- ==== Proof.RefLayer1.lean ====
/-
  The reference's first layer: from the input embeddings to the first new and normalised embeddings.

  The stage that aggregates over the edges is the sparse product of Target.lean by unfolding alone (its gather,
  product and accumulating scatter are the reference's own operations, never opened). The new embeddings, read at a
  node r and a feature j, are the two leaky affine images of e + s and e ∗ s of Spec.lean: each matrix product is the
  sum over the 64 input features of row r of the left operand times column j of the weights, the bias is
  broadcast along the nodes, and the choice between x and slope · x is the comparison against the zero word. The
  normalised embeddings divide by the larger of the row's Euclidean length and the floor word; the sum of squares
  starts from the zero word, which is the extended real 0.
-/
import proofs.«115229_j70806830842640_2_alg».proof.Proof.ReadP
import proofs.«115229_j70806830842640_2_alg».proof.Proof.Target

noncomputable section

open scoped BigOperators

namespace Cert.ReferenceIdeal.RefLayer1

open Cert.ReferenceIdeal Cert.ReferenceIdeal.Gen Idealize.ShloMosaic Idealize.ShloMosaic.ValueIdx Cert.ReferenceIdeal.ReadP Cert.BiInteraction

variable [Cert.ReferenceIdeal.Facts]

/-! ## Where the stages read their operands -/

theorem lhs_sum (r : Fin 170000) (j : Fin 64) (k : Fin 64) : lidx_main_v14 (ix2 r j) k = ix2 r k :=
  funext fun a => Fin.ext (by match a with | ⟨0, _⟩ => rfl | ⟨1, _⟩ => rfl)
theorem rhs_sum (r : Fin 170000) (j : Fin 64) (k : Fin 64) : ridx_main_v14 (ix2 r j) k = ix2 k j :=
  funext fun a => Fin.ext (by match a with | ⟨0, _⟩ => rfl | ⟨1, _⟩ => rfl)
theorem bias_sum (r : Fin 170000) (j : Fin 64) : idx_main_v15 (idx_main_v16 (ix2 r j)) = ix1 j :=
  funext fun a => Fin.ext (by match a with | ⟨0, _⟩ => rfl)
theorem lhs_prod (r : Fin 170000) (j : Fin 64) (k : Fin 64) : lidx_main_v24 (ix2 r j) k = ix2 r k :=
  funext fun a => Fin.ext (by match a with | ⟨0, _⟩ => rfl | ⟨1, _⟩ => rfl)
theorem rhs_prod (r : Fin 170000) (j : Fin 64) (k : Fin 64) : ridx_main_v24 (ix2 r j) k = ix2 k j :=
  funext fun a => Fin.ext (by match a with | ⟨0, _⟩ => rfl | ⟨1, _⟩ => rfl)
theorem bias_prod (r : Fin 170000) (j : Fin 64) : idx_main_v25 (idx_main_v26 (ix2 r j)) = ix1 j :=
  funext fun a => Fin.ext (by match a with | ⟨0, _⟩ => rfl)
theorem row_sq (r : Fin 170000) (j k : Fin 64) :
    idx_main_v35 (idx_main_v36 (idx_main_v40 (ix2 r j))) k = ix2 r k :=
  funext fun a => Fin.ext (by match a with | ⟨0, _⟩ => rfl | ⟨1, _⟩ => rfl)

/-! ## The three stages -/

/-- The aggregation stage is the sparse matrix times the previous embeddings. -/
theorem agg_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x14 : (⟨S2720000, .i32⟩ : BufTy).Contents (Elt Ideal)) (x15 : (⟨S2720000, .i32⟩ : BufTy).Contents (Elt Ideal)) :
    val_main_v12 (F := Ideal) x0 x1 x14 x15 = Cert.Target.agg64 (x0) x1 x14 x15 := rfl

/-- The new embeddings are the bi-interaction of the previous embeddings and their aggregation. -/
theorem ego_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x14 : (⟨S2720000, .i32⟩ : BufTy).Contents (Elt Ideal)) (x15 : (⟨S2720000, .i32⟩ : BufTy).Contents (Elt Ideal)) :
    val_main_v33 (F := Ideal) x0 x1 x2 x3 x4 x5 x14 x15
      = egoNew (N := 170000) (D := 64) (D' := 64) (x0) (val_main_v12 (F := Ideal) x0 x1 x14 x15) x2 x3 x4 x5 := by
  funext i
  obtain ⟨r, j, rfl⟩ : ∃ (r : Fin 170000) (j : Fin 64), i = ix2 r j := ⟨i 0, i 1, eq_ix2 i⟩
  simp only [val_main_v33_apply, val_main_v22_apply, val_main_v19_apply, val_main_v21_apply, val_main_v20_apply, val_main_v18_apply, val_main_v17_apply, val_main_v16_apply, val_main_v15_apply, val_main_v14_apply, val_main_v13_apply, val_main_v32_apply, val_main_v29_apply, val_main_v31_apply, val_main_v30_apply, val_main_v28_apply, val_main_v27_apply, val_main_v26_apply, val_main_v25_apply, val_main_v24_apply, val_main_v23_apply,
    val_main_cst_2_apply, val_main_cst_1_apply, val_main_cst_4_apply, val_main_cst_3_apply,
    lhs_sum, rhs_sum, bias_sum, lhs_prod, rhs_prod, bias_prod,
    Ideal.addf_def, Ideal.mulf_def, Ideal.ofBits_def]
  rfl

/-- The normalised embeddings are the new embeddings with each row divided by its floored length. -/
theorem normed_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x14 : (⟨S2720000, .i32⟩ : BufTy).Contents (Elt Ideal)) (x15 : (⟨S2720000, .i32⟩ : BufTy).Contents (Elt Ideal)) :
    val_main_v41 (F := Ideal) x0 x1 x2 x3 x4 x5 x14 x15
      = normed (N := 170000) (D := 64) (val_main_v33 (F := Ideal) x0 x1 x2 x3 x4 x5 x14 x15) := by
  funext i
  obtain ⟨r, j, rfl⟩ : ∃ (r : Fin 170000) (j : Fin 64), i = ix2 r j := ⟨i 0, i 1, eq_ix2 i⟩
  simp only [val_main_v41_apply, val_main_v40_apply, val_main_v39_apply, val_main_v38_apply, val_main_v37_apply, val_main_v36_apply, val_main_v35_apply, val_main_v34_apply,
    val_main_cst_6_apply, val_main_cst_5_apply,
    row_sq, Ideal.hostDivf_def, Ideal.hostUnary_sqrt_def, Ideal.maximumf_def, Ideal.mulf_def, Ideal.addf_def, Ideal.ofBits_def,
    Ideal.ofBits_zero_f32, zero_add]
  rfl

end Cert.ReferenceIdeal.RefLayer1

end
-- ==== Proof.RefLayer2.lean ====
/-
  The reference's second layer: from the first new embeddings to the second new and normalised embeddings.

  The stage that aggregates over the edges is the sparse product of Target.lean by unfolding alone (its gather,
  product and accumulating scatter are the reference's own operations, never opened). The new embeddings, read at a
  node r and a feature j, are the two leaky affine images of e + s and e ∗ s of Spec.lean: each matrix product is the
  sum over the 64 input features of row r of the left operand times column j of the weights, the bias is
  broadcast along the nodes, and the choice between x and slope · x is the comparison against the zero word. The
  normalised embeddings divide by the larger of the row's Euclidean length and the floor word; the sum of squares
  starts from the zero word, which is the extended real 0.
-/
import proofs.«115229_j70806830842640_2_alg».proof.Proof.ReadP
import proofs.«115229_j70806830842640_2_alg».proof.Proof.Target

noncomputable section

open scoped BigOperators

namespace Cert.ReferenceIdeal.RefLayer2

open Cert.ReferenceIdeal Cert.ReferenceIdeal.Gen Idealize.ShloMosaic Idealize.ShloMosaic.ValueIdx Cert.ReferenceIdeal.ReadP Cert.BiInteraction

variable [Cert.ReferenceIdeal.Facts]

/-! ## Where the stages read their operands -/

theorem lhs_sum (r : Fin 170000) (j : Fin 32) (k : Fin 64) : lidx_main_v56 (ix2 r j) k = ix2 r k :=
  funext fun a => Fin.ext (by match a with | ⟨0, _⟩ => rfl | ⟨1, _⟩ => rfl)
theorem rhs_sum (r : Fin 170000) (j : Fin 32) (k : Fin 64) : ridx_main_v56 (ix2 r j) k = ix2 k j :=
  funext fun a => Fin.ext (by match a with | ⟨0, _⟩ => rfl | ⟨1, _⟩ => rfl)
theorem bias_sum (r : Fin 170000) (j : Fin 32) : idx_main_v57 (idx_main_v58 (ix2 r j)) = ix1 j :=
  funext fun a => Fin.ext (by match a with | ⟨0, _⟩ => rfl)
theorem lhs_prod (r : Fin 170000) (j : Fin 32) (k : Fin 64) : lidx_main_v66 (ix2 r j) k = ix2 r k :=
  funext fun a => Fin.ext (by match a with | ⟨0, _⟩ => rfl | ⟨1, _⟩ => rfl)
theorem rhs_prod (r : Fin 170000) (j : Fin 32) (k : Fin 64) : ridx_main_v66 (ix2 r j) k = ix2 k j :=
  funext fun a => Fin.ext (by match a with | ⟨0, _⟩ => rfl | ⟨1, _⟩ => rfl)
theorem bias_prod (r : Fin 170000) (j : Fin 32) : idx_main_v67 (idx_main_v68 (ix2 r j)) = ix1 j :=
  funext fun a => Fin.ext (by match a with | ⟨0, _⟩ => rfl)
theorem row_sq (r : Fin 170000) (j k : Fin 32) :
    idx_main_v77 (idx_main_v78 (idx_main_v82 (ix2 r j))) k = ix2 r k :=
  funext fun a => Fin.ext (by match a with | ⟨0, _⟩ => rfl | ⟨1, _⟩ => rfl)

/-! ## The three stages -/

/-- The aggregation stage is the sparse matrix times the previous embeddings. -/
theorem agg_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x14 : (⟨S2720000, .i32⟩ : BufTy).Contents (Elt Ideal)) (x15 : (⟨S2720000, .i32⟩ : BufTy).Contents (Elt Ideal)) :
    val_main_v54 (F := Ideal) x0 x1 x2 x3 x4 x5 x14 x15 = Cert.Target.agg64 (val_main_v33 (F := Ideal) x0 x1 x2 x3 x4 x5 x14 x15) x1 x14 x15 := rfl

/-- The new embeddings are the bi-interaction of the previous embeddings and their aggregation. -/
theorem ego_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x14 : (⟨S2720000, .i32⟩ : BufTy).Contents (Elt Ideal)) (x15 : (⟨S2720000, .i32⟩ : BufTy).Contents (Elt Ideal)) :
    val_main_v75 (F := Ideal) x0 x1 x2 x3 x4 x5 x6 x7 x8 x9 x14 x15
      = egoNew (N := 170000) (D := 64) (D' := 32) (val_main_v33 (F := Ideal) x0 x1 x2 x3 x4 x5 x14 x15) (val_main_v54 (F := Ideal) x0 x1 x2 x3 x4 x5 x14 x15) x6 x7 x8 x9 := by
  funext i
  obtain ⟨r, j, rfl⟩ : ∃ (r : Fin 170000) (j : Fin 32), i = ix2 r j := ⟨i 0, i 1, eq_ix2 i⟩
  simp only [val_main_v75_apply, val_main_v64_apply, val_main_v61_apply, val_main_v63_apply, val_main_v62_apply, val_main_v60_apply, val_main_v59_apply, val_main_v58_apply, val_main_v57_apply, val_main_v56_apply, val_main_v55_apply, val_main_v74_apply, val_main_v71_apply, val_main_v73_apply, val_main_v72_apply, val_main_v70_apply, val_main_v69_apply, val_main_v68_apply, val_main_v67_apply, val_main_v66_apply, val_main_v65_apply,
    val_main_cst_11_apply, val_main_cst_10_apply, val_main_cst_13_apply, val_main_cst_12_apply,
    lhs_sum, rhs_sum, bias_sum, lhs_prod, rhs_prod, bias_prod,
    Ideal.addf_def, Ideal.mulf_def, Ideal.ofBits_def]
  rfl

/-- The normalised embeddings are the new embeddings with each row divided by its floored length. -/
theorem normed_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x14 : (⟨S2720000, .i32⟩ : BufTy).Contents (Elt Ideal)) (x15 : (⟨S2720000, .i32⟩ : BufTy).Contents (Elt Ideal)) :
    val_main_v83 (F := Ideal) x0 x1 x2 x3 x4 x5 x6 x7 x8 x9 x14 x15
      = normed (N := 170000) (D := 32) (val_main_v75 (F := Ideal) x0 x1 x2 x3 x4 x5 x6 x7 x8 x9 x14 x15) := by
  funext i
  obtain ⟨r, j, rfl⟩ : ∃ (r : Fin 170000) (j : Fin 32), i = ix2 r j := ⟨i 0, i 1, eq_ix2 i⟩
  simp only [val_main_v83_apply, val_main_v82_apply, val_main_v81_apply, val_main_v80_apply, val_main_v79_apply, val_main_v78_apply, val_main_v77_apply, val_main_v76_apply,
    val_main_cst_15_apply, val_main_cst_14_apply,
    row_sq, Ideal.hostDivf_def, Ideal.hostUnary_sqrt_def, Ideal.maximumf_def, Ideal.mulf_def, Ideal.addf_def, Ideal.ofBits_def,
    Ideal.ofBits_zero_f32, zero_add]
  rfl

end Cert.ReferenceIdeal.RefLayer2

end
-- ==== Proof.RefLayer3.lean ====
/-
  The reference's third layer: from the second new embeddings to the third new and normalised embeddings.

  The stage that aggregates over the edges is the sparse product of Target.lean by unfolding alone (its gather,
  product and accumulating scatter are the reference's own operations, never opened). The new embeddings, read at a
  node r and a feature j, are the two leaky affine images of e + s and e ∗ s of Spec.lean: each matrix product is the
  sum over the 32 input features of row r of the left operand times column j of the weights, the bias is
  broadcast along the nodes, and the choice between x and slope · x is the comparison against the zero word. The
  normalised embeddings divide by the larger of the row's Euclidean length and the floor word; the sum of squares
  starts from the zero word, which is the extended real 0.
-/
import proofs.«115229_j70806830842640_2_alg».proof.Proof.ReadP
import proofs.«115229_j70806830842640_2_alg».proof.Proof.Target

noncomputable section

open scoped BigOperators

namespace Cert.ReferenceIdeal.RefLayer3

open Cert.ReferenceIdeal Cert.ReferenceIdeal.Gen Idealize.ShloMosaic Idealize.ShloMosaic.ValueIdx Cert.ReferenceIdeal.ReadP Cert.BiInteraction

variable [Cert.ReferenceIdeal.Facts]

/-! ## Where the stages read their operands -/

theorem lhs_sum (r : Fin 170000) (j : Fin 16) (k : Fin 32) : lidx_main_v98 (ix2 r j) k = ix2 r k :=
  funext fun a => Fin.ext (by match a with | ⟨0, _⟩ => rfl | ⟨1, _⟩ => rfl)
theorem rhs_sum (r : Fin 170000) (j : Fin 16) (k : Fin 32) : ridx_main_v98 (ix2 r j) k = ix2 k j :=
  funext fun a => Fin.ext (by match a with | ⟨0, _⟩ => rfl | ⟨1, _⟩ => rfl)
theorem bias_sum (r : Fin 170000) (j : Fin 16) : idx_main_v99 (idx_main_v100 (ix2 r j)) = ix1 j :=
  funext fun a => Fin.ext (by match a with | ⟨0, _⟩ => rfl)
theorem lhs_prod (r : Fin 170000) (j : Fin 16) (k : Fin 32) : lidx_main_v108 (ix2 r j) k = ix2 r k :=
  funext fun a => Fin.ext (by match a with | ⟨0, _⟩ => rfl | ⟨1, _⟩ => rfl)
theorem rhs_prod (r : Fin 170000) (j : Fin 16) (k : Fin 32) : ridx_main_v108 (ix2 r j) k = ix2 k j :=
  funext fun a => Fin.ext (by match a with | ⟨0, _⟩ => rfl | ⟨1, _⟩ => rfl)
theorem bias_prod (r : Fin 170000) (j : Fin 16) : idx_main_v109 (idx_main_v110 (ix2 r j)) = ix1 j :=
  funext fun a => Fin.ext (by match a with | ⟨0, _⟩ => rfl)
theorem row_sq (r : Fin 170000) (j k : Fin 16) :
    idx_main_v119 (idx_main_v120 (idx_main_v124 (ix2 r j))) k = ix2 r k :=
  funext fun a => Fin.ext (by match a with | ⟨0, _⟩ => rfl | ⟨1, _⟩ => rfl)

/-! ## The three stages -/

/-- The aggregation stage is the sparse matrix times the previous embeddings. -/
theorem agg_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S2720000, .i32⟩ : BufTy).Contents (Elt Ideal)) (x15 : (⟨S2720000, .i32⟩ : BufTy).Contents (Elt Ideal)) :
    val_main_v96 (F := Ideal) x0 x1 x2 x3 x4 x5 x6 x7 x8 x9 x14 x15 = Cert.Target.agg32 (val_main_v75 (F := Ideal) x0 x1 x2 x3 x4 x5 x6 x7 x8 x9 x14 x15) x1 x14 x15 := rfl

/-- The new embeddings are the bi-interaction of the previous embeddings and their aggregation. -/
theorem ego_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S2720000, .i32⟩ : BufTy).Contents (Elt Ideal)) (x15 : (⟨S2720000, .i32⟩ : BufTy).Contents (Elt Ideal)) :
    val_main_v117 (F := Ideal) x0 x1 x2 x3 x4 x5 x6 x7 x8 x9 x10 x11 x12 x13 x14 x15
      = egoNew (N := 170000) (D := 32) (D' := 16) (val_main_v75 (F := Ideal) x0 x1 x2 x3 x4 x5 x6 x7 x8 x9 x14 x15) (val_main_v96 (F := Ideal) x0 x1 x2 x3 x4 x5 x6 x7 x8 x9 x14 x15) x10 x11 x12 x13 := by
  funext i
  obtain ⟨r, j, rfl⟩ : ∃ (r : Fin 170000) (j : Fin 16), i = ix2 r j := ⟨i 0, i 1, eq_ix2 i⟩
  simp only [val_main_v117_apply, val_main_v106_apply, val_main_v103_apply, val_main_v105_apply, val_main_v104_apply, val_main_v102_apply, val_main_v101_apply, val_main_v100_apply, val_main_v99_apply, val_main_v98_apply, val_main_v97_apply, val_main_v116_apply, val_main_v113_apply, val_main_v115_apply, val_main_v114_apply, val_main_v112_apply, val_main_v111_apply, val_main_v110_apply, val_main_v109_apply, val_main_v108_apply, val_main_v107_apply,
    val_main_cst_20_apply, val_main_cst_19_apply, val_main_cst_22_apply, val_main_cst_21_apply,
    lhs_sum, rhs_sum, bias_sum, lhs_prod, rhs_prod, bias_prod,
    Ideal.addf_def, Ideal.mulf_def, Ideal.ofBits_def]
  rfl

/-- The normalised embeddings are the new embeddings with each row divided by its floored length. -/
theorem normed_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S2720000, .i32⟩ : BufTy).Contents (Elt Ideal)) (x15 : (⟨S2720000, .i32⟩ : BufTy).Contents (Elt Ideal)) :
    val_main_v125 (F := Ideal) x0 x1 x2 x3 x4 x5 x6 x7 x8 x9 x10 x11 x12 x13 x14 x15
      = normed (N := 170000) (D := 16) (val_main_v117 (F := Ideal) x0 x1 x2 x3 x4 x5 x6 x7 x8 x9 x10 x11 x12 x13 x14 x15) := by
  funext i
  obtain ⟨r, j, rfl⟩ : ∃ (r : Fin 170000) (j : Fin 16), i = ix2 r j := ⟨i 0, i 1, eq_ix2 i⟩
  simp only [val_main_v125_apply, val_main_v124_apply, val_main_v123_apply, val_main_v122_apply, val_main_v121_apply, val_main_v120_apply, val_main_v119_apply, val_main_v118_apply,
    val_main_cst_24_apply, val_main_cst_23_apply,
    row_sq, Ideal.hostDivf_def, Ideal.hostUnary_sqrt_def, Ideal.maximumf_def, Ideal.mulf_def, Ideal.addf_def, Ideal.ofBits_def,
    Ideal.ofBits_zero_f32, zero_add]
  rfl

end Cert.ReferenceIdeal.RefLayer3

end
-- ==== Proof.RefValue.lean ====
/-
  The reference computes the target: every weakly fair execution of its @main terminates with the result buffer at
  Target.lean's G of the argument arrays, and the argument arrays unchanged.

  The run of a straight line of host operations leaves every buffer at the fold of the operations over the launch
  contents. That fold, at the result buffer, is the last stage of ReadP at the launch's argument arrays (RefAfter.lean);
  and the stages are the target's: layer by layer the aggregation stage is the sparse product, the new embeddings are
  the bi-interaction of the previous embeddings and their aggregation, the normalised embeddings its row
  normalisation (RefLayer1/2/3.lean), and the last stage joins the input embeddings and the three normalised ones
  exactly as G does.
-/
import proofs.«115229_j70806830842640_2_alg».proof.Proof.RefAfter
import proofs.«115229_j70806830842640_2_alg».proof.Proof.RefLayer1
import proofs.«115229_j70806830842640_2_alg».proof.Proof.RefLayer2
import proofs.«115229_j70806830842640_2_alg».proof.Proof.RefLayer3
import proofs.«115229_j70806830842640_2_alg».proof.Proof.Target
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable [Cert.ReferenceIdeal.Facts]

/-! ## The stages are the target's -/

/-- The first new embeddings. -/
theorem e1_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x14 : (⟨S2720000, .i32⟩ : BufTy).Contents (Elt Ideal)) (x15 : (⟨S2720000, .i32⟩ : BufTy).Contents (Elt Ideal)) :
    val_main_v33 (F := Ideal) x0 x1 x2 x3 x4 x5 x14 x15 = Cert.Target.e1 x0 x1 x2 x3 x4 x5 x14 x15 := by
  rw [RefLayer1.ego_eq, RefLayer1.agg_eq x0 x1 x2 x3 x4 x5 x14 x15]; rfl

/-- The second new embeddings. -/
theorem e2_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x14 : (⟨S2720000, .i32⟩ : BufTy).Contents (Elt Ideal)) (x15 : (⟨S2720000, .i32⟩ : BufTy).Contents (Elt Ideal)) :
    val_main_v75 (F := Ideal) x0 x1 x2 x3 x4 x5 x6 x7 x8 x9 x14 x15 = Cert.Target.e2 x0 x1 x2 x3 x4 x5 x6 x7 x8 x9 x14 x15 := by
  rw [RefLayer2.ego_eq, RefLayer2.agg_eq x0 x1 x2 x3 x4 x5 x6 x7 x8 x9 x14 x15, e1_eq]; rfl

/-- The third new embeddings. -/
theorem e3_eq (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S2720000, .i32⟩ : BufTy).Contents (Elt Ideal)) (x15 : (⟨S2720000, .i32⟩ : BufTy).Contents (Elt Ideal)) :
    val_main_v117 (F := Ideal) x0 x1 x2 x3 x4 x5 x6 x7 x8 x9 x10 x11 x12 x13 x14 x15 = Cert.Target.e3 x0 x1 x2 x3 x4 x5 x6 x7 x8 x9 x10 x11 x12 x13 x14 x15 := by
  rw [RefLayer3.ego_eq, RefLayer3.agg_eq x0 x1 x2 x3 x4 x5 x6 x7 x8 x9 x10 x11 x12 x13 x14 x15, e2_eq]; rfl

/-- The last stage is the target. -/
theorem val_eq_G (x0 : (⟨S170000x64, .f32⟩ : BufTy).Contents (Elt Ideal)) (x1 : (⟨S2720000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S2720000, .i32⟩ : BufTy).Contents (Elt Ideal)) (x15 : (⟨S2720000, .i32⟩ : BufTy).Contents (Elt Ideal)) :
    val_main_v126 (F := Ideal) x0 x1 x2 x3 x4 x5 x6 x7 x8 x9 x10 x11 x12 x13 x14 x15 = Cert.Target.G x0 x1 x2 x3 x4 x5 x6 x7 x8 x9 x10 x11 x12 x13 x14 x15 := by
  unfold val_main_v126
  rw [RefLayer1.normed_eq, RefLayer2.normed_eq, RefLayer3.normed_eq, e1_eq, e2_eq, e3_eq]
  rfl

/-! ## The run -/

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v126) = Cert.Target.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ h c => ⟨(h c main_v126).trans ((RefAfter.after_ops (F := Ideal) _).trans (val_eq_G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))),
      (h c main_arg0).trans (RefAfter.after_ops_arg0 (F := Ideal) _),
      (h c main_arg1).trans (RefAfter.after_ops_arg1 (F := Ideal) _),
      (h c main_arg2).trans (RefAfter.after_ops_arg2 (F := Ideal) _),
      (h c main_arg3).trans (RefAfter.after_ops_arg3 (F := Ideal) _),
      (h c main_arg4).trans (RefAfter.after_ops_arg4 (F := Ideal) _),
      (h c main_arg5).trans (RefAfter.after_ops_arg5 (F := Ideal) _),
      (h c main_arg6).trans (RefAfter.after_ops_arg6 (F := Ideal) _),
      (h c main_arg7).trans (RefAfter.after_ops_arg7 (F := Ideal) _),
      (h c main_arg8).trans (RefAfter.after_ops_arg8 (F := Ideal) _),
      (h c main_arg9).trans (RefAfter.after_ops_arg9 (F := Ideal) _),
      (h c main_arg10).trans (RefAfter.after_ops_arg10 (F := Ideal) _),
      (h c main_arg11).trans (RefAfter.after_ops_arg11 (F := Ideal) _),
      (h c main_arg12).trans (RefAfter.after_ops_arg12 (F := Ideal) _),
      (h c main_arg13).trans (RefAfter.after_ops_arg13 (F := Ideal) _),
      (h c main_arg14).trans (RefAfter.after_ops_arg14 (F := Ideal) _),
      (h c main_arg15).trans (RefAfter.after_ops_arg15 (F := Ideal) _)⟩)
    (run_seq ValueP.scopedRefs_eq ValueP.scopedSems_eq defs main (fun _ => ValueP.ops) ValueP.main_eq (fun _ => ValueP.ops_sub) m ρ)

end Cert.ReferenceIdeal.RefValue

end
-- ==== Proof.lean ====
/-
  Both programs compute three layers of a bi-interaction graph convolution over a sparse adjacency A (COO: values,
  row words, column words) and return the input embeddings joined with each layer's row-normalised embeddings:

      side = A · ego                                       (gather the column's row, scale, add into the row's row)
      new  = leaky((ego + side) · w1 + b1) + leaky((ego ∗ side) · w2 + b2)
      out  = [ e0 | normed(new 1) | normed(new 2) | normed(new 3) ],   normed(x) = x / max(‖x‖₂ per row, 1e-12).

  The reference does this with whole-array host operations. The kernel program aggregates on the host too (its
  gathered rows passing through bf16 and back: the identity at the ideal instance) and runs the dense part in a
  kernel over blocks of 5000 rows: the two affine maps as ONE product of [ego + side | ego ∗ side] with the
  block-diagonal weight [[w1, 0], [0, w2]] plus the joined bias [b1 | b2], sliced back into its halves. The two
  agree over the extended reals because a product with 0 is 0 for every extended real, so the zero blocks contribute
  nothing to either half — no finiteness of the inputs is used — and because a row of the layer reads only that row
  of ego and side, so 34 blocks of 5000 rows tile the 170000 rows.

  Frames: the kernel program is seven items (host stretch, launch, … , host stretch); its run is proved once for any
  float instance (each launch's body by symbolic execution, the pipeline's proof data, the fold of boundary
  contents) and cited at the word level and at the ideal instance. The reference's run composes its host operations.
  The kernel's idealization rewrote nothing, so `preserves` has no conjunct.
-/
import proofs.«115229_j70806830842640_2_alg».proof.Defs
import proofs.«115229_j70806830842640_2_alg».proof.Proof.Gen.Kernel
import proofs.«115229_j70806830842640_2_alg».proof.Proof.Gen.KernelIdeal
import proofs.«115229_j70806830842640_2_alg».proof.Proof.Gen.ReferenceIdeal
import proofs.«115229_j70806830842640_2_alg».proof.Proof.Gen.Pre_finite_inputs
import proofs.«115229_j70806830842640_2_alg».proof.Proof.KernelRun
import proofs.«115229_j70806830842640_2_alg».proof.Proof.KernelIdealResult
import proofs.«115229_j70806830842640_2_alg».proof.Proof.Bridge
import proofs.«115229_j70806830842640_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Frame.frame m ρ

/-- So does the idealized kernel program. -/
theorem frame_ki : Cert.frame_KernelIdeal := fun m ρ _ => Cert.KernelIdeal.Frame.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- From memories agreeing on the arguments both programs end with the result buffer at ONE function of the argument
    arrays: the kernel program's at its own spelling of it (the run read back), the reference's at Target.G, and the
    two spellings are equal. -/
theorem algebraic : Cert.algebraic_KernelIdeal_ReferenceIdeal := by
  intro m ρ m' ρ' _ hagree
  refine ⟨fun c => Cert.KernelIdeal.Result.KG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Result.kernel_run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.Bridge.KG_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
